-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x602 : Shape := ⟨2, ![100000, 602]⟩
abbrev S3x1600000 : Shape := ⟨2, ![3, 1600000]⟩
abbrev S602x128 : Shape := ⟨2, ![602, 128]⟩
abbrev S128 : Shape := ⟨1, ![128]⟩
abbrev S128x128 : Shape := ⟨2, ![128, 128]⟩
abbrev S128x41 : Shape := ⟨2, ![128, 41]⟩
abbrev S41 : Shape := ⟨1, ![41]⟩
abbrev S_ : Shape := ⟨0, ![]⟩

class Facts : Prop where
  bcast_S_S100000x602 : S_.BroadcastsInDim S100000x602 (![] : Fin 0 → Fin S100000x602.rank)
  reducesTo_S100000x602_S_d0_1 : S100000x602.ReducesTo [0, 1] S_
  h_S_ : 0 < S_.numel
  bcast_S_S3x1600000 : S_.BroadcastsInDim S3x1600000 (![] : Fin 0 → Fin S3x1600000.rank)
  reducesTo_S3x1600000_S_d0_1 : S3x1600000.ReducesTo [0, 1] S_
  bcast_S_S602x128 : S_.BroadcastsInDim S602x128 (![] : Fin 0 → Fin S602x128.rank)
  reducesTo_S602x128_S_d0_1 : S602x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x41 : S_.BroadcastsInDim S128x41 (![] : Fin 0 → Fin S128x41.rank)
  reducesTo_S128x41_S_d0_1 : S128x41.ReducesTo [0, 1] S_
  bcast_S_S41 : S_.BroadcastsInDim S41 (![] : Fin 0 → Fin S41.rank)
  reducesTo_S41_S_d0 : S41.ReducesTo [0] S_

variable [Facts]

def fn_part3 {F : FTy → Type} [FloatOps F] (main_arg13 : FVec F S41 .f32) (main_v48 : IVec S_ 1) (main_v49 : FVec F S128x41 .f32) (main_v50 : FVec F S128x41 .f32) : IVec S_ 1 :=
  let main_v51 : IVec S128x41 1 := cmpf .olt main_v49 main_v50
  let main_c_19 : IVec S_ 1 := constantI S_ 1 1#1
  let main_v52 : IVec S_ 1 := (fun x v => Host.reduce IntOp.andi x v reducesTo_S128x41_S_d0_1 h_S_) main_v51 main_c_19
  let main_v53 : IVec S_ 1 := andi main_v48 main_v52
  let main_v54 : FVec F S41 .f32 := Host.absf main_arg13
  let main_cst_20 : FVec F S_ .f32 := constant S_ .f32 0x7F800000#32
  let main_v55 : FVec F S41 .f32 := broadcastInDim S41 ![] bcast_S_S41 main_cst_20
  let main_v56 : IVec S41 1 := cmpf .olt main_v54 main_v55
  let main_c_21 : IVec S_ 1 := constantI S_ 1 1#1
  let main_v57 : IVec S_ 1 := (fun x v => Host.reduce IntOp.andi x v reducesTo_S41_S_d0 h_S_) main_v56 main_c_21
  let main_v58 : IVec S_ 1 := andi main_v53 main_v57
  main_v58

def fn_part2 {F : FTy → Type} [FloatOps F] (main_arg9 : FVec F S128 .f32) (main_arg10 : FVec F S128 .f32) (main_arg11 : FVec F S128 .f32) (main_arg12 : FVec F S128x41 .f32) (main_arg13 : FVec F S41 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x41 .f32 := Host.absf main_arg12
  let main_cst_18 : FVec F S_ .f32 := constant S_ .f32 0x7F800000#32
  let main_v50 : FVec F S128x41 .f32 := broadcastInDim S128x41 ![] bcast_S_S128x41 main_cst_18
  fn_part3 (F := F) main_arg13 main_v48 main_v49 main_v50

def fn_part1 {F : FTy → Type} [FloatOps F] (main_arg6 : FVec F S128x128 .f32) (main_arg7 : FVec F S128 .f32) (main_arg8 : FVec F S128x128 .f32) (main_arg9 : FVec F S128 .f32) (main_arg10 : FVec F S128 .f32) (main_arg11 : FVec F S128 .f32) (main_arg12 : FVec F S128x41 .f32) (main_arg13 : FVec F S41 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x602 .f32) (main_arg1 : IVec S3x1600000 32) (main_arg2 : IVec S3x1600000 32) (main_arg3 : FVec F S3x1600000 .f32) (main_arg4 : FVec F S602x128 .f32) (main_arg5 : FVec F S128 .f32) (main_arg6 : FVec F S128x128 .f32) (main_arg7 : FVec F S128 .f32) (main_arg8 : FVec F S128x128 .f32) (main_arg9 : FVec F S128 .f32) (main_arg10 : FVec F S128 .f32) (main_arg11 : FVec F S128 .f32) (main_arg12 : FVec F S128x41 .f32) (main_arg13 : FVec F S41 .f32) : IVec S_ 1 :=
  let main_v0 : FVec F S100000x602 .f32 := Host.absf main_arg0
  let main_cst : FVec F S_ .f32 := constant S_ .f32 0x7F800000#32
  let main_v1 : FVec F S100000x602 .f32 := broadcastInDim S100000x602 ![] bcast_S_S100000x602 main_cst
  let main_v2 : IVec S100000x602 1 := cmpf .olt main_v0 main_v1
  let main_c : IVec S_ 1 := constantI S_ 1 1#1
  let main_v3 : IVec S_ 1 := (fun x v => Host.reduce IntOp.andi x v reducesTo_S100000x602_S_d0_1 h_S_) main_v2 main_c
  let main_v4 : FVec F S3x1600000 .f32 := Host.absf main_arg3
  let main_cst_0 : FVec F S_ .f32 := constant S_ .f32 0x7F800000#32
  let main_v5 : FVec F S3x1600000 .f32 := broadcastInDim S3x1600000 ![] bcast_S_S3x1600000 main_cst_0
  let main_v6 : IVec S3x1600000 1 := cmpf .olt main_v4 main_v5
  let main_c_1 : IVec S_ 1 := constantI S_ 1 1#1
  let main_v7 : IVec S_ 1 := (fun x v => Host.reduce IntOp.andi x v reducesTo_S3x1600000_S_d0_1 h_S_) main_v6 main_c_1
  let main_v8 : IVec S_ 1 := andi main_v3 main_v7
  let main_v9 : FVec F S602x128 .f32 := Host.absf main_arg4
  let main_cst_2 : FVec F S_ .f32 := constant S_ .f32 0x7F800000#32
  let main_v10 : FVec F S602x128 .f32 := broadcastInDim S602x128 ![] bcast_S_S602x128 main_cst_2
  let main_v11 : IVec S602x128 1 := cmpf .olt main_v9 main_v10
  let main_c_3 : IVec S_ 1 := constantI S_ 1 1#1
  let main_v12 : IVec S_ 1 := (fun x v => Host.reduce IntOp.andi x v reducesTo_S602x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_v13 main_v16
-- ==== Kernel.lean ====
abbrev S100000x602 : Shape := ⟨2, ![100000, 602]⟩
abbrev S3x1600000 : Shape := ⟨2, ![3, 1600000]⟩
abbrev S602x128 : Shape := ⟨2, ![602, 128]⟩
abbrev S128 : Shape := ⟨1, ![128]⟩
abbrev S128x128 : Shape := ⟨2, ![128, 128]⟩
abbrev S128x41 : Shape := ⟨2, ![128, 41]⟩
abbrev S41 : Shape := ⟨1, ![41]⟩
abbrev S100000x128 : Shape := ⟨2, ![100000, 128]⟩
abbrev S5000x602 : Shape := ⟨2, ![5000, 602]⟩
abbrev S5000x128 : Shape := ⟨2, ![5000, 128]⟩
abbrev S1x1600000 : Shape := ⟨2, ![1, 1600000]⟩
abbrev S1600000 : Shape := ⟨1, ![1600000]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩
abbrev S5000 : Shape := ⟨1, ![5000]⟩
abbrev S5000x1 : Shape := ⟨2, ![5000, 1]⟩
abbrev S1x41 : Shape := ⟨2, ![1, 41]⟩
abbrev S100000x41 : Shape := ⟨2, ![100000, 41]⟩
abbrev S5000x41 : Shape := ⟨2, ![5000, 41]⟩

abbrev nBuf : Space → Nat
  | .hbm => 94
  | .vmem => 30
  | .smem => 0
  | _ => 0

abbrev bufTy : (tb : Table) → Fin (tcTables nBuf tb) → BufTy
  | .hbm, ⟨0, _⟩ => ⟨S100000x602, .f32⟩
  | .hbm, ⟨1, _⟩ => ⟨S3x1600000, .i32⟩
  | .hbm, ⟨2, _⟩ => ⟨S3x1600000, .i32⟩
  | .hbm, ⟨3, _⟩ => ⟨S3x1600000, .f32⟩
  | .hbm, ⟨4, _⟩ => ⟨S602x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128x41, .f32⟩
  | .hbm, ⟨13, _⟩ => ⟨S41, .f32⟩
  | .hbm, ⟨14, _⟩ => ⟨S100000x128, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S1x1600000, .f32⟩
  | .hbm, ⟨20, _⟩ => ⟨S1600000, .f32⟩
  | .hbm, ⟨21, _⟩ => ⟨S1600000x1, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x128, .f32⟩
  | .hbm, ⟨31, _⟩ => ⟨S1600000x128, .f32⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S100000x128, .f32⟩
  | .hbm, ⟨41, _⟩ => ⟨S1x1600000, .i32⟩
  | .hbm, ⟨42, _⟩ => ⟨S1600000, .i32⟩
  | .hbm, ⟨43, _⟩ => ⟨S1x1600000, .i32⟩
  | .hbm, ⟨44, _⟩ => ⟨S1600000, .i32⟩
  | .hbm, ⟨45, _⟩ => ⟨S1x1600000, .f32⟩
  | .hbm, ⟨46, _⟩ => ⟨S1600000, .f32⟩
  | .hbm, ⟨47, _⟩ => ⟨S1600000x1, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S1600000x128, .f32⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S1x128, .f32⟩
  | .hbm, ⟨64, _⟩ => ⟨S1x128, .f32⟩
  | .hbm, ⟨65, _⟩ => ⟨S1x128, .f32⟩
  | .hbm, ⟨66, _⟩ => ⟨S100000x128, .f32⟩
  | .hbm, ⟨67, _⟩ => ⟨S1x1600000, .i32⟩
  | .hbm, ⟨68, _⟩ => ⟨S1600000, .i32⟩
  | .hbm, ⟨69, _⟩ => ⟨S1x1600000, .i32⟩
  | .hbm, ⟨70, _⟩ => ⟨S1600000, .i32⟩
  | .hbm, ⟨71, _⟩ => ⟨S1x1600000, .f32⟩
  | .hbm, ⟨72, _⟩ => ⟨S1600000, .f32⟩
  | .hbm, ⟨73, _⟩ => ⟨S1600000x1, .f32⟩
  | .hbm, ⟨74, _⟩ => ⟨S_, .i32⟩
  | .hbm, ⟨75, _⟩ => ⟨S1600000, .i32⟩
  | .hbm, ⟨76, _⟩ => ⟨S1600000, .i1⟩
  | .hbm, ⟨77, _⟩ => ⟨S_, .i32⟩
  | .hbm, ⟨78, _⟩ => ⟨S1600000, .i32⟩
  | .hbm, ⟨79, _⟩ => ⟨S1600000, .i32⟩
  | .hbm, ⟨80, _⟩ => ⟨S1600000, .i32⟩
  | .hbm, ⟨81, _⟩ => ⟨S1600000x1, .i32⟩
  | .hbm, ⟨82, _⟩ => ⟨S1600000x128, .f32⟩
  | .hbm, ⟨83, _⟩ => ⟨S1600000x128, .f32⟩
  | .hbm, ⟨84, _⟩ => ⟨S1600000x128, .f32⟩
  | .hbm, ⟨85, _⟩ => ⟨S_, .f32⟩
  | .hbm, ⟨86, _⟩ => ⟨S100000x128, .f32⟩
  | .hbm, ⟨87, _⟩ => ⟨S1600000x1, .i32⟩
  | .hbm, ⟨88, _⟩ => ⟨S100000x128, .f32⟩
  | .hbm, ⟨89, _⟩ => ⟨S1x128, .f32⟩
  | .hbm, ⟨90, _⟩ => ⟨S1x128, .f32⟩
  | .hbm, ⟨91, _⟩ => ⟨S1x128, .f32⟩
  | .hbm, ⟨92, _⟩ => ⟨S1x41, .f32⟩
  | .hbm, ⟨93, _⟩ => ⟨S100000x41, .f32⟩
  | .local _ .vmem, ⟨0, _⟩ => ⟨S5000x602, .f32⟩
  | .local _ .vmem, ⟨1, _⟩ => ⟨S5000x602, .f32⟩
  | .local _ .vmem, ⟨2, _⟩ => ⟨S602x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S128x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S128x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S128x41, .f32⟩
  | .local _ .vmem, ⟨27, _⟩ => ⟨S1x41, .f32⟩
  | .local _ .vmem, ⟨28, _⟩ => ⟨S5000x41, .f32⟩
  | .local _ .vmem, ⟨29, _⟩ => ⟨S5000x41, .f32⟩
  | _, _ => ⟨S100000x602, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c : Ref sig .tc := ⟨.hbm, 22, rfl⟩
abbrev main_v8 : Ref sig .tc := ⟨.hbm, 23, rfl⟩
abbrev main_v9 : Ref sig .tc := ⟨.hbm, 24, rfl⟩
abbrev main_c_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_1 : Ref sig .tc := ⟨.hbm, 48, rfl⟩
abbrev main_v31 : Ref sig .tc := ⟨.hbm, 49, rfl⟩
abbrev main_v32 : Ref sig .tc := ⟨.hbm, 50, rfl⟩
abbrev main_c_2 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_3 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c_4 : Ref sig .tc := ⟨.hbm, 74, rfl⟩
abbrev main_v54 : Ref sig .tc := ⟨.hbm, 75, rfl⟩
abbrev main_v55 : Ref sig .tc := ⟨.hbm, 76, rfl⟩
abbrev main_c_5 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_6 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg6_0 : Ref sig .tc := ⟨.vmem, 28, rfl⟩
abbrev cc3_stg6_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem4_0 : DmaSem sig := 26
abbrev cc3_sem5_0 : DmaSem sig := 27
abbrev cc3_sem6_0 : DmaSem sig := 28
abbrev cc3_sem6_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x602 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S602x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x41 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x41 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x41 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  inb_S5000x602_S5000x602_0_0 : ∀ a, (![0, 0] : Fin 2 → Nat) a + S5000x602.size a ≤ S5000x602.size a
  h_S5000x602 : 0 < S5000x602.numel
  inb_S602x128_S602x128_0_0 : ∀ a, (![0, 0] : Fin 2 → Nat) a + S602x128.size a ≤ S602x128.size a
  h_S602x128 : 0 < S602x128.numel
  inb_S5000x128_S5000x128_0_0 : ∀ a, (![0, 0] : Fin 2 → Nat) a + S5000x128.size a ≤ S5000x128.size a
  h_S5000x128 : 0 < S5000x128.numel
  slices_S3x1600000_S1x1600000_0_0 : S3x1600000.Slices ![0, 0] S1x1600000
  shapeCasts_S1x1600000_S1600000 : S1x1600000.ShapeCasts S1600000
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  slices_S3x1600000_S1x1600000_1_0 : S3x1600000.Slices ![1, 0] S1x1600000
  slices_S3x1600000_S1x1600000_2_0 : S3x1600000.Slices ![2, 0] S1x1600000
  shapeCasts_S41_S1x41 : S41.ShapeCasts S1x41
  inb_S128x41_S128x41_0_0 : ∀ a, (![0, 0] : Fin 2 → Nat) a + S128x41.size a ≤ S128x41.size a
  h_S128x41 : 0 < S128x41.numel
  inb_S1x41_S1x41_0_0 : ∀ a, (![0, 0] : Fin 2 → Nat) a + S1x41.size a ≤ S1x41.size a
  h_S1x41 : 0 < S1x41.numel
  shapeCasts_S1x41_S1x41 : S1x41.ShapeCasts S1x41
  broadcasts_S1x41_S5000x41 : S1x41.Broadcasts S5000x41
  reduces_S5000x41_S5000 : S5000x41.Reduces [1] S5000
  broadcasts_S5000x1_S5000x41 : S5000x1.Broadcasts S5000x41
  inb_S5000x41_S5000x41_0_0 : ∀ a, (![0, 0] : Fin 2 → Nat) a + S5000x41.size a ≤ S5000x41.size a
  h_S5000x41 : 0 < S5000x41.numel
  dot_S5000x602_S602x128_S5000x128_1_0_0_1_n_n_wf : DotDims.WF S5000x602 S602x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x41_S5000x41_1_0_0_1_n_n_wf : DotDims.WF S5000x128 S128x41 S5000x41 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x602.size a ≤ S100000x602.size a
  hwx0_0 : ∀ i : grid0.Coords, EltTy.bits .f32 = 32 ∨ (Rect.block (s := S100000x602) S5000x602.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S602x128.size a ≤ S602x128.size a
  hwx0_1 : ∀ i : grid0.Coords, EltTy.bits .f32 = 32 ∨ (Rect.block (s := S602x128) S602x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x41.size a ≤ S128x41.size a
  hwx3_4 : ∀ i : grid3.Coords, EltTy.bits .f32 = 32 ∨ (Rect.block (s := S128x41) S128x41.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x41.size a ≤ S1x41.size a
  hwx3_5 : ∀ i : grid3.Coords, EltTy.bits .f32 = 32 ∨ (Rect.block (s := S1x41) S1x41.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x41.size a ≤ S100000x41.size a
  hwx3_6 : ∀ i : grid3.Coords, EltTy.bits .f32 = 32 ∨ (Rect.block (s := S100000x41) S5000x41.size (cc3_transform_6 i) (hinb3_6 i)).WholeWords (EltTy.packing .f32)

variable [Facts₀]

def dot_S5000x602_S602x128_S5000x128_1_0_0_1_n_n : DotDims S5000x602 S602x128 S5000x128 where
  lhsContracting := [1]
  rhsContracting := [0]
  lhsNonContracting := [0]
  rhsNonContracting := [1]
  lhsBatch := []
  rhsBatch := []
  wf := dot_S5000x602_S602x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x41_S5000x41_1_0_0_1_n_n : DotDims S5000x128 S128x41 S5000x41 where
  lhsContracting := [1]
  rhsContracting := [0]
  lhsNonContracting := [0]
  rhsNonContracting := [1]
  lhsBatch := []
  rhsBatch := []
  wf := dot_S5000x128_S128x41_S5000x41_1_0_0_1_n_n_wf

abbrev win0_0 : Pipeline.Window sig grid0 :=
  Pipeline.Window.ofSpec (Memref.whole main_arg0) S5000x602.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S602x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v19) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v45) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v46) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v65) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v66) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v67) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v68) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg12) S128x41.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v69) S1x41.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v70) S5000x41.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x602 : Shape := ⟨2, ![100000, 602]⟩
abbrev S3x1600000 : Shape := ⟨2, ![3, 1600000]⟩
abbrev S602x128 : Shape := ⟨2, ![602, 128]⟩
abbrev S128 : Shape := ⟨1, ![128]⟩
abbrev S128x128 : Shape := ⟨2, ![128, 128]⟩
abbrev S128x41 : Shape := ⟨2, ![128, 41]⟩
abbrev S41 : Shape := ⟨1, ![41]⟩
abbrev S1x1600000 : Shape := ⟨2, ![1, 1600000]⟩
abbrev S1600000 : Shape := ⟨1, ![1600000]⟩
abbrev S100000x128 : Shape := ⟨2, ![100000, 128]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩
abbrev S100000 : Shape := ⟨1, ![100000]⟩
abbrev S100000x1 : Shape := ⟨2, ![100000, 1]⟩
abbrev S100000x41 : Shape := ⟨2, ![100000, 41]⟩
abbrev S1x41 : Shape := ⟨2, ![1, 41]⟩

abbrev nBuf : Space → Nat
  | .hbm => 252
  | .vmem => 0
  | .smem => 0
  | _ => 0

abbrev hbmTy0_0 (i : Nat) : BufTy := match i % 128 with
  | 0 => ⟨S100000x602, .f32⟩
  | 1 => ⟨S3x1600000, .i32⟩
  | 2 => ⟨S3x1600000, .i32⟩
  | 3 => ⟨S3x1600000, .f32⟩
  | 4 => ⟨S602x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128, .f32⟩
  | 11 => ⟨S128, .f32⟩
  | 12 => ⟨S128x41, .f32⟩
  | 13 => ⟨S41, .f32⟩
  | 14 => ⟨S1x1600000, .i32⟩
  | 15 => ⟨S1600000, .i32⟩
  | 16 => ⟨S1x1600000, .i32⟩
  | 17 => ⟨S1600000, .i32⟩
  | 18 => ⟨S1x1600000, .f32⟩
  | 19 => ⟨S1600000, .f32⟩
  | 20 => ⟨S100000x128, .f32⟩
  | 21 => ⟨S1600000x1, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000x128, .f32⟩
  | 31 => ⟨S1600000x128, .f32⟩
  | 32 => ⟨S1600000x128, .f32⟩
  | 33 => ⟨S_, .f32⟩
  | 34 => ⟨S100000x128, .f32⟩
  | 35 => ⟨S1600000x1, .i32⟩
  | 36 => ⟨S100000x128, .f32⟩
  | 37 => ⟨S1x128, .f32⟩
  | 38 => ⟨S100000x128, .f32⟩
  | 39 => ⟨S100000x128, .f32⟩
  | 40 => ⟨S_, .f32⟩
  | 41 => ⟨S100000, .f32⟩
  | 42 => ⟨S100000x1, .f32⟩
  | 43 => ⟨S_, .f32⟩
  | 44 => ⟨S100000x1, .f32⟩
  | 45 => ⟨S100000x1, .f32⟩
  | 46 => ⟨S_, .i32⟩
  | 47 => ⟨S_, .f32⟩
  | 48 => ⟨S100000, .f32⟩
  | 49 => ⟨S100000x1, .f32⟩
  | 50 => ⟨S_, .f32⟩
  | 51 => ⟨S100000x1, .f32⟩
  | 52 => ⟨S100000x1, .f32⟩
  | 53 => ⟨S100000x128, .f32⟩
  | 54 => ⟨S100000x128, .f32⟩
  | 55 => ⟨S100000x128, .f32⟩
  | 56 => ⟨S_, .f32⟩
  | 57 => ⟨S_, .f32⟩
  | 58 => ⟨S_, .f32⟩
  | 59 => ⟨S_, .f32⟩
  | 60 => ⟨S100000, .f32⟩
  | 61 => ⟨S100000x1, .f32⟩
  | 62 => ⟨S100000x1, .f32⟩
  | 63 => ⟨S100000x1, .f32⟩
  | 64 => ⟨S_, .f32⟩
  | 65 => ⟨S_, .i1⟩
  | 66 => ⟨S_, .f32⟩
  | 67 => ⟨S_, .f32⟩
  | 68 => ⟨S100000x1, .f32⟩
  | 69 => ⟨S100000x1, .f32⟩
  | 70 => ⟨S100000x128, .f32⟩
  | 71 => ⟨S100000x128, .f32⟩
  | 72 => ⟨S_, .f32⟩
  | 73 => ⟨S100000x1, .f32⟩
  | 74 => ⟨S100000x1, .f32⟩
  | 75 => ⟨S100000x1, .f32⟩
  | 76 => ⟨S100000x128, .f32⟩
  | 77 => ⟨S100000x128, .f32⟩
  | 78 => ⟨S1x128, .f32⟩
  | 79 => ⟨S100000x128, .f32⟩
  | 80 => ⟨S100000x128, .f32⟩
  | 81 => ⟨S1x128, .f32⟩
  | 82 => ⟨S100000x128, .f32⟩
  | 83 => ⟨S100000x128, .f32⟩
  | 84 => ⟨S_, .f32⟩
  | 85 => ⟨S100000x128, .f32⟩
  | 86 => ⟨S100000x128, .f32⟩
  | 87 => ⟨S1x1600000, .i32⟩
  | 88 => ⟨S1600000, .i32⟩
  | 89 => ⟨S1x1600000, .i32⟩
  | 90 => ⟨S1600000, .i32⟩
  | 91 => ⟨S1x1600000, .f32⟩
  | 92 => ⟨S1600000, .f32⟩
  | 93 => ⟨S100000x128, .f32⟩
  | 94 => ⟨S1600000x1, .f32⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000x128, .f32⟩
  | 104 => ⟨S1600000x128, .f32⟩
  | 105 => ⟨S1600000x128, .f32⟩
  | 106 => ⟨S_, .f32⟩
  | 107 => ⟨S100000x128, .f32⟩
  | 108 => ⟨S1600000x1, .i32⟩
  | 109 => ⟨S100000x128, .f32⟩
  | 110 => ⟨S1x128, .f32⟩
  | 111 => ⟨S100000x128, .f32⟩
  | 112 => ⟨S100000x128, .f32⟩
  | 113 => ⟨S_, .f32⟩
  | 114 => ⟨S100000, .f32⟩
  | 115 => ⟨S100000x1, .f32⟩
  | 116 => ⟨S_, .f32⟩
  | 117 => ⟨S100000x1, .f32⟩
  | 118 => ⟨S100000x1, .f32⟩
  | 119 => ⟨S_, .i32⟩
  | 120 => ⟨S_, .f32⟩
  | 121 => ⟨S100000, .f32⟩
  | 122 => ⟨S100000x1, .f32⟩
  | 123 => ⟨S_, .f32⟩
  | 124 => ⟨S100000x1, .f32⟩
  | 125 => ⟨S100000x1, .f32⟩
  | 126 => ⟨S100000x128, .f32⟩
  | 127 => ⟨S100000x128, .f32⟩
  | _ => ⟨S100000x602, .f32⟩

abbrev hbmTy0_1 (i : Nat) : BufTy := match i % 128 with
  | 0 => ⟨S100000x128, .f32⟩
  | 1 => ⟨S_, .f32⟩
  | 2 => ⟨S_, .f32⟩
  | 3 => ⟨S_, .f32⟩
  | 4 => ⟨S_, .f32⟩
  | 5 => ⟨S100000, .f32⟩
  | 6 => ⟨S100000x1, .f32⟩
  | 7 => ⟨S100000x1, .f32⟩
  | 8 => ⟨S100000x1, .f32⟩
  | 9 => ⟨S_, .f32⟩
  | 10 => ⟨S_, .i1⟩
  | 11 => ⟨S_, .f32⟩
  | 12 => ⟨S_, .f32⟩
  | 13 => ⟨S100000x1, .f32⟩
  | 14 => ⟨S100000x1, .f32⟩
  | 15 => ⟨S100000x128, .f32⟩
  | 16 => ⟨S100000x128, .f32⟩
  | 17 => ⟨S_, .f32⟩
  | 18 => ⟨S100000x1, .f32⟩
  | 19 => ⟨S100000x1, .f32⟩
  | 20 => ⟨S100000x1, .f32⟩
  | 21 => ⟨S100000x128, .f32⟩
  | 22 => ⟨S100000x128, .f32⟩
  | 23 => ⟨S1x128, .f32⟩
  | 24 => ⟨S100000x128, .f32⟩
  | 25 => ⟨S100000x128, .f32⟩
  | 26 => ⟨S1x128, .f32⟩
  | 27 => ⟨S100000x128, .f32⟩
  | 28 => ⟨S100000x128, .f32⟩
  | 29 => ⟨S_, .f32⟩
  | 30 => ⟨S100000x128, .f32⟩
  | 31 => ⟨S100000x128, .f32⟩
  | 32 => ⟨S1x1600000, .i32⟩
  | 33 => ⟨S1600000, .i32⟩
  | 34 => ⟨S1x1600000, .i32⟩
  | 35 => ⟨S1600000, .i32⟩
  | 36 => ⟨S1x1600000, .f32⟩
  | 37 => ⟨S1600000, .f32⟩
  | 38 => ⟨S100000x128, .f32⟩
  | 39 => ⟨S1600000x1, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000x128, .f32⟩
  | 49 => ⟨S1600000x128, .f32⟩
  | 50 => ⟨S1600000x128, .f32⟩
  | 51 => ⟨S_, .f32⟩
  | 52 => ⟨S100000x128, .f32⟩
  | 53 => ⟨S1600000x1, .i32⟩
  | 54 => ⟨S100000x128, .f32⟩
  | 55 => ⟨S1x128, .f32⟩
  | 56 => ⟨S100000x128, .f32⟩
  | 57 => ⟨S100000x128, .f32⟩
  | 58 => ⟨S_, .f32⟩
  | 59 => ⟨S100000, .f32⟩
  | 60 => ⟨S100000x1, .f32⟩
  | 61 => ⟨S_, .f32⟩
  | 62 => ⟨S100000x1, .f32⟩
  | 63 => ⟨S100000x1, .f32⟩
  | 64 => ⟨S_, .i32⟩
  | 65 => ⟨S_, .f32⟩
  | 66 => ⟨S100000, .f32⟩
  | 67 => ⟨S100000x1, .f32⟩
  | 68 => ⟨S_, .f32⟩
  | 69 => ⟨S100000x1, .f32⟩
  | 70 => ⟨S100000x1, .f32⟩
  | 71 => ⟨S100000x128, .f32⟩
  | 72 => ⟨S100000x128, .f32⟩
  | 73 => ⟨S100000x128, .f32⟩
  | 74 => ⟨S_, .f32⟩
  | 75 => ⟨S_, .f32⟩
  | 76 => ⟨S_, .f32⟩
  | 77 => ⟨S_, .f32⟩
  | 78 => ⟨S100000, .f32⟩
  | 79 => ⟨S100000x1, .f32⟩
  | 80 => ⟨S100000x1, .f32⟩
  | 81 => ⟨S100000x1, .f32⟩
  | 82 => ⟨S_, .f32⟩
  | 83 => ⟨S_, .i1⟩
  | 84 => ⟨S_, .f32⟩
  | 85 => ⟨S_, .f32⟩
  | 86 => ⟨S100000x1, .f32⟩
  | 87 => ⟨S100000x1, .f32⟩
  | 88 => ⟨S100000x128, .f32⟩
  | 89 => ⟨S100000x128, .f32⟩
  | 90 => ⟨S_, .f32⟩
  | 91 => ⟨S100000x1, .f32⟩
  | 92 => ⟨S100000x1, .f32⟩
  | 93 => ⟨S100000x1, .f32⟩
  | 94 => ⟨S100000x128, .f32⟩
  | 95 => ⟨S100000x128, .f32⟩
  | 96 => ⟨S1x128, .f32⟩
  | 97 => ⟨S100000x128, .f32⟩
  | 98 => ⟨S100000x128, .f32⟩
  | 99 => ⟨S1x128, .f32⟩
  | 100 => ⟨S100000x128, .f32⟩
  | 101 => ⟨S100000x128, .f32⟩
  | 102 => ⟨S_, .f32⟩
  | 103 => ⟨S100000x128, .f32⟩
  | 104 => ⟨S100000x128, .f32⟩
  | 105 => ⟨S100000x41, .f32⟩
  | 106 => ⟨S1x41, .f32⟩
  | 107 => ⟨S100000x41, .f32⟩
  | 108 => ⟨S100000x41, .f32⟩
  | 109 => ⟨S_, .f32⟩
  | 110 => ⟨S100000, .f32⟩
  | 111 => ⟨S_, .f32⟩
  | 112 => ⟨S100000, .f32⟩
  | 113 => ⟨S100000, .f32⟩
  | 114 => ⟨S100000x1, .f32⟩
  | 115 => ⟨S100000x41, .f32⟩
  | 116 => ⟨S100000x41, .f32⟩
  | 117 => ⟨S100000x41, .f32⟩
  | 118 => ⟨S_, .f32⟩
  | 119 => ⟨S100000, .f32⟩
  | 120 => ⟨S100000x1, .f32⟩
  | 121 => ⟨S100000x1, .f32⟩
  | 122 => ⟨S100000x41, .f32⟩
  | 123 => ⟨S100000x41, .f32⟩
  | _ => ⟨S100000x602, .f32⟩

abbrev hbmTy (i : Nat) : BufTy := match i / 128 with
  | 0 => hbmTy0_0 i
  | 1 => hbmTy0_1 i
  | _ => ⟨S100000x602, .f32⟩

abbrev bufTy : (tb : Table) → Fin (tcTables nBuf tb) → BufTy
  | .hbm, ⟨i, _⟩ => hbmTy i
  | _, _ => ⟨S100000x602, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c : Ref sig .tc := ⟨.hbm, 22, rfl⟩
abbrev main_v8 : Ref sig .tc := ⟨.hbm, 23, rfl⟩
abbrev main_v9 : Ref sig .tc := ⟨.hbm, 24, rfl⟩
abbrev main_c_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_1 : Ref sig .tc := ⟨.hbm, 40, rfl⟩
abbrev main_v23 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_v26 : Ref sig .tc := ⟨.hbm, 45, rfl⟩
abbrev main_c_3 : Ref sig .tc := ⟨.hbm, 46, rfl⟩
abbrev main_call0_cst : Ref sig .tc := ⟨.hbm, 47, rfl⟩
abbrev main_call0_v0 : Ref sig .tc := ⟨.hbm, 48, rfl⟩
abbrev main_call0_v1 : Ref sig .tc := ⟨.hbm, 49, rfl⟩
abbrev main_call0_cst_0 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_v6 : Ref sig .tc := ⟨.hbm, 55, rfl⟩
abbrev main_call0_v7 : Ref sig .tc := ⟨.hbm, 56, rfl⟩
abbrev main_call0_cst_1 : Ref sig .tc := ⟨.hbm, 57, rfl⟩
abbrev main_call0_v8 : Ref sig .tc := ⟨.hbm, 58, rfl⟩
abbrev main_call0_cst_2 : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_call0_v12 : Ref sig .tc := ⟨.hbm, 63, rfl⟩
abbrev main_call0_cst_3 : Ref sig .tc := ⟨.hbm, 64, rfl⟩
abbrev main_call0_v13 : Ref sig .tc := ⟨.hbm, 65, rfl⟩
abbrev main_call0_cst_4 : Ref sig .tc := ⟨.hbm, 66, rfl⟩
abbrev main_call0_call0_v0 : Ref sig .tc := ⟨.hbm, 67, rfl⟩
abbrev main_call0_call0_v1 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_cst_4 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_call1_cst : Ref sig .tc := ⟨.hbm, 84, rfl⟩
abbrev main_call1_v0 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_c_5 : Ref sig .tc := ⟨.hbm, 95, rfl⟩
abbrev main_v50 : Ref sig .tc := ⟨.hbm, 96, rfl⟩
abbrev main_v51 : Ref sig .tc := ⟨.hbm, 97, rfl⟩
abbrev main_c_6 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_cst_7 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_cst_8 : Ref sig .tc := ⟨.hbm, 113, rfl⟩
abbrev main_v65 : Ref sig .tc := ⟨.hbm, 114, rfl⟩
abbrev main_v66 : Ref sig .tc := ⟨.hbm, 115, rfl⟩
abbrev main_cst_9 : Ref sig .tc := ⟨.hbm, 116, rfl⟩
abbrev main_v67 : Ref sig .tc := ⟨.hbm, 117, rfl⟩
abbrev main_v68 : Ref sig .tc := ⟨.hbm, 118, rfl⟩
abbrev main_c_10 : Ref sig .tc := ⟨.hbm, 119, rfl⟩
abbrev main_call2_cst : Ref sig .tc := ⟨.hbm, 120, rfl⟩
abbrev main_call2_v0 : Ref sig .tc := ⟨.hbm, 121, rfl⟩
abbrev main_call2_v1 : Ref sig .tc := ⟨.hbm, 122, rfl⟩
abbrev main_call2_cst_0 : Ref sig .tc := ⟨.hbm, 123, rfl⟩
abbrev main_call2_v2 : Ref sig .tc := ⟨.hbm, 124, rfl⟩
abbrev main_call2_v3 : Ref sig .tc := ⟨.hbm, 125, rfl⟩
abbrev main_call2_v4 : Ref sig .tc := ⟨.hbm, 126, rfl⟩
abbrev main_call2_v5 : Ref sig .tc := ⟨.hbm, 127, rfl⟩
abbrev main_call2_v6 : Ref sig .tc := ⟨.hbm, 128, rfl⟩
abbrev main_call2_v7 : Ref sig .tc := ⟨.hbm, 129, rfl⟩
abbrev main_call2_cst_1 : Ref sig .tc := ⟨.hbm, 130, rfl⟩
abbrev main_call2_v8 : Ref sig .tc := ⟨.hbm, 131, rfl⟩
abbrev main_call2_cst_2 : Ref sig .tc := ⟨.hbm, 132, rfl⟩
abbrev main_call2_v9 : Ref sig .tc := ⟨.hbm, 133, rfl⟩
abbrev main_call2_v10 : Ref sig .tc := ⟨.hbm, 134, rfl⟩
abbrev main_call2_v11 : Ref sig .tc := ⟨.hbm, 135, rfl⟩
abbrev main_call2_v12 : Ref sig .tc := ⟨.hbm, 136, rfl⟩
abbrev main_call2_cst_3 : Ref sig .tc := ⟨.hbm, 137, rfl⟩
abbrev main_call2_v13 : Ref sig .tc := ⟨.hbm, 138, rfl⟩
abbrev main_call2_cst_4 : Ref sig .tc := ⟨.hbm, 139, rfl⟩
abbrev main_call2_call0_v0 : Ref sig .tc := ⟨.hbm, 140, rfl⟩
abbrev main_call2_call0_v1 : Ref sig .tc := ⟨.hbm, 141, rfl⟩
abbrev main_v69 : Ref sig .tc := ⟨.hbm, 142, rfl⟩
abbrev main_v70 : Ref sig .tc := ⟨.hbm, 143, rfl⟩
abbrev main_v71 : Ref sig .tc := ⟨.hbm, 144, rfl⟩
abbrev main_cst_11 : Ref sig .tc := ⟨.hbm, 145, rfl⟩
abbrev main_v72 : Ref sig .tc := ⟨.hbm, 146, rfl⟩
abbrev main_v73 : Ref sig .tc := ⟨.hbm, 147, rfl⟩
abbrev main_v74 : Ref sig .tc := ⟨.hbm, 148, rfl⟩
abbrev main_v75 : Ref sig .tc := ⟨.hbm, 149, rfl⟩
abbrev main_v76 : Ref sig .tc := ⟨.hbm, 150, rfl⟩
abbrev main_v77 : Ref sig .tc := ⟨.hbm, 151, rfl⟩
abbrev main_v78 : Ref sig .tc := ⟨.hbm, 152, rfl⟩
abbrev main_v79 : Ref sig .tc := ⟨.hbm, 153, rfl⟩
abbrev main_v80 : Ref sig .tc := ⟨.hbm, 154, rfl⟩
abbrev main_v81 : Ref sig .tc := ⟨.hbm, 155, rfl⟩
abbrev main_v82 : Ref sig .tc := ⟨.hbm, 156, rfl⟩
abbrev main_call3_cst : Ref sig .tc := ⟨.hbm, 157, rfl⟩
abbrev main_call3_v0 : Ref sig .tc := ⟨.hbm, 158, rfl⟩
abbrev main_v83 : Ref sig .tc := ⟨.hbm, 159, rfl⟩
abbrev main_v84 : Ref sig .tc := ⟨.hbm, 160, rfl⟩
abbrev main_v85 : Ref sig .tc := ⟨.hbm, 161, rfl⟩
abbrev main_v86 : Ref sig .tc := ⟨.hbm, 162, rfl⟩
abbrev main_v87 : Ref sig .tc := ⟨.hbm, 163, rfl⟩
abbrev main_v88 : Ref sig .tc := ⟨.hbm, 164, rfl⟩
abbrev main_v89 : Ref sig .tc := ⟨.hbm, 165, rfl⟩
abbrev main_v90 : Ref sig .tc := ⟨.hbm, 166, rfl⟩
abbrev main_v91 : Ref sig .tc := ⟨.hbm, 167, rfl⟩
abbrev main_c_12 : Ref sig .tc := ⟨.hbm, 168, rfl⟩
abbrev main_v92 : Ref sig .tc := ⟨.hbm, 169, rfl⟩
abbrev main_v93 : Ref sig .tc := ⟨.hbm, 170, rfl⟩
abbrev main_c_13 : Ref sig .tc := ⟨.hbm, 171, rfl⟩
abbrev main_v94 : Ref sig .tc := ⟨.hbm, 172, rfl⟩
abbrev main_v95 : Ref sig .tc := ⟨.hbm, 173, rfl⟩
abbrev main_v96 : Ref sig .tc := ⟨.hbm, 174, rfl⟩
abbrev main_v97 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_cst_14 : Ref sig .tc := ⟨.hbm, 179, rfl⟩
abbrev main_v101 : Ref sig .tc := ⟨.hbm, 180, rfl⟩
abbrev main_v102 : Ref sig .tc := ⟨.hbm, 181, rfl⟩
abbrev main_v103 : Ref sig .tc := ⟨.hbm, 182, rfl⟩
abbrev main_v104 : Ref sig .tc := ⟨.hbm, 183, rfl⟩
abbrev main_v105 : Ref sig .tc := ⟨.hbm, 184, rfl⟩
abbrev main_v106 : Ref sig .tc := ⟨.hbm, 185, rfl⟩
abbrev main_cst_15 : Ref sig .tc := ⟨.hbm, 186, rfl⟩
abbrev main_v107 : Ref sig .tc := ⟨.hbm, 187, rfl⟩
abbrev main_v108 : Ref sig .tc := ⟨.hbm, 188, rfl⟩
abbrev main_cst_16 : Ref sig .tc := ⟨.hbm, 189, rfl⟩
abbrev main_v109 : Ref sig .tc := ⟨.hbm, 190, rfl⟩
abbrev main_v110 : Ref sig .tc := ⟨.hbm, 191, rfl⟩
abbrev main_c_17 : Ref sig .tc := ⟨.hbm, 192, rfl⟩
abbrev main_call4_cst : Ref sig .tc := ⟨.hbm, 193, rfl⟩
abbrev main_call4_v0 : Ref sig .tc := ⟨.hbm, 194, rfl⟩
abbrev main_call4_v1 : Ref sig .tc := ⟨.hbm, 195, rfl⟩
abbrev main_call4_cst_0 : Ref sig .tc := ⟨.hbm, 196, rfl⟩
abbrev main_call4_v2 : Ref sig .tc := ⟨.hbm, 197, rfl⟩
abbrev main_call4_v3 : Ref sig .tc := ⟨.hbm, 198, rfl⟩
abbrev main_call4_v4 : Ref sig .tc := ⟨.hbm, 199, rfl⟩
abbrev main_call4_v5 : Ref sig .tc := ⟨.hbm, 200, rfl⟩
abbrev main_call4_v6 : Ref sig .tc := ⟨.hbm, 201, rfl⟩
abbrev main_call4_v7 : Ref sig .tc := ⟨.hbm, 202, rfl⟩
abbrev main_call4_cst_1 : Ref sig .tc := ⟨.hbm, 203, rfl⟩
abbrev main_call4_v8 : Ref sig .tc := ⟨.hbm, 204, rfl⟩
abbrev main_call4_cst_2 : Ref sig .tc := ⟨.hbm, 205, rfl⟩
abbrev main_call4_v9 : Ref sig .tc := ⟨.hbm, 206, rfl⟩
abbrev main_call4_v10 : Ref sig .tc := ⟨.hbm, 207, rfl⟩
abbrev main_call4_v11 : Ref sig .tc := ⟨.hbm, 208, rfl⟩
abbrev main_call4_v12 : Ref sig .tc := ⟨.hbm, 209, rfl⟩
abbrev main_call4_cst_3 : Ref sig .tc := ⟨.hbm, 210, rfl⟩
abbrev main_call4_v13 : Ref sig .tc := ⟨.hbm, 211, rfl⟩
abbrev main_call4_cst_4 : Ref sig .tc := ⟨.hbm, 212, rfl⟩
abbrev main_call4_call0_v0 : Ref sig .tc := ⟨.hbm, 213, rfl⟩
abbrev main_call4_call0_v1 : Ref sig .tc := ⟨.hbm, 214, rfl⟩
abbrev main_v111 : Ref sig .tc := ⟨.hbm, 215, rfl⟩
abbrev main_v112 : Ref sig .tc := ⟨.hbm, 216, rfl⟩
abbrev main_v113 : Ref sig .tc := ⟨.hbm, 217, rfl⟩
abbrev main_cst_18 : Ref sig .tc := ⟨.hbm, 218, rfl⟩
abbrev main_v114 : Ref sig .tc := ⟨.hbm, 219, rfl⟩
abbrev main_v115 : Ref sig .tc := ⟨.hbm, 220, rfl⟩
abbrev main_v116 : Ref sig .tc := ⟨.hbm, 221, rfl⟩
abbrev main_v117 : Ref sig .tc := ⟨.hbm, 222, rfl⟩
abbrev main_v118 : Ref sig .tc := ⟨.hbm, 223, rfl⟩
abbrev main_v119 : Ref sig .tc := ⟨.hbm, 224, rfl⟩
abbrev main_v120 : Ref sig .tc := ⟨.hbm, 225, rfl⟩
abbrev main_v121 : Ref sig .tc := ⟨.hbm, 226, rfl⟩
abbrev main_v122 : Ref sig .tc := ⟨.hbm, 227, rfl⟩
abbrev main_v123 : Ref sig .tc := ⟨.hbm, 228, rfl⟩
abbrev main_v124 : Ref sig .tc := ⟨.hbm, 229, rfl⟩
abbrev main_call5_cst : Ref sig .tc := ⟨.hbm, 230, rfl⟩
abbrev main_call5_v0 : Ref sig .tc := ⟨.hbm, 231, rfl⟩
abbrev main_v125 : Ref sig .tc := ⟨.hbm, 232, rfl⟩
abbrev main_v126 : Ref sig .tc := ⟨.hbm, 233, rfl⟩
abbrev main_v127 : Ref sig .tc := ⟨.hbm, 234, rfl⟩
abbrev main_v128 : Ref sig .tc := ⟨.hbm, 235, rfl⟩
abbrev main_v129 : Ref sig .tc := ⟨.hbm, 236, rfl⟩
abbrev main_call6_cst : Ref sig .tc := ⟨.hbm, 237, rfl⟩
abbrev main_call6_v0 : Ref sig .tc := ⟨.hbm, 238, rfl⟩
abbrev main_call6_cst_0 : Ref sig .tc := ⟨.hbm, 239, rfl⟩
abbrev main_call6_v1 : Ref sig .tc := ⟨.hbm, 240, rfl⟩
abbrev main_call6_v2 : Ref sig .tc := ⟨.hbm, 241, rfl⟩
abbrev main_call6_v3 : Ref sig .tc := ⟨.hbm, 242, rfl⟩
abbrev main_call6_v4 : Ref sig .tc := ⟨.hbm, 243, rfl⟩
abbrev main_call6_v5 : Ref sig .tc := ⟨.hbm, 244, rfl⟩
abbrev main_call6_v6 : Ref sig .tc := ⟨.hbm, 245, rfl⟩
abbrev main_call6_cst_1 : Ref sig .tc := ⟨.hbm, 246, rfl⟩
abbrev main_call6_v7 : Ref sig .tc := ⟨.hbm, 247, rfl⟩
abbrev main_call6_v8 : Ref sig .tc := ⟨.hbm, 248, rfl⟩
abbrev main_call6_v9 : Ref sig .tc := ⟨.hbm, 249, rfl⟩
abbrev main_call6_v10 : Ref sig .tc := ⟨.hbm, 250, rfl⟩
abbrev main_v130 : Ref sig .tc := ⟨.hbm, 251, rfl⟩

abbrev nD : Nat := 1
abbrev τ : Topo := Topo.v7x

variable {F : FTy → Type} [FloatOps F]

class Facts₀ : Prop where
  slices_S3x1600000_S1x1600000_0_0 : S3x1600000.Slices ![0, 0] S1x1600000
  shapeCasts_S1x1600000_S1600000 : S1x1600000.ShapeCasts S1600000
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  slices_S3x1600000_S1x1600000_1_0 : S3x1600000.Slices ![1, 0] S1x1600000
  slices_S3x1600000_S1x1600000_2_0 : S3x1600000.Slices ![2, 0] S1x1600000
  bcast_S41_S1x41_1 : S41.BroadcastsInDim S1x41 (![1] : Fin 1 → Fin S1x41.rank)
  bcast_S1x41_S100000x41_0_1 : S1x41.BroadcastsInDim S100000x41 (![0, 1] : Fin 2 → Fin S100000x41.rank)
  reducesTo_S100000x41_S100000_d1 : S100000x41.ReducesTo [1] S100000
  bcast_S_S100000 : S_.BroadcastsInDim S100000 (![] : Fin 0 → Fin S100000.rank)
  bcast_S100000x1_S100000x41_0_1 : S100000x1.BroadcastsInDim S100000x41 (![0, 1] : Fin 2 → Fin S100000x41.rank)
  dot_S100000x602_S602x128_S100000x128_1_0_0_1_n_n_wf : DotDims.WF S100000x602 S602x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x41_S100000x41_1_0_0_1_n_n_wf : DotDims.WF S100000x128 S128x41 S100000x41 [1] [0] [0] [1] [] []

variable [Facts₀]

def dot_S100000x602_S602x128_S100000x128_1_0_0_1_n_n : DotDims S100000x602 S602x128 S100000x128 where
  lhsContracting := [1]
  rhsContracting := [0]
  lhsNonContracting := [0]
  rhsNonContracting := [1]
  lhsBatch := []
  rhsBatch := []
  wf := dot_S100000x602_S602x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x41_S100000x41_1_0_0_1_n_n : DotDims S100000x128 S128x41 S100000x41 where
  lhsContracting := [1]
  rhsContracting := [0]
  lhsNonContracting := [0]
  rhsNonContracting := [1]
  lhsBatch := []
  rhsBatch := []
  wf := dot_S100000x128_S128x41_S100000x41_1_0_0_1_n_n_wf

class Facts : Prop extends Facts₀ where

variable [Facts]
-- ==== Proof.KRun.lean ====
/-
  The idealized kernel's run with its result named.

  The program is four pipelined regions among three stretches of host operations. Its run from any launch memory ends
  with every unscoped buffer at the contents the last boundary's fold gives: the result buffer at the last region's
  output array after all its write-backs, each argument as launched.
-/
import proofs.«118564_j3066606649549_2_alg».proof.Proof.Gen.KernelIdeal.Frame

set_option maxRecDepth 16384

noncomputable section

namespace Cert.KernelIdeal.KValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents and the fourteen argument arrays end as launched. -/
theorem run_last : θ_run defs (onTc (τ := τ) (main (F := F))) ⟨m, fun _ => 0, ρ⟩ (fun r => ∀ c : Dev nD,
      r.2.mem ((c.tc : Thread nD τ).loc main_v70) = W7 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v70 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c)⟩)

end Cert.KernelIdeal.KValue

end
-- ==== Proof.KArgs.lean ====
/-
  The argument arrays at the boundaries between the program's segments.

  No host operation and no region writes an argument array: a region reads one through an input window or passes it by,
  a host operation writes only its own result buffer. So at every boundary between segments an argument's buffer
  holds what the launch memory held.
-/
import proofs.«118564_j3066606649549_2_alg».proof.Proof.Gen.KernelIdeal.Frame

set_option maxRecDepth 16384

noncomputable section

namespace Cert.KernelIdeal.KValue

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg) (c : Dev nD)

/-! ## After the first region -/
theorem W1_arg1 : W1 m ρ c (Proc.devRef .tc main_arg1) = m ((c : Thread nD τ).loc main_arg1) :=
  (W1_of_ne m ρ c main_arg1 (by decide)).trans rfl
theorem W1_arg2 : W1 m ρ c (Proc.devRef .tc main_arg2) = m ((c : Thread nD τ).loc main_arg2) :=
  (W1_of_ne m ρ c main_arg2 (by decide)).trans rfl
theorem W1_arg3 : W1 m ρ c (Proc.devRef .tc main_arg3) = m ((c : Thread nD τ).loc main_arg3) :=
  (W1_of_ne m ρ c main_arg3 (by decide)).trans rfl
theorem W1_arg5 : W1 m ρ c (Proc.devRef .tc main_arg5) = m ((c : Thread nD τ).loc main_arg5) :=
  (W1_of_ne m ρ c main_arg5 (by decide)).trans rfl
theorem W1_arg6 : W1 m ρ c (Proc.devRef .tc main_arg6) = m ((c : Thread nD τ).loc main_arg6) :=
  (W1_of_ne m ρ c main_arg6 (by decide)).trans rfl
theorem W1_arg7 : W1 m ρ c (Proc.devRef .tc main_arg7) = m ((c : Thread nD τ).loc main_arg7) :=
  (W1_of_ne m ρ c main_arg7 (by decide)).trans rfl
theorem W1_arg8 : W1 m ρ c (Proc.devRef .tc main_arg8) = m ((c : Thread nD τ).loc main_arg8) :=
  (W1_of_ne m ρ c main_arg8 (by decide)).trans rfl
theorem W1_arg9 : W1 m ρ c (Proc.devRef .tc main_arg9) = m ((c : Thread nD τ).loc main_arg9) :=
  (W1_of_ne m ρ c main_arg9 (by decide)).trans rfl
theorem W1_arg10 : W1 m ρ c (Proc.devRef .tc main_arg10) = m ((c : Thread nD τ).loc main_arg10) :=
  (W1_of_ne m ρ c main_arg10 (by decide)).trans rfl
theorem W1_arg11 : W1 m ρ c (Proc.devRef .tc main_arg11) = m ((c : Thread nD τ).loc main_arg11) :=
  (W1_of_ne m ρ c main_arg11 (by decide)).trans rfl
theorem W1_arg12 : W1 m ρ c (Proc.devRef .tc main_arg12) = m ((c : Thread nD τ).loc main_arg12) :=
  (W1_of_ne m ρ c main_arg12 (by decide)).trans rfl
theorem W1_arg13 : W1 m ρ c (Proc.devRef .tc main_arg13) = m ((c : Thread nD τ).loc main_arg13) :=
  (W1_of_ne m ρ c main_arg13 (by decide)).trans rfl

/-! ## After the first host stretch -/
theorem W2_arg1 : W2 m ρ c (Proc.devRef .tc main_arg1) = m ((c : Thread nD τ).loc main_arg1) :=
  ((StableHlo.after_of_forall_not_mem (b := Proc.devRef .tc main_arg1) _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))).trans (W1_arg1 m ρ c)
theorem W2_arg2 : W2 m ρ c (Proc.devRef .tc main_arg2) = m ((c : Thread nD τ).loc main_arg2) :=
  ((StableHlo.after_of_forall_not_mem (b := Proc.devRef .tc main_arg2) _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))).trans (W1_arg2 m ρ c)
theorem W2_arg3 : W2 m ρ c (Proc.devRef .tc main_arg3) = m ((c : Thread nD τ).loc main_arg3) :=
  ((StableHlo.after_of_forall_not_mem (b := Proc.devRef .tc main_arg3) _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))).trans (W1_arg3 m ρ c)
theorem W2_arg6 : W2 m ρ c (Proc.devRef .tc main_arg6) = m ((c : Thread nD τ).loc main_arg6) :=
  ((StableHlo.after_of_forall_not_mem (b := Proc.devRef .tc main_arg6) _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))).trans (W1_arg6 m ρ c)
theorem W2_arg7 : W2 m ρ c (Proc.devRef .tc main_arg7) = m ((c : Thread nD τ).loc main_arg7) :=
  ((StableHlo.after_of_forall_not_mem (b := Proc.devRef .tc main_arg7) _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))).trans (W1_arg7 m ρ c)
theorem W2_arg8 : W2 m ρ c (Proc.devRef .tc main_arg8) = m ((c : Thread nD τ).loc main_arg8) :=
  ((StableHlo.after_of_forall_not_mem (b := Proc.devRef .tc main_arg8) _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))).trans (W1_arg8 m ρ c)
theorem W2_arg9 : W2 m ρ c (Proc.devRef .tc main_arg9) = m ((c : Thread nD τ).loc main_arg9) :=
  ((StableHlo.after_of_forall_not_mem (b := Proc.devRef .tc main_arg9) _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))).trans (W1_arg9 m ρ c)
theorem W2_arg10 : W2 m ρ c (Proc.devRef .tc main_arg10) = m ((c : Thread nD τ).loc main_arg10) :=
  ((StableHlo.after_of_forall_not_mem (b := Proc.devRef .tc main_arg10) _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))).trans (W1_arg10 m ρ c)
theorem W2_arg11 : W2 m ρ c (Proc.devRef .tc main_arg11) = m ((c : Thread nD τ).loc main_arg11) :=
  ((StableHlo.after_of_forall_not_mem (b := Proc.devRef .tc main_arg11) _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))).trans (W1_arg11 m ρ c)
theorem W2_arg12 : W2 m ρ c (Proc.devRef .tc main_arg12) = m ((c : Thread nD τ).loc main_arg12) :=
  ((StableHlo.after_of_forall_not_mem (b := Proc.devRef .tc main_arg12) _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))).trans (W1_arg12 m ρ c)
theorem W2_arg13 : W2 m ρ c (Proc.devRef .tc main_arg13) = m ((c : Thread nD τ).loc main_arg13) :=
  ((StableHlo.after_of_forall_not_mem (b := Proc.devRef .tc main_arg13) _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))).trans (W1_arg13 m ρ c)

/-! ## After the second region -/
theorem W3_arg1 : W3 m ρ c (Proc.devRef .tc main_arg1) = m ((c : Thread nD τ).loc main_arg1) :=
  (W3_of_ne m ρ c main_arg1 (by decide)).trans (W2_arg1 m ρ c)
theorem W3_arg2 : W3 m ρ c (Proc.devRef .tc main_arg2) = m ((c : Thread nD τ).loc main_arg2) :=
  (W3_of_ne m ρ c main_arg2 (by decide)).trans (W2_arg2 m ρ c)
theorem W3_arg3 : W3 m ρ c (Proc.devRef .tc main_arg3) = m ((c : Thread nD τ).loc main_arg3) :=
  (W3_of_ne m ρ c main_arg3 (by decide)).trans (W2_arg3 m ρ c)
theorem W3_arg7 : W3 m ρ c (Proc.devRef .tc main_arg7) = m ((c : Thread nD τ).loc main_arg7) :=
  (W3_of_ne m ρ c main_arg7 (by decide)).trans (W2_arg7 m ρ c)
theorem W3_arg8 : W3 m ρ c (Proc.devRef .tc main_arg8) = m ((c : Thread nD τ).loc main_arg8) :=
  (W3_of_ne m ρ c main_arg8 (by decide)).trans (W2_arg8 m ρ c)
theorem W3_arg9 : W3 m ρ c (Proc.devRef .tc main_arg9) = m ((c : Thread nD τ).loc main_arg9) :=
  (W3_of_ne m ρ c main_arg9 (by decide)).trans (W2_arg9 m ρ c)
theorem W3_arg10 : W3 m ρ c (Proc.devRef .tc main_arg10) = m ((c : Thread nD τ).loc main_arg10) :=
  (W3_of_ne m ρ c main_arg10 (by decide)).trans (W2_arg10 m ρ c)
theorem W3_arg11 : W3 m ρ c (Proc.devRef .tc main_arg11) = m ((c : Thread nD τ).loc main_arg11) :=
  (W3_of_ne m ρ c main_arg11 (by decide)).trans (W2_arg11 m ρ c)
theorem W3_arg12 : W3 m ρ c (Proc.devRef .tc main_arg12) = m ((c : Thread nD τ).loc main_arg12) :=
  (W3_of_ne m ρ c main_arg12 (by decide)).trans (W2_arg12 m ρ c)
theorem W3_arg13 : W3 m ρ c (Proc.devRef .tc main_arg13) = m ((c : Thread nD τ).loc main_arg13) :=
  (W3_of_ne m ρ c main_arg13 (by decide)).trans (W2_arg13 m ρ c)

/-! ## After the second host stretch -/
theorem W4_arg1 : W4 m ρ c (Proc.devRef .tc main_arg1) = m ((c : Thread nD τ).loc main_arg1) :=
  ((StableHlo.after_of_forall_not_mem (b := Proc.devRef .tc main_arg1) _ _ (List.forall_iff_forall_mem.mp (by
      simp only [hostOps2, List.Forall, StableHlo.nullary_writes, StableHlo.unary_writes, StableHlo.binary_writes, StableHlo.ternary_writes, StableHlo.reshape_writes, Finset.mem_singleton]
      repeat' apply And.intro
      all_goals exact StableHlo.devRef_ne_of_ne (by decide))))).trans (W3_arg1 m ρ c)
theorem W4_arg2 : W4 m ρ c (Proc.devRef .tc main_arg2) = m ((c : Thread nD τ).loc main_arg2) :=
  ((StableHlo.after_of_forall_not_mem (b := Proc.devRef .tc main_arg2) _ _ (List.forall_iff_forall_mem.mp (by
      simp only [hostOps2, List.Forall, StableHlo.nullary_writes, StableHlo.unary_writes, StableHlo.binary_writes, StableHlo.ternary_writes, StableHlo.reshape_writes, Finset.mem_singleton]
      repeat' apply And.intro
      all_goals exact StableHlo.devRef_ne_of_ne (by decide))))).trans (W3_arg2 m ρ c)
theorem W4_arg3 : W4 m ρ c (Proc.devRef .tc main_arg3) = m ((c : Thread nD τ).loc main_arg3) :=
  ((StableHlo.after_of_forall_not_mem (b := Proc.devRef .tc main_arg3) _ _ (List.forall_iff_forall_mem.mp (by
      simp only [hostOps2, List.Forall, StableHlo.nullary_writes, StableHlo.unary_writes, StableHlo.binary_writes, StableHlo.ternary_writes, StableHlo.reshape_writes, Finset.mem_singleton]
      repeat' apply And.intro
      all_goals exact StableHlo.devRef_ne_of_ne (by decide))))).trans (W3_arg3 m ρ c)
theorem W4_arg8 : W4 m ρ c (Proc.devRef .tc main_arg8) = m ((c : Thread nD τ).loc main_arg8) :=
  ((StableHlo.after_of_forall_not_mem (b := Proc.devRef .tc main_arg8) _ _ (List.forall_iff_forall_mem.mp (by
      simp only [hostOps2, List.Forall, StableHlo.nullary_writes, StableHlo.unary_writes, StableHlo.binary_writes, StableHlo.ternary_writes, StableHlo.reshape_writes, Finset.mem_singleton]
      repeat' apply And.intro
      all_goals exact StableHlo.devRef_ne_of_ne (by decide))))).trans (W3_arg8 m ρ c)
theorem W4_arg9 : W4 m ρ c (Proc.devRef .tc main_arg9) = m ((c : Thread nD τ).loc main_arg9) :=
  ((StableHlo.after_of_forall_not_mem (b := Proc.devRef .tc main_arg9) _ _ (List.forall_iff_forall_mem.mp (by
      simp only [hostOps2, List.Forall, StableHlo.nullary_writes, StableHlo.unary_writes, StableHlo.binary_writes, StableHlo.ternary_writes, StableHlo.reshape_writes, Finset.mem_singleton]
      repeat' apply And.intro
      all_goals exact StableHlo.devRef_ne_of_ne (by decide))))).trans (W3_arg9 m ρ c)
theorem W4_arg10 : W4 m ρ c (Proc.devRef .tc main_arg10) = m ((c : Thread nD τ).loc main_arg10) :=
  ((StableHlo.after_of_forall_not_mem (b := Proc.devRef .tc main_arg10) _ _ (List.forall_iff_forall_mem.mp (by
      simp only [hostOps2, List.Forall, StableHlo.nullary_writes, StableHlo.unary_writes, StableHlo.binary_writes, StableHlo.ternary_writes, StableHlo.reshape_writes, Finset.mem_singleton]
      repeat' apply And.intro
      all_goals exact StableHlo.devRef_ne_of_ne (by decide))))).trans (W3_arg10 m ρ c)
theorem W4_arg11 : W4 m ρ c (Proc.devRef .tc main_arg11) = m ((c : Thread nD τ).loc main_arg11) :=
  ((StableHlo.after_of_forall_not_mem (b := Proc.devRef .tc main_arg11) _ _ (List.forall_iff_forall_mem.mp (by
      simp only [hostOps2, List.Forall, StableHlo.nullary_writes, StableHlo.unary_writes, StableHlo.binary_writes, StableHlo.ternary_writes, StableHlo.reshape_writes, Finset.mem_singleton]
      repeat' apply And.intro
      all_goals exact StableHlo.devRef_ne_of_ne (by decide))))).trans (W3_arg11 m ρ c)
theorem W4_arg12 : W4 m ρ c (Proc.devRef .tc main_arg12) = m ((c : Thread nD τ).loc main_arg12) :=
  ((StableHlo.after_of_forall_not_mem (b := Proc.devRef .tc main_arg12) _ _ (List.forall_iff_forall_mem.mp (by
      simp only [hostOps2, List.Forall, StableHlo.nullary_writes, StableHlo.unary_writes, StableHlo.binary_writes, StableHlo.ternary_writes, StableHlo.reshape_writes, Finset.mem_singleton]
      repeat' apply And.intro
      all_goals exact StableHlo.devRef_ne_of_ne (by decide))))).trans (W3_arg12 m ρ c)
theorem W4_arg13 : W4 m ρ c (Proc.devRef .tc main_arg13) = m ((c : Thread nD τ).loc main_arg13) :=
  ((StableHlo.after_of_forall_not_mem (b := Proc.devRef .tc main_arg13) _ _ (List.forall_iff_forall_mem.mp (by
      simp only [hostOps2, List.Forall, StableHlo.nullary_writes, StableHlo.unary_writes, StableHlo.binary_writes, StableHlo.ternary_writes, StableHlo.reshape_writes, Finset.mem_singleton]
      repeat' apply And.intro
      all_goals exact StableHlo.devRef_ne_of_ne (by decide))))).trans (W3_arg13 m ρ c)

/-! ## After the third region -/
theorem W5_arg1 : W5 m ρ c (Proc.devRef .tc main_arg1) = m ((c : Thread nD τ).loc main_arg1) :=
  (W5_of_ne m ρ c main_arg1 (by decide)).trans (W4_arg1 m ρ c)
theorem W5_arg2 : W5 m ρ c (Proc.devRef .tc main_arg2) = m ((c : Thread nD τ).loc main_arg2) :=
  (W5_of_ne m ρ c main_arg2 (by decide)).trans (W4_arg2 m ρ c)
theorem W5_arg3 : W5 m ρ c (Proc.devRef .tc main_arg3) = m ((c : Thread nD τ).loc main_arg3) :=
  (W5_of_ne m ρ c main_arg3 (by decide)).trans (W4_arg3 m ρ c)
theorem W5_arg9 : W5 m ρ c (Proc.devRef .tc main_arg9) = m ((c : Thread nD τ).loc main_arg9) :=
  (W5_of_ne m ρ c main_arg9 (by decide)).trans (W4_arg9 m ρ c)
theorem W5_arg10 : W5 m ρ c (Proc.devRef .tc main_arg10) = m ((c : Thread nD τ).loc main_arg10) :=
  (W5_of_ne m ρ c main_arg10 (by decide)).trans (W4_arg10 m ρ c)
theorem W5_arg11 : W5 m ρ c (Proc.devRef .tc main_arg11) = m ((c : Thread nD τ).loc main_arg11) :=
  (W5_of_ne m ρ c main_arg11 (by decide)).trans (W4_arg11 m ρ c)
theorem W5_arg12 : W5 m ρ c (Proc.devRef .tc main_arg12) = m ((c : Thread nD τ).loc main_arg12) :=
  (W5_of_ne m ρ c main_arg12 (by decide)).trans (W4_arg12 m ρ c)
theorem W5_arg13 : W5 m ρ c (Proc.devRef .tc main_arg13) = m ((c : Thread nD τ).loc main_arg13) :=
  (W5_of_ne m ρ c main_arg13 (by decide)).trans (W4_arg13 m ρ c)

/-! ## After the third host stretch -/
theorem W6_arg12 : W6 m ρ c (Proc.devRef .tc main_arg12) = m ((c : Thread nD τ).loc main_arg12) :=
  ((StableHlo.after_of_forall_not_mem (b := Proc.devRef .tc main_arg12) _ _ (List.forall_iff_forall_mem.mp (by
      simp only [hostOps3, List.Forall, StableHlo.nullary_writes, StableHlo.unary_writes, StableHlo.binary_writes, StableHlo.ternary_writes, StableHlo.reshape_writes, Finset.mem_singleton]
      repeat' apply And.intro
      all_goals exact StableHlo.devRef_ne_of_ne (by decide))))).trans (W5_arg12 m ρ c)

end Cert.KernelIdeal.KValue

end
-- ==== Proof.KHost1.lean ====
/-
  The host operations between two regions, read as values (stretch 1).

  The stretch takes row 0 of the three edge arrays, wraps negative column numbers by the node count, gathers the
  previous region's output rows at the columns, scales each gathered row by its edge weight and adds it into a zero array
  at its row number: one sparse product, kept as the composition of the printed operations. Beside it the stretch
  recasts the layer's bias and the normalisation's gain and offset as one-row arrays.
-/
import proofs.«118564_j3066606649549_2_alg».proof.Proof.Gen.KernelIdeal.Frame
import Idealize.ShloMosaic.Lib.StableHlo.Run
import Idealize.ShloMosaic.PureOps.Ideal

set_option maxRecDepth 16384

noncomputable section

namespace Cert.KernelIdeal.KValue

open Idealize.ShloMosaic Idealize.ShloMosaic.StableHlo Idealize.ShloMosaic.TcCoe Idealize.SL.Sem
open Cert.KernelIdeal Cert.KernelIdeal.Gen

/-- The sparse product of layer 0: row `r` of the result is the sum, over the edges whose row number is `r`, of the
    edge's weight times row (column number) of `h`. -/
def spmm0 (rows cols : IVec S3x1600000 32) (vals : FVec Ideal S3x1600000 .f32)
    (h : FVec Ideal S100000x128 .f32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 (shapeCast S1600000 (extractStridedSlice S1x1600000 ![0, 0] rows slices_S3x1600000_S1x1600000_0_0) shapeCasts_S1x1600000_S1600000))
    (mulf (F := Ideal)
      (broadcastInDim S1600000x128 ![0, 1] bcast_S1600000x1_S1600000x128_0_1
        (broadcastInDim S1600000x1 ![0] bcast_S1600000_S1600000x1_0 (shapeCast S1600000 (extractStridedSlice S1x1600000 ![0, 0] vals slices_S3x1600000_S1x1600000_0_0) shapeCasts_S1x1600000_S1600000)))
      (Host.gather gather_S100000x128_S1600000x1_S1600000x128_1_0_n_n_0_1_1128 h
        (broadcastInDim S1600000x1 ![0] bcast_S1600000_S1600000x1_0
          (select
            (cmpi .slt (shapeCast S1600000 (extractStridedSlice S1x1600000 ![0, 0] cols slices_S3x1600000_S1x1600000_0_0) shapeCasts_S1x1600000_S1600000) (broadcastInDim S1600000 ![] bcast_S_S1600000 (constantI S_ 32 0#32)))
            (addi (shapeCast S1600000 (extractStridedSlice S1x1600000 ![0, 0] cols slices_S3x1600000_S1x1600000_0_0) shapeCasts_S1x1600000_S1600000) (broadcastInDim S1600000 ![] bcast_S_S1600000 (constantI S_ 32 100000#32)))
            (shapeCast S1600000 (extractStridedSlice S1x1600000 ![0, 0] cols slices_S3x1600000_S1x1600000_0_0) shapeCasts_S1x1600000_S1600000)))))

variable (m : (ℓ : Loc nD τ sig) → Buf (Elt Ideal) ℓ) (ρ : Dev nD → PrngReg) (c : Dev nD)

set_option maxHeartbeats 2000000 in
/-- The stretch's sparse product lands in the next region's first window's array. -/
theorem W2_v19 : W2 m ρ c (Proc.devRef .tc main_v19)
    = spmm0 (W1 m ρ c (Proc.devRef .tc main_arg1)) (W1 m ρ c (Proc.devRef .tc main_arg2))
        (W1 m ρ c (Proc.devRef .tc main_arg3)) (W1 m ρ c (Proc.devRef .tc main_v0)) := by
  show StableHlo.after hostOps1 (W1 m ρ c) (Proc.devRef .tc main_v19) = _
  after_results_simp
  rfl

set_option maxHeartbeats 2000000 in
/-- Argument 5's vector recast as a one-row array. -/
theorem W2_v20 : W2 m ρ c (Proc.devRef .tc main_v20)
    = shapeCast S1x128 (W1 m ρ c (Proc.devRef .tc main_arg5)) shapeCasts_S128_S1x128 := by
  show StableHlo.after hostOps1 (W1 m ρ c) (Proc.devRef .tc main_v20) = _
  after_results_simp
  rfl

set_option maxHeartbeats 2000000 in
/-- Argument 10's vector recast as a one-row array. -/
theorem W2_v21 : W2 m ρ c (Proc.devRef .tc main_v21)
    = shapeCast S1x128 (W1 m ρ c (Proc.devRef .tc main_arg10)) shapeCasts_S128_S1x128 := by
  show StableHlo.after hostOps1 (W1 m ρ c) (Proc.devRef .tc main_v21) = _
  after_results_simp
  rfl

set_option maxHeartbeats 2000000 in
/-- Argument 11's vector recast as a one-row array. -/
theorem W2_v22 : W2 m ρ c (Proc.devRef .tc main_v22)
    = shapeCast S1x128 (W1 m ρ c (Proc.devRef .tc main_arg11)) shapeCasts_S128_S1x128 := by
  show StableHlo.after hostOps1 (W1 m ρ c) (Proc.devRef .tc main_v22) = _
  after_results_simp
  rfl

end Cert.KernelIdeal.KValue

end
-- ==== Proof.KHost2.lean ====
/-
  The host operations between two regions, read as values (stretch 2).

  The stretch takes row 1 of the three edge arrays, wraps negative column numbers by the node count, gathers the
  previous region's output rows at the columns, scales each gathered row by its edge weight and adds it into a zero array
  at its row number: one sparse product, kept as the composition of the printed operations. Beside it the stretch
  recasts the layer's bias and the normalisation's gain and offset as one-row arrays.
-/
import proofs.«118564_j3066606649549_2_alg».proof.Proof.Gen.KernelIdeal.Frame
import Idealize.ShloMosaic.Lib.StableHlo.Run
import Idealize.ShloMosaic.PureOps.Ideal

set_option maxRecDepth 16384

noncomputable section

namespace Cert.KernelIdeal.KValue

open Idealize.ShloMosaic Idealize.ShloMosaic.StableHlo Idealize.ShloMosaic.TcCoe Idealize.SL.Sem
open Cert.KernelIdeal Cert.KernelIdeal.Gen

/-- The sparse product of layer 1: row `r` of the result is the sum, over the edges whose row number is `r`, of the
    edge's weight times row (column number) of `h`. -/
def spmm1 (rows cols : IVec S3x1600000 32) (vals : FVec Ideal S3x1600000 .f32)
    (h : FVec Ideal S100000x128 .f32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 (shapeCast S1600000 (extractStridedSlice S1x1600000 ![1, 0] rows slices_S3x1600000_S1x1600000_1_0) shapeCasts_S1x1600000_S1600000))
    (mulf (F := Ideal)
      (broadcastInDim S1600000x128 ![0, 1] bcast_S1600000x1_S1600000x128_0_1
        (broadcastInDim S1600000x1 ![0] bcast_S1600000_S1600000x1_0 (shapeCast S1600000 (extractStridedSlice S1x1600000 ![1, 0] vals slices_S3x1600000_S1x1600000_1_0) shapeCasts_S1x1600000_S1600000)))
      (Host.gather gather_S100000x128_S1600000x1_S1600000x128_1_0_n_n_0_1_1128 h
        (broadcastInDim S1600000x1 ![0] bcast_S1600000_S1600000x1_0
          (select
            (cmpi .slt (shapeCast S1600000 (extractStridedSlice S1x1600000 ![1, 0] cols slices_S3x1600000_S1x1600000_1_0) shapeCasts_S1x1600000_S1600000) (broadcastInDim S1600000 ![] bcast_S_S1600000 (constantI S_ 32 0#32)))
            (addi (shapeCast S1600000 (extractStridedSlice S1x1600000 ![1, 0] cols slices_S3x1600000_S1x1600000_1_0) shapeCasts_S1x1600000_S1600000) (broadcastInDim S1600000 ![] bcast_S_S1600000 (constantI S_ 32 100000#32)))
            (shapeCast S1600000 (extractStridedSlice S1x1600000 ![1, 0] cols slices_S3x1600000_S1x1600000_1_0) shapeCasts_S1x1600000_S1600000)))))

variable (m : (ℓ : Loc nD τ sig) → Buf (Elt Ideal) ℓ) (ρ : Dev nD → PrngReg) (c : Dev nD)

set_option maxHeartbeats 2000000 in
/-- The stretch's sparse product lands in the next region's first window's array. -/
theorem W4_v42 : W4 m ρ c (Proc.devRef .tc main_v42)
    = spmm1 (W3 m ρ c (Proc.devRef .tc main_arg1)) (W3 m ρ c (Proc.devRef .tc main_arg2))
        (W3 m ρ c (Proc.devRef .tc main_arg3)) (W3 m ρ c (Proc.devRef .tc main_v23)) := by
  show StableHlo.after hostOps2 (W3 m ρ c) (Proc.devRef .tc main_v42) = _
  after_results_simp
  rfl

set_option maxHeartbeats 2000000 in
/-- Argument 7's vector recast as a one-row array. -/
theorem W4_v43 : W4 m ρ c (Proc.devRef .tc main_v43)
    = shapeCast S1x128 (W3 m ρ c (Proc.devRef .tc main_arg7)) shapeCasts_S128_S1x128 := by
  show StableHlo.after hostOps2 (W3 m ρ c) (Proc.devRef .tc main_v43) = _
  after_results_simp
  rfl

set_option maxHeartbeats 2000000 in
/-- Argument 10's vector recast as a one-row array. -/
theorem W4_v44 : W4 m ρ c (Proc.devRef .tc main_v44)
    = shapeCast S1x128 (W3 m ρ c (Proc.devRef .tc main_arg10)) shapeCasts_S128_S1x128 := by
  show StableHlo.after hostOps2 (W3 m ρ c) (Proc.devRef .tc main_v44) = _
  after_results_simp
  rfl

set_option maxHeartbeats 2000000 in
/-- Argument 11's vector recast as a one-row array. -/
theorem W4_v45 : W4 m ρ c (Proc.devRef .tc main_v45)
    = shapeCast S1x128 (W3 m ρ c (Proc.devRef .tc main_arg11)) shapeCasts_S128_S1x128 := by
  show StableHlo.after hostOps2 (W3 m ρ c) (Proc.devRef .tc main_v45) = _
  after_results_simp
  rfl

end Cert.KernelIdeal.KValue

end
-- ==== Proof.KHost3.lean ====
/-
  The host operations between two regions, read as values (stretch 3).

  The stretch takes row 2 of the three edge arrays, wraps negative column numbers by the node count, gathers the
  previous region's output rows at the columns, scales each gathered row by its edge weight and adds it into a zero array
  at its row number: one sparse product, kept as the composition of the printed operations. Beside it the stretch
  recasts the layer's bias and the normalisation's gain and offset and the output bias as one-row arrays.
-/
import proofs.«118564_j3066606649549_2_alg».proof.Proof.Gen.KernelIdeal.Frame
import Idealize.ShloMosaic.Lib.StableHlo.Run
import Idealize.ShloMosaic.PureOps.Ideal

set_option maxRecDepth 16384

noncomputable section

namespace Cert.KernelIdeal.KValue

open Idealize.ShloMosaic Idealize.ShloMosaic.StableHlo Idealize.ShloMosaic.TcCoe Idealize.SL.Sem
open Cert.KernelIdeal Cert.KernelIdeal.Gen

/-- The sparse product of layer 2: row `r` of the result is the sum, over the edges whose row number is `r`, of the
    edge's weight times row (column number) of `h`. -/
def spmm2 (rows cols : IVec S3x1600000 32) (vals : FVec Ideal S3x1600000 .f32)
    (h : FVec Ideal S100000x128 .f32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 (shapeCast S1600000 (extractStridedSlice S1x1600000 ![2, 0] rows slices_S3x1600000_S1x1600000_2_0) shapeCasts_S1x1600000_S1600000))
    (mulf (F := Ideal)
      (broadcastInDim S1600000x128 ![0, 1] bcast_S1600000x1_S1600000x128_0_1
        (broadcastInDim S1600000x1 ![0] bcast_S1600000_S1600000x1_0 (shapeCast S1600000 (extractStridedSlice S1x1600000 ![2, 0] vals slices_S3x1600000_S1x1600000_2_0) shapeCasts_S1x1600000_S1600000)))
      (Host.gather gather_S100000x128_S1600000x1_S1600000x128_1_0_n_n_0_1_1128 h
        (broadcastInDim S1600000x1 ![0] bcast_S1600000_S1600000x1_0
          (select
            (cmpi .slt (shapeCast S1600000 (extractStridedSlice S1x1600000 ![2, 0] cols slices_S3x1600000_S1x1600000_2_0) shapeCasts_S1x1600000_S1600000) (broadcastInDim S1600000 ![] bcast_S_S1600000 (constantI S_ 32 0#32)))
            (addi (shapeCast S1600000 (extractStridedSlice S1x1600000 ![2, 0] cols slices_S3x1600000_S1x1600000_2_0) shapeCasts_S1x1600000_S1600000) (broadcastInDim S1600000 ![] bcast_S_S1600000 (constantI S_ 32 100000#32)))
            (shapeCast S1600000 (extractStridedSlice S1x1600000 ![2, 0] cols slices_S3x1600000_S1x1600000_2_0) shapeCasts_S1x1600000_S1600000)))))

variable (m : (ℓ : Loc nD τ sig) → Buf (Elt Ideal) ℓ) (ρ : Dev nD → PrngReg) (c : Dev nD)

set_option maxHeartbeats 2000000 in
/-- The stretch's sparse product lands in the next region's first window's array. -/
theorem W6_v65 : W6 m ρ c (Proc.devRef .tc main_v65)
    = spmm2 (W5 m ρ c (Proc.devRef .tc main_arg1)) (W5 m ρ c (Proc.devRef .tc main_arg2))
        (W5 m ρ c (Proc.devRef .tc main_arg3)) (W5 m ρ c (Proc.devRef .tc main_v46)) := by
  show StableHlo.after hostOps3 (W5 m ρ c) (Proc.devRef .tc main_v65) = _
  after_results_simp
  rfl

set_option maxHeartbeats 2000000 in
/-- Argument 9's vector recast as a one-row array. -/
theorem W6_v66 : W6 m ρ c (Proc.devRef .tc main_v66)
    = shapeCast S1x128 (W5 m ρ c (Proc.devRef .tc main_arg9)) shapeCasts_S128_S1x128 := by
  show StableHlo.after hostOps3 (W5 m ρ c) (Proc.devRef .tc main_v66) = _
  after_results_simp
  rfl

set_option maxHeartbeats 2000000 in
/-- Argument 10's vector recast as a one-row array. -/
theorem W6_v67 : W6 m ρ c (Proc.devRef .tc main_v67)
    = shapeCast S1x128 (W5 m ρ c (Proc.devRef .tc main_arg10)) shapeCasts_S128_S1x128 := by
  show StableHlo.after hostOps3 (W5 m ρ c) (Proc.devRef .tc main_v67) = _
  after_results_simp
  rfl

set_option maxHeartbeats 2000000 in
/-- Argument 11's vector recast as a one-row array. -/
theorem W6_v68 : W6 m ρ c (Proc.devRef .tc main_v68)
    = shapeCast S1x128 (W5 m ρ c (Proc.devRef .tc main_arg11)) shapeCasts_S128_S1x128 := by
  show StableHlo.after hostOps3 (W5 m ρ c) (Proc.devRef .tc main_v68) = _
  after_results_simp
  rfl

set_option maxHeartbeats 2000000 in
/-- Argument 13's vector recast as a one-row array. -/
theorem W6_v69 : W6 m ρ c (Proc.devRef .tc main_v69)
    = shapeCast S1x41 (W5 m ρ c (Proc.devRef .tc main_arg13)) shapeCasts_S41_S1x41 := by
  show StableHlo.after hostOps3 (W5 m ρ c) (Proc.devRef .tc main_v69) = _
  after_results_simp
  rfl

end Cert.KernelIdeal.KValue

end
-- ==== Proof.Spec.lean ====
/-
  What the network computes, one row at a time, on the extended reals.

  Every stage of the three-layer graph network acts on the rows of a node-feature array independently, except the three
  sparse products, which mix rows and are carried here as unspecified functions of the whole array. A row `x` of 128
  features goes through: add a bias; subtract the row's mean (the sum over its 128 entries divided by 128); multiply by
  the reciprocal square root of the mean of the squared deviations plus a small constant; scale and shift by the
  normalisation's gain and offset; clamp below at zero; and multiply by a weight matrix, a sum over the 128 features.
  The last layer adds an output bias to the 41 scores and takes the log-softmax of the row: subtract the row's largest
  score, then subtract the logarithm of the sum of the exponentials of the shifted scores. The four float constants
  are kept as the words both programs spell.
-/
import Idealize.ShloMosaic.PureOps.Ideal
import Idealize.ShloMosaic.Lib.ValueIdx

noncomputable section

namespace Cert.Spec

open Idealize.ShloMosaic Idealize.ShloMosaic.ValueIdx
open scoped BigOperators

/-- The words of 128, of the variance's small constant, of zero and of minus infinity. -/
abbrev w128 : EReal := Ideal.ofBits .f32 0x43000000#32
abbrev weps : EReal := Ideal.ofBits .f32 0x3727C5AC#32
abbrev wzero : EReal := Ideal.ofBits .f32 0x00000000#32
abbrev wninf : EReal := Ideal.ofBits .f32 0xFF800000#32

/-- A two-axis array, a one-axis array. -/
abbrev Arr (a b : Nat) : Type := (⟨2, ![a, b]⟩ : Shape).Idx → EReal
abbrev Vec1 (b : Nat) : Type := (⟨1, ![b]⟩ : Shape).Idx → EReal

/-- A row times a matrix: entry `q` is the sum over `k` of the row at `k` times the matrix at `(k, q)`. -/
def rowMat {c b : Nat} (x : Fin c → EReal) (W : Fin c → Fin b → EReal) (q : Fin b) : EReal :=
  ∑ k : Fin c, x k * W k q

/-- A row minus its mean. -/
def centered (t : Fin 128 → EReal) (k : Fin 128) : EReal :=
  t k - Ideal.div (∑ k' : Fin 128, t k') w128

/-- The reciprocal square root of a centered row's mean square plus the small constant. -/
def invStd (d : Fin 128 → EReal) : EReal :=
  Ideal.rsqrt (Ideal.div (∑ k' : Fin 128, d k' * d k') w128 + weps)

/-- Bias, normalisation over the row, gain and offset, clamp at zero. -/
def lnRelu (x bias g bb : Fin 128 → EReal) (k : Fin 128) : EReal :=
  max (centered (fun k' => x k' + bias k') k * invStd (centered fun k' => x k' + bias k') * g k + bb k) wzero

/-- One hidden layer's action on a row: normalise and clamp, then the weight matrix. -/
def layerRow {b : Nat} (x bias g bb : Fin 128 → EReal) (W : Fin 128 → Fin b → EReal) (q : Fin b) : EReal :=
  rowMat (lnRelu x bias g bb) W q

/-- The log-softmax of a row of 41 scores. -/
def logSoftmaxRow (z : Fin 41 → EReal) (q : Fin 41) : EReal :=
  (z q - (Finset.univ : Finset (Fin 41)).fold max wninf z)
    - Ideal.log (∑ k : Fin 41, Ideal.exp (z k - (Finset.univ : Finset (Fin 41)).fold max wninf z))

/-- The output head's action on a row. -/
def headRow (x bias g bb : Fin 128 → EReal) (W : Fin 128 → Fin 41 → EReal) (bout : Fin 41 → EReal) (q : Fin 41) :
    EReal :=
  logSoftmaxRow (fun j => layerRow x bias g bb W j + bout j) q

/-! ## Whole arrays -/

variable {a c b : Nat}

/-- The matrix product of two arrays. -/
def mm (X : Arr a c) (W : Arr c b) : Arr a b :=
  fun i => rowMat (fun k => X (ix2 (i 0) k)) (fun k q => W (ix2 k q)) (i 1)

/-- A hidden layer on every row, its three vectors given as one-row arrays. -/
def layerB (H : Arr a 128) (bias g bb : Arr 1 128) (W : Arr 128 b) : Arr a b :=
  fun i => layerRow (fun k => H (ix2 (i 0) k)) (fun k => bias (ix2 (0 : Fin 1) k)) (fun k => g (ix2 (0 : Fin 1) k))
    (fun k => bb (ix2 (0 : Fin 1) k)) (fun k q => W (ix2 k q)) (i 1)

/-- The output head on every row, its four vectors given as one-row arrays. -/
def headB (H : Arr a 128) (bias g bb : Arr 1 128) (W : Arr 128 41) (bout : Arr 1 41) : Arr a 41 :=
  fun i => headRow (fun k => H (ix2 (i 0) k)) (fun k => bias (ix2 (0 : Fin 1) k)) (fun k => g (ix2 (0 : Fin 1) k))
    (fun k => bb (ix2 (0 : Fin 1) k)) (fun k q => W (ix2 k q)) (fun j => bout (ix2 (0 : Fin 1) j)) (i 1)

/-- A hidden layer on every row, its three vectors one-axis arrays. -/
def layer (H : Arr a 128) (bias g bb : Vec1 128) (W : Arr 128 b) : Arr a b :=
  fun i => layerRow (fun k => H (ix2 (i 0) k)) (fun k => bias (ix1 k)) (fun k => g (ix1 k))
    (fun k => bb (ix1 k)) (fun k q => W (ix2 k q)) (i 1)

/-- The output head on every row, its four vectors one-axis arrays. -/
def head (H : Arr a 128) (bias g bb : Vec1 128) (W : Arr 128 41) (bout : Vec1 41) : Arr a 41 :=
  fun i => headRow (fun k => H (ix2 (i 0) k)) (fun k => bias (ix1 k)) (fun k => g (ix1 k))
    (fun k => bb (ix1 k)) (fun k q => W (ix2 k q)) (fun j => bout (ix1 j)) (i 1)

/-- The whole network: the three sparse products `sp0`, `sp1`, `sp2` are any functions of a node-feature array. -/
def net (sp0 sp1 sp2 : Arr a 128 → Arr a 128) (x : Arr a c) (W1 : Arr c 128) (b1 : Vec1 128) (W2 : Arr 128 128)
    (b2 : Vec1 128) (W3 : Arr 128 128) (b3 g bb : Vec1 128) (Wout : Arr 128 41) (bout : Vec1 41) : Arr a 41 :=
  head (sp2 (layer (sp1 (layer (sp0 (mm x W1)) b1 g bb W2)) b2 g bb W3)) b3 g bb Wout bout

theorem mm_apply (X : Arr a c) (W : Arr c b) (p : Fin a) (q : Fin b) :
    mm X W (ix2 p q) = rowMat (fun k => X (ix2 p k)) (fun k q => W (ix2 k q)) q := rfl

theorem layerB_apply (H : Arr a 128) (bias g bb : Arr 1 128) (W : Arr 128 b) (p : Fin a) (q : Fin b) :
    layerB H bias g bb W (ix2 p q) = layerRow (fun k => H (ix2 p k)) (fun k => bias (ix2 (0 : Fin 1) k))
      (fun k => g (ix2 (0 : Fin 1) k)) (fun k => bb (ix2 (0 : Fin 1) k)) (fun k q => W (ix2 k q)) q := rfl

theorem headB_apply (H : Arr a 128) (bias g bb : Arr 1 128) (W : Arr 128 41) (bout : Arr 1 41) (p : Fin a) (q : Fin 41) :
    headB H bias g bb W bout (ix2 p q) = headRow (fun k => H (ix2 p k)) (fun k => bias (ix2 (0 : Fin 1) k))
      (fun k => g (ix2 (0 : Fin 1) k)) (fun k => bb (ix2 (0 : Fin 1) k)) (fun k q => W (ix2 k q))
      (fun j => bout (ix2 (0 : Fin 1) j)) q := rfl

theorem layer_apply (H : Arr a 128) (bias g bb : Vec1 128) (W : Arr 128 b) (p : Fin a) (q : Fin b) :
    layer H bias g bb W (ix2 p q) = layerRow (fun k => H (ix2 p k)) (fun k => bias (ix1 k))
      (fun k => g (ix1 k)) (fun k => bb (ix1 k)) (fun k q => W (ix2 k q)) q := rfl

theorem head_apply (H : Arr a 128) (bias g bb : Vec1 128) (W : Arr 128 41) (bout : Vec1 41) (p : Fin a) (q : Fin 41) :
    head H bias g bb W bout (ix2 p q) = headRow (fun k => H (ix2 p k)) (fun k => bias (ix1 k))
      (fun k => g (ix1 k)) (fun k => bb (ix1 k)) (fun k q => W (ix2 k q)) (fun j => bout (ix1 j)) q := rfl

end Cert.Spec

end
-- ==== Proof.KArrLib.lean ====
/-
  Congruence of the row functions: each of rowMat, layerRow, headRow depends on its row, its vectors and its
  matrix only through their values, entry by entry. Used to replace the blocks a grid point holds by the rows of the
  whole arrays they were cut from.
-/
import proofs.«118564_j3066606649549_2_alg».proof.Proof.Spec

noncomputable section

namespace Cert.KernelIdeal.KArr

open Cert.Spec

/-- A row times a matrix, with equal rows, equal matrices and equal columns. -/
theorem rowMat_congr {c b : Nat} {x x' : Fin c → EReal} {W W' : Fin c → Fin b → EReal} {q q' : Fin b}
    (hx : ∀ k, x k = x' k) (hW : ∀ k j, W k j = W' k j) (hq : q = q') : rowMat x W q = rowMat x' W' q' := by
  obtain rfl : x = x' := funext hx
  obtain rfl : W = W' := funext fun k => funext (hW k)
  rw [hq]

/-- A hidden layer's action on a row, with equal rows, vectors, matrices and columns. -/
theorem layerRow_congr {b : Nat} {x x' bias bias' g g' bb bb' : Fin 128 → EReal} {W W' : Fin 128 → Fin b → EReal}
    {q q' : Fin b} (hx : ∀ k, x k = x' k) (hbias : ∀ k, bias k = bias' k) (hg : ∀ k, g k = g' k)
    (hbb : ∀ k, bb k = bb' k) (hW : ∀ k j, W k j = W' k j) (hq : q = q') :
    layerRow x bias g bb W q = layerRow x' bias' g' bb' W' q' := by
  obtain rfl : x = x' := funext hx
  obtain rfl : bias = bias' := funext hbias
  obtain rfl : g = g' := funext hg
  obtain rfl : bb = bb' := funext hbb
  obtain rfl : W = W' := funext fun k => funext (hW k)
  rw [hq]

/-- The output head's action on a row, with equal rows, vectors, matrices and columns. -/
theorem headRow_congr {x x' bias bias' g g' bb bb' : Fin 128 → EReal} {W W' : Fin 128 → Fin 41 → EReal}
    {bout bout' : Fin 41 → EReal} {q q' : Fin 41} (hx : ∀ k, x k = x' k) (hbias : ∀ k, bias k = bias' k)
    (hg : ∀ k, g k = g' k) (hbb : ∀ k, bb k = bb' k) (hW : ∀ k j, W k j = W' k j) (hbout : ∀ j, bout j = bout' j)
    (hq : q = q') : headRow x bias g bb W bout q = headRow x' bias' g' bb' W' bout' q' := by
  obtain rfl : x = x' := funext hx
  obtain rfl : bias = bias' := funext hbias
  obtain rfl : g = g' := funext hg
  obtain rfl : bb = bb' := funext hbb
  obtain rfl : W = W' := funext fun k => funext (hW k)
  obtain rfl : bout = bout' := funext hbout
  rw [hq]

end Cert.KernelIdeal.KArr

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.LibRowBroadcasts.lean ====
/-
  Rows, columns and bias vectors broadcast, read at an index.

  The complements of the keepdims column forms: a `1 × b` row broadcast down `a` rows as a vector broadcast and as a
  dimension broadcast, an `a × 1` column broadcast across `c` columns as a dimension broadcast — each reads, at
  `(p, q)`, the operand at its one free coordinate — and the fact that a length-`b` vector cast to a `1 × b` row is the
  same array as that vector broadcast along dimension 1 (two spellings of "add a leading unit axis"). For any element
  type and any extents.
-/
import Idealize.ShloMosaic.Lib.Pipeline.Value
import Idealize.ShloMosaic.Lib.ValueIdx

noncomputable section

namespace Cert.Lib.Rows

open Idealize.ShloMosaic Idealize.ShloMosaic.ValueIdx

variable {a c b : Nat}

/-- A `1 × b` row broadcast down the rows reads, at `(p, q)`, the row at `q`. -/
theorem bcastRow_apply {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- An `a × 1` column broadcast in dimensions `[0, 1]` reads, at `(p, k)`, the column at `p`. -/
theorem dimCol_apply {α : Type} (v : (⟨2, ![a, 1]⟩ : Shape).Idx → α)
    (h : (⟨2, ![a, 1]⟩ : Shape).BroadcastsInDim ⟨2, ![a, c]⟩ ![0, 1]) (p : Fin a) (k : Fin c) :
    broadcastInDim ⟨2, ![a, c]⟩ ![0, 1] h v (ix2 p k) = v (ix2 p (0 : Fin 1)) := by
  refine broadcastInDim_apply _ h v (ix2 p k) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else k.val
    rw [if_pos rfl]

/-- A `1 × b` row broadcast in dimensions `[0, 1]` reads, at `(p, q)`, the row at `q`. -/
theorem dimRow_apply {α : Type} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- A length-`b` vector cast to a `1 × b` row is the vector broadcast along dimension 1: both read, at `(·, q)`, the
    vector at `q`. -/
theorem castRow_eq_dimRow {α : Type} (v : (⟨1, ![b]⟩ : Shape).Idx → α)
    (hc : (⟨1, ![b]⟩ : Shape).ShapeCasts ⟨2, ![1, b]⟩)
    (hb : (⟨1, ![b]⟩ : Shape).BroadcastsInDim ⟨2, ![1, b]⟩ ![1]) :
    shapeCast ⟨2, ![1, b]⟩ v hc = broadcastInDim ⟨2, ![1, b]⟩ ![1] hb v := by
  funext j
  obtain ⟨u, q, rfl⟩ : ∃ (u : Fin 1) (q : Fin b), j = ix2 u q := ⟨j 0, j 1, eq_ix2 j⟩
  have hu : u.val = 0 := by omega
  have e1 : shapeCast ⟨2, ![1, b]⟩ v hc (ix2 u q) = v (ix1 q) :=
    shapeCast_apply v hc _ _ (by
      rw [Shape.rowMajor_val_two, Shape.rowMajor_val_one]
      show q.val = u.val * b + q.val
      rw [hu, Nat.zero_mul, Nat.zero_add])
  have e2 : broadcastInDim ⟨2, ![1, b]⟩ ![1] hb v (ix2 u q) = v (ix1 q) :=
    broadcastInDim_apply _ hb v (ix2 u q) (ix1 q) fun ax => by
      match ax with
      | ⟨0, _⟩ =>
        show q.val = if b = 1 then 0 else q.val
        split
        · have := q.isLt; omega
        · rfl
  rw [e1, e2]

end Cert.Lib.Rows

end
-- ==== Proof.KBlockLib.lean ====
/-
  Reading the blocks of a row-normalising kernel at an index.

  A kernel that sums along the rows of an `a × b` array with the summed axis kept as a unit axis goes through a
  length-`a` vector, then an `a × 1` column, and broadcasts the column back across the `b` columns. Read at `(p, q)`
  these are: the vector at `p` for the column, the column at `(p, 0)` for the broadcast, and for the reduction itself
  the sum (or the running maximum) over `k` of the source at `(p, k)`. Each is stated here over variable extents.
-/
import Idealize.ShloMosaic.Lib.Pipeline.Value
import Idealize.ShloMosaic.Lib.ValueIdx
import Idealize.ShloMosaic.PureOps.Ideal.Laws
import proofs.«118564_j3066606649549_2_alg».proof.Proof.Spec
import proofs.«118564_j3066606649549_2_alg».proof.Proof.LibRowBroadcasts
import proofs.«118564_j3066606649549_2_alg».proof.Proof.LibPlainDot

noncomputable section

namespace Cert.KernelIdeal.KBlock

open Idealize.ShloMosaic Idealize.ShloMosaic.ValueIdx
open scoped BigOperators

variable {a b : Nat}

/-- A length-`a` vector cast to an `a × 1` column reads, at `(p, ·)`, the vector at `p`. -/
theorem castCol_apply {α : Type} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    rw [Shape.rowMajor_val_two, Shape.rowMajor_val_one]
    show p.val = p.val * 1 + u.val
    omega)

/-- An `a × 1` column broadcast across `b` columns reads, at `(p, q)`, the column at `p`. -/
theorem bcastCol_apply {α : Type} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else q.val
    rw [if_pos rfl]

/-- The index a reduction along the rows inserts: row `p`, position `k`. -/
theorem lift_row (h : (⟨2, ![a, b]⟩ : Shape).Reduces [1] ⟨1, ![a]⟩) (p : Fin a) (k : Fin b) :
    h.lift (ix1 p) k = ix2 p k :=
  funext fun ax => Fin.ext (by
    match ax with
    | ⟨0, _⟩ => rfl
    | ⟨1, _⟩ => rfl)

/-- A sum along the rows of an `a × b` array of 32-bit floats, read at row `p`: the sum over `k` of the source at
    `(p, k)`. The accumulator is the zero word, the sum's neutral element. -/
theorem rowSum_apply (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_row h p k)

/-- A maximum along the rows, read at row `p`: the fold of `max` from the word of minus infinity over `k` of the
    source at `(p, k)`. -/
theorem rowMax_apply (src : FVec Ideal ⟨2, ![a, b]⟩ .f32)
    (h : (⟨2, ![a, b]⟩ : Shape).Reduces [1] ⟨1, ![a]⟩) (hφ : FKind.Formats .f32)
    (hacc : (0xFF800000#32 : BitVec 32) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) := by
  refine (Ideal.multiReduction_maximumf_single src 0xFF800000#32 h hφ hacc (ix1 p)).trans ?_
  refine congrArg (fun f => (Finset.univ : Finset (Fin b)).fold max (Ideal.ofBits .f32 0xFF800000#32) f) ?_
  exact funext fun k => congrArg src (lift_row h p k)

/-- The two zero offsets of a rectangle that is the whole block. -/
theorem zero_offsets : (![0, 0] : Fin 2 → Nat) = fun _ => 0 := funext fun i => by fin_cases i <;> rfl

/-! ## The normalise-and-clamp block

The hidden layers and the output head begin with the same arithmetic on an `a × 128` block: add the bias row; take
the row means as a column; subtract it; take the row means of the squares, add the small constant, take the
reciprocal square root as a column; multiply, scale by the gain row, shift by the offset row, clamp at zero. The
stages are named here as the kernels write them, and each is read at an index. -/

section Block

variable (hc : (⟨2, ![a, 128]⟩ : Shape).ShapeCasts ⟨2, ![a, 128]⟩)
  (hc1 : (⟨2, ![1, 128]⟩ : Shape).ShapeCasts ⟨2, ![1, 128]⟩)
  (hb : (⟨2, ![1, 128]⟩ : Shape).Broadcasts ⟨2, ![a, 128]⟩)
  (hr : (⟨2, ![a, 128]⟩ : Shape).Reduces [1] ⟨1, ![a]⟩)
  (hcc : (⟨1, ![a]⟩ : Shape).ShapeCasts ⟨2, ![a, 1]⟩)
  (hbc : (⟨2, ![a, 1]⟩ : Shape).Broadcasts ⟨2, ![a, 128]⟩)

/-- A block plus a row, the row repeated down the block. -/
def plusRow (v : FVec Ideal ⟨2, ![a, 128]⟩ .f32) (r : FVec Ideal ⟨2, ![1, 128]⟩ .f32) :
    FVec Ideal ⟨2, ![a, 128]⟩ .f32 :=
  addf v (broadcastTo ⟨2, ![a, 128]⟩ (shapeCast ⟨2, ![1, 128]⟩ r hc1) hb)

theorem plusRow_apply (v : FVec Ideal ⟨2, ![a, 128]⟩ .f32) (r : FVec Ideal ⟨2, ![1, 128]⟩ .f32) (p : Fin a)
    (k : Fin 128) : plusRow hc1 hb v r (ix2 p k) = v (ix2 p k) + r (ix2 (0 : Fin 1) k) := by
  show v (ix2 p k) + broadcastTo ⟨2, ![a, 128]⟩ (shapeCast ⟨2, ![1, 128]⟩ r hc1) hb (ix2 p k) = _
  rw [Cert.Lib.Rows.bcastRow_apply, shapeCast_self]

/-- A block times a row, the row repeated down the block. -/
def timesRow (v : FVec Ideal ⟨2, ![a, 128]⟩ .f32) (r : FVec Ideal ⟨2, ![1, 128]⟩ .f32) :
    FVec Ideal ⟨2, ![a, 128]⟩ .f32 :=
  mulf v (broadcastTo ⟨2, ![a, 128]⟩ (shapeCast ⟨2, ![1, 128]⟩ r hc1) hb)

theorem timesRow_apply (v : FVec Ideal ⟨2, ![a, 128]⟩ .f32) (r : FVec Ideal ⟨2, ![1, 128]⟩ .f32) (p : Fin a)
    (k : Fin 128) : timesRow hc1 hb v r (ix2 p k) = v (ix2 p k) * r (ix2 (0 : Fin 1) k) := by
  show v (ix2 p k) * broadcastTo ⟨2, ![a, 128]⟩ (shapeCast ⟨2, ![1, 128]⟩ r hc1) hb (ix2 p k) = _
  rw [Cert.Lib.Rows.bcastRow_apply, shapeCast_self]

/-- The row means of a block, as a column: the row sums divided by the word of 128. -/
def meanCol (v : FVec Ideal ⟨2, ![a, 128]⟩ .f32) : FVec Ideal ⟨2, ![a, 1]⟩ .f32 :=
  divf (shapeCast ⟨2, ![a, 1]⟩ (multiReduction .add [1] ⟨1, ![a]⟩ v 0x00000000#32 hr (.inl rfl) rfl) hcc)
    (broadcast ⟨2, ![a, 1]⟩ (Scalar.ofBits .f32 0x43000000#32))

theorem meanCol_apply (v : FVec Ideal ⟨2, ![a, 128]⟩ .f32) (p : Fin a) (u : Fin 1) :
    meanCol hr hcc v (ix2 p u) = Ideal.div (∑ k : Fin 128, v (ix2 p k)) Cert.Spec.w128 := by
  show Ideal.div (shapeCast ⟨2, ![a, 1]⟩ (multiReduction .add [1] ⟨1, ![a]⟩ v 0x00000000#32 hr (.inl rfl) rfl) hcc
    (ix2 p u)) Cert.Spec.w128 = _
  rw [castCol_apply, rowSum_apply]

/-- A block with each row's mean subtracted. -/
def centeredArr (v : FVec Ideal ⟨2, ![a, 128]⟩ .f32) : FVec Ideal ⟨2, ![a, 128]⟩ .f32 :=
  subf v (broadcastTo ⟨2, ![a, 128]⟩ (meanCol hr hcc v) hbc)

theorem centeredArr_apply (v : FVec Ideal ⟨2, ![a, 128]⟩ .f32) (p : Fin a) (k : Fin 128) :
    centeredArr hr hcc hbc v (ix2 p k) = Cert.Spec.centered (fun k' => v (ix2 p k')) k := by
  show v (ix2 p k) - broadcastTo ⟨2, ![a, 128]⟩ (meanCol hr hcc v) hbc (ix2 p k) = _
  rw [bcastCol_apply, meanCol_apply]
  rfl

/-- The reciprocal square root of the row means of the squares plus the small constant, as a column. -/
def invStdCol (d : FVec Ideal ⟨2, ![a, 128]⟩ .f32) : FVec Ideal ⟨2, ![a, 1]⟩ .f32 :=
  rsqrt (addf (meanCol hr hcc (mulf d d)) (broadcast ⟨2, ![a, 1]⟩ (Scalar.ofBits .f32 0x3727C5AC#32)))

theorem invStdCol_apply (d : FVec Ideal ⟨2, ![a, 128]⟩ .f32) (p : Fin a) (u : Fin 1) :
    invStdCol hr hcc d (ix2 p u) = Cert.Spec.invStd (fun k' => d (ix2 p k')) := by
  show Ideal.rsqrt (meanCol hr hcc (mulf d d) (ix2 p u) + Cert.Spec.weps) = _
  rw [meanCol_apply]
  rfl

/-- The whole block: bias, normalisation, gain, offset, clamp at zero. -/
def normClamp (v0 : FVec Ideal ⟨2, ![a, 128]⟩ .f32) (bias g bb : FVec Ideal ⟨2, ![1, 128]⟩ .f32) :
    FVec Ideal ⟨2, ![a, 128]⟩ .f32 :=
  have d : FVec Ideal ⟨2, ![a, 128]⟩ .f32 :=
    centeredArr hr hcc hbc (plusRow hc1 hb (shapeCast ⟨2, ![a, 128]⟩ v0 hc) bias)
  maximumf
    (plusRow hc1 hb (timesRow hc1 hb (mulf d (broadcastTo ⟨2, ![a, 128]⟩ (invStdCol hr hcc d) hbc)) g) bb)
    (broadcast ⟨2, ![a, 128]⟩ (Scalar.ofBits .f32 0x00000000#32))

theorem normClamp_apply (v0 : FVec Ideal ⟨2, ![a, 128]⟩ .f32) (bias g bb : FVec Ideal ⟨2, ![1, 128]⟩ .f32)
    (p : Fin a) (k : Fin 128) :
    normClamp hc hc1 hb hr hcc hbc v0 bias g bb (ix2 p k)
      = Cert.Spec.lnRelu (fun k' => v0 (ix2 p k')) (fun k' => bias (ix2 (0 : Fin 1) k'))
          (fun k' => g (ix2 (0 : Fin 1) k')) (fun k' => bb (ix2 (0 : Fin 1) k')) k := by
  have hrow : (fun k' => plusRow hc1 hb (shapeCast ⟨2, ![a, 128]⟩ v0 hc) bias (ix2 p k'))
      = fun k' => v0 (ix2 p k') + bias (ix2 (0 : Fin 1) k') :=
    funext fun k' => by rw [plusRow_apply, shapeCast_self]
  have hd : (fun k' => centeredArr hr hcc hbc (plusRow hc1 hb (shapeCast ⟨2, ![a, 128]⟩ v0 hc) bias) (ix2 p k'))
      = Cert.Spec.centered fun k' => v0 (ix2 p k') + bias (ix2 (0 : Fin 1) k') :=
    funext fun k' => by rw [centeredArr_apply, hrow]
  unfold normClamp
  show max (plusRow hc1 hb (timesRow hc1 hb (mulf _ (broadcastTo ⟨2, ![a, 128]⟩ (invStdCol hr hcc _) hbc)) g) bb
    (ix2 p k)) Cert.Spec.wzero = _
  rw [plusRow_apply, timesRow_apply]
  show max (centeredArr hr hcc hbc (plusRow hc1 hb (shapeCast ⟨2, ![a, 128]⟩ v0 hc) bias) (ix2 p k)
    * broadcastTo ⟨2, ![a, 128]⟩ (invStdCol hr hcc _) hbc (ix2 p k) * g (ix2 (0 : Fin 1) k) + bb (ix2 (0 : Fin 1) k))
    Cert.Spec.wzero = _
  rw [bcastCol_apply, invStdCol_apply, hd, congrFun hd k]
  rfl

/-- A hidden layer on a block: the normalise-and-clamp block times a weight block into a zero accumulator, read at
    `(p, q)`, is the layer's action on row `p`, read at `q`. -/
theorem layer_apply (wf : DotDims.WF ⟨2, ![a, 128]⟩ ⟨2, ![128, b]⟩ ⟨2, ![a, b]⟩ [1] [0] [0] [1] [] [])
    (prec : Option ContractPrecision) (v0 : FVec Ideal ⟨2, ![a, 128]⟩ .f32)
    (bias g bb : FVec Ideal ⟨2, ![1, 128]⟩ .f32) (W : FVec Ideal ⟨2, ![128, b]⟩ .f32) (p : Fin a) (q : Fin b) :
    matmul (Cert.Lib.PlainDot.dims wf) prec (normClamp hc hc1 hb hr hcc hbc v0 bias g bb) W
        (constant (F := Ideal) ⟨2, ![a, b]⟩ .f32 0x00000000#32) (ix2 p q)
      = Cert.Spec.layerRow (fun k => v0 (ix2 p k)) (fun k => bias (ix2 (0 : Fin 1) k))
          (fun k => g (ix2 (0 : Fin 1) k)) (fun k => bb (ix2 (0 : Fin 1) k)) (fun k j => W (ix2 k j)) q := by
  rw [Cert.Lib.PlainDot.matmul_zero_apply]
  unfold Cert.Spec.layerRow Cert.Spec.rowMat
  refine Finset.sum_congr rfl fun k _ => ?_
  rw [normClamp_apply]

end Block

/-! ## The log-softmax block

Given the scores and their row maxima: subtract each row's maximum, as a column broadcast across the row; then subtract
the logarithm of the row sums of the exponentials, again as a column. -/

section LogSoftmax

variable (hr : (⟨2, ![a, b]⟩ : Shape).Reduces [1] ⟨1, ![a]⟩)
  (hcc : (⟨1, ![a]⟩ : Shape).ShapeCasts ⟨2, ![a, 1]⟩)
  (hbc : (⟨2, ![a, 1]⟩ : Shape).Broadcasts ⟨2, ![a, b]⟩)

/-- A block minus a length-`a` vector, the vector's entry `p` subtracted along row `p`. -/
def minusCol (v : FVec Ideal ⟨2, ![a, b]⟩ .f32) (m : FVec Ideal ⟨1, ![a]⟩ .f32) : FVec Ideal ⟨2, ![a, b]⟩ .f32 :=
  subf v (broadcastTo ⟨2, ![a, b]⟩ (shapeCast ⟨2, ![a, 1]⟩ m hcc) hbc)

theorem minusCol_apply (v : FVec Ideal ⟨2, ![a, b]⟩ .f32) (m : FVec Ideal ⟨1, ![a]⟩ .f32) (p : Fin a) (q : Fin b) :
    minusCol hcc hbc v m (ix2 p q) = v (ix2 p q) - m (ix1 p) := by
  show v (ix2 p q) - broadcastTo ⟨2, ![a, b]⟩ (shapeCast ⟨2, ![a, 1]⟩ m hcc) hbc (ix2 p q) = _
  rw [bcastCol_apply, castCol_apply]

/-- The shifted scores minus the logarithm of the row sums of their exponentials. -/
def shiftLog (v : FVec Ideal ⟨2, ![a, b]⟩ .f32) (m : FVec Ideal ⟨1, ![a]⟩ .f32) : FVec Ideal ⟨2, ![a, b]⟩ .f32 :=
  have z : FVec Ideal ⟨2, ![a, b]⟩ .f32 := minusCol hcc hbc v m
  subf z (broadcastTo ⟨2, ![a, b]⟩
    (log (shapeCast ⟨2, ![a, 1]⟩ (multiReduction .add [1] ⟨1, ![a]⟩ (exp z) 0x00000000#32 hr (.inl rfl) rfl) hcc)) hbc)

theorem shiftLog_apply (v : FVec Ideal ⟨2, ![a, b]⟩ .f32) (m : FVec Ideal ⟨1, ![a]⟩ .f32) (p : Fin a) (q : Fin b) :
    shiftLog hr hcc hbc v m (ix2 p q)
      = (v (ix2 p q) - m (ix1 p)) - Ideal.log (∑ k : Fin b, Ideal.exp (v (ix2 p k) - m (ix1 p))) := by
  unfold shiftLog
  show minusCol hcc hbc v m (ix2 p q) - broadcastTo ⟨2, ![a, b]⟩
    (log (shapeCast ⟨2, ![a, 1]⟩ (multiReduction .add [1] ⟨1, ![a]⟩ (exp (minusCol hcc hbc v m)) 0x00000000#32 hr
      (.inl rfl) rfl) hcc)) hbc (ix2 p q) = _
  rw [bcastCol_apply, minusCol_apply]
  show _ - Ideal.log (shapeCast ⟨2, ![a, 1]⟩ (multiReduction .add [1] ⟨1, ![a]⟩ (exp (minusCol hcc hbc v m))
    0x00000000#32 hr (.inl rfl) rfl) hcc (ix2 p (0 : Fin 1))) = _
  rw [castCol_apply, rowSum_apply]
  refine congrArg (fun s => _ - Ideal.log s) (Finset.sum_congr rfl fun k _ => ?_)
  show Ideal.exp (minusCol hcc hbc v m (ix2 p k)) = _
  rw [minusCol_apply]

end LogSoftmax

/-- The log-softmax of a block of 41 scores per row, the row maxima taken from the word of minus infinity: at
    `(p, q)`, the log-softmax of row `p` read at `q`. -/
theorem logSoftmax_apply (hr : (⟨2, ![a, 41]⟩ : Shape).Reduces [1] ⟨1, ![a]⟩)
    (hcc : (⟨1, ![a]⟩ : Shape).ShapeCasts ⟨2, ![a, 1]⟩) (hbc : (⟨2, ![a, 1]⟩ : Shape).Broadcasts ⟨2, ![a, 41]⟩)
    (hφ : FKind.Formats .f32) (hacc : (0xFF800000#32 : BitVec 32) = 0xFF800000#32)
    (v : FVec Ideal ⟨2, ![a, 41]⟩ .f32) (p : Fin a) (q : Fin 41) :
    shiftLog hr hcc hbc v (multiReduction .maximumf [1] ⟨1, ![a]⟩ v 0xFF800000#32 hr hφ hacc) (ix2 p q)
      = Cert.Spec.logSoftmaxRow (fun j => v (ix2 p j)) q := by
  rw [shiftLog_apply, rowMax_apply]
  rfl

end Cert.KernelIdeal.KBlock

end
-- ==== Proof.KBody0.lean ====
/-
  The first kernel's body at an index: a plain matrix product.

  The body loads its two whole blocks, multiplies them into a zero accumulator and stores the product over the whole
  output block. At `(p, q)` the stored value is the sum over the 602 input features of the left block at `(p, k)`
  times the weight at `(k, q)`.
-/
import proofs.«118564_j3066606649549_2_alg».proof.Proof.Gen.KernelIdeal.Frame
import proofs.«118564_j3066606649549_2_alg».proof.Proof.Spec
import proofs.«118564_j3066606649549_2_alg».proof.Proof.LibPlainDot
import proofs.«118564_j3066606649549_2_alg».proof.Proof.KBlockLib

noncomputable section

namespace Cert.KernelIdeal.KBody

open Idealize.ShloMosaic Idealize.ShloMosaic.ValueIdx Cert.KernelIdeal
open scoped BigOperators

theorem out0_2_apply (x0 : Vec Ideal S5000x602 .f32) (x1 : Vec Ideal S602x128 .f32) (p : Fin 5000) (q : Fin 128) :
    Gen.out0_2 (F := Ideal) x0 x1 (ix2 p q)
      = Cert.Spec.rowMat (fun k : Fin 602 => x0 (ix2 p k)) (fun (k : Fin 602) (j : Fin 128) => x1 (ix2 k j)) q := by
  unfold Gen.out0_2
  rw [View.canon_unit_zero KBlock.zero_offsets]
  simp only [View.ld_unit_zero (S := S5000x602) KBlock.zero_offsets,
    View.ld_unit_zero (S := S602x128) KBlock.zero_offsets]
  exact Cert.Lib.PlainDot.matmul_zero_apply Facts₀.dot_S5000x602_S602x128_S5000x128_1_0_0_1_n_n_wf (some .fp32)
    x0 x1 p q

end Cert.KernelIdeal.KBody

end
-- ==== Proof.KArr0.lean ====
/-
  The first pallas_call, from blocks to the array. Its grid has 20 points; point t holds rows 5000 t .. 5000 t + 4999 of
  the node features (602 columns) and the whole 602 x 128 weight matrix, and writes back rows 5000 t .. 5000 t + 4999 of
  the product. Each row of a block's product is that row of the features times the matrix, so what point t writes back is
  block t of the matrix product of the whole arrays; the 20 blocks cover the 100000 rows, hence the array after the
  region is the product.
-/
import proofs.«118564_j3066606649549_2_alg».proof.Proof.Gen.KernelIdeal.Frame
import proofs.«118564_j3066606649549_2_alg».proof.Proof.Spec
import proofs.«118564_j3066606649549_2_alg».proof.Proof.KArrLib
import proofs.«118564_j3066606649549_2_alg».proof.Proof.KBody0
import Idealize.ShloMosaic.Lib.Pipeline.Value
import Idealize.ShloMosaic.Lib.Tactic

noncomputable section

namespace Cert.KernelIdeal.KArr

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The index maps over the 20 points: the feature window and the output window sit at row block t, column block 0;
    the weight window at block (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature block at point t is rows 5000 t .. of the feature array. -/
theorem blk0_0_apply (c : Dev nD) (t : Fin cfg0.N) (y : S5000x602.Idx) (i : S100000x602.Idx)
    (h0 : (i 0).val = t.val * 5000 + (y 0).val) (h1 : (i 1).val = (y 1).val) :
    (iblk0 V c 0 t : Vec Ideal S5000x602 .f32) y = (V c main_arg0 : S100000x602.Idx → EReal) i := by
  obtain ⟨e0, e1, -, -, -, -⟩ := idx0 t
  unfold iblk0
  rw [View.read_apply]
  show V c main_arg0 (((cfg0.win 0).blk t).view.emb y) = V c main_arg0 i
  refine congrArg (V c main_arg0) ?_
  funext a
  apply Fin.ext
  match a with
  | ⟨0, _⟩ => show win0_0.index t (0 : Fin 2) * 5000 + 1 * (y 0).val = (i 0).val; omega
  | ⟨1, _⟩ => show win0_0.index t (1 : Fin 2) * 602 + 1 * (y 1).val = (i 1).val; omega

/-- The weight block at every point is the weight array. -/
theorem blk0_1_apply (c : Dev nD) (t : Fin cfg0.N) (y : S602x128.Idx) :
    (iblk0 V c 1 t : Vec Ideal S602x128 .f32) y = (V c main_arg4 : S602x128.Idx → EReal) y := by
  obtain ⟨-, -, e0, e1, -, -⟩ := idx0 t
  unfold iblk0
  rw [View.read_apply]
  show V c main_arg4 (((cfg0.win 1).blk t).view.emb y) = V c main_arg4 y
  refine congrArg (V c main_arg4) ?_
  funext a
  apply Fin.ext
  match a with
  | ⟨0, _⟩ => show win0_1.index t (0 : Fin 2) * 602 + 1 * (y 0).val = (y 0).val; omega
  | ⟨1, _⟩ => show win0_1.index t (1 : Fin 2) * 128 + 1 * (y 1).val = (y 1).val; omega

/-- What point t writes back is block t of the matrix product of the whole arrays, given the body read at an index. -/
theorem flushed0_eq
    (hbody : ∀ (x0 : Vec Ideal S5000x602 .f32) (x1 : Vec Ideal S602x128 .f32) (p : Fin 5000) (q : Fin 128),
      Gen.out0_2 (F := Ideal) x0 x1 (ix2 p q)
        = Cert.Spec.rowMat (fun k : Fin 602 => x0 (ix2 p k)) (fun (k : Fin 602) (j : Fin 128) => x1 (ix2 k j)) q)
    (c : Dev nD) (t : Fin cfg0.N) :
    (dat0 V c).flushed 2 t
      = ((cfg0.win 2).blk t).view.read (Elt Ideal) (Cert.Spec.mm (V c main_arg0) (V c main_arg4)) := by
  show (cfg0.win 2).cut (grid0.coords t) ((dat0 V c).after 2 t) = _
  rw [after0_2]
  obtain ⟨-, -, -, -, e0, e1⟩ := idx0 t
  funext j
  obtain ⟨p, q, rfl⟩ : ∃ (p : Fin 5000) (q : Fin 128), j = ix2 p q := ⟨j 0, j 1, eq_ix2 j⟩
  rw [View.read_apply]
  show out0_2 (iblk0 V c 0 t) (iblk0 V c 1 t) (ix2 p q)
    = Cert.Spec.mm (V c main_arg0) (V c main_arg4) (((cfg0.win 2).blk t).view.emb (ix2 p q))
  refine (hbody _ _ p q).trans ?_
  show Cert.Spec.rowMat _ _ q
    = Cert.Spec.rowMat
        (fun k => (V c main_arg0 : S100000x602.Idx → EReal)
          (ix2 ((((cfg0.win 2).blk t).view.emb (ix2 p q) : S100000x128.Idx) 0) k))
        (fun k j => (V c main_arg4 : S602x128.Idx → EReal) (ix2 k j))
        ((((cfg0.win 2).blk t).view.emb (ix2 p q) : S100000x128.Idx) 1)
  refine rowMat_congr (fun k => ?_) (fun k j => ?_) ?_
  · refine blk0_0_apply V c t (ix2 p k) _ ?_ rfl
    show win0_2.index t (0 : Fin 2) * 5000 + 1 * p.val = t.val * 5000 + p.val
    omega
  · exact blk0_1_apply V c t (ix2 k j)
  · apply Fin.ext
    show q.val = win0_2.index t (1 : Fin 2) * 128 + 1 * q.val
    omega

/-- An index of the product array is in point t's block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v0).slice (win0_2.rect t)).set ↔ _
  rw [View.set_slice_whole, Rect.mem_set_unit]
  exact Iff.rfl

/-- Row r of the product array is in the block of point r / 5000. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have ht : (i 0).val / 5000 < cfg0.N := by rw [show cfg0.N = 20 from N_0]; omega
  obtain ⟨-, -, -, -, e0, e1⟩ := idx0 ⟨(i 0).val / 5000, ht⟩
  have e0' : win0_2.index ⟨(i 0).val / 5000, ht⟩ (0 : Fin 2) = (i 0).val / 5000 := e0
  refine ⟨⟨(i 0).val / 5000, ht⟩, flush0_2 _, ?_⟩
  rw [mem_blk0]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    omega
  | ⟨1, _⟩ =>
    show win0_2.index ⟨(i 0).val / 5000, ht⟩ (1 : Fin 2) * 128 ≤ (i 1).val
      ∧ (i 1).val < win0_2.index ⟨(i 0).val / 5000, ht⟩ (1 : Fin 2) * 128 + 128
    omega

/-- The product array after the region, given the body read at an index. -/
theorem final0_of
    (hbody : ∀ (x0 : Vec Ideal S5000x602 .f32) (x1 : Vec Ideal S602x128 .f32) (p : Fin 5000) (q : Fin 128),
      Gen.out0_2 (F := Ideal) x0 x1 (ix2 p q)
        = Cert.Spec.rowMat (fun k : Fin 602 => x0 (ix2 p k)) (fun (k : Fin 602) (j : Fin 128) => x1 (ix2 k j)) q)
    (c : Dev nD) :
    (Gen.dat0 (F := Ideal) V c).arrAt 2 cfg0.N = Cert.Spec.mm (V c main_arg0) (V c main_arg4) :=
  (dat0 V c).arrAt_eq_of_cover 2 (Cert.Spec.mm (V c main_arg0) (V c main_arg4))
    (fun t _ => flushed0_eq V hbody c t) cover0

/-- The product array after the region is the matrix product of the arrays the region finds. -/
theorem final0 (c : Dev nD) :
    (Gen.dat0 (F := Ideal) V c).arrAt 2 cfg0.N = Cert.Spec.mm (V c main_arg0) (V c main_arg4) :=
  final0_of V KBody.out0_2_apply c

end Cert.KernelIdeal.KArr

end
-- ==== Proof.KBody1.lean ====
/-
  The two hidden-layer kernels' bodies at an index.

  Each body adds the bias row to its block, normalises every row (subtract the row mean, multiply by the reciprocal
  square root of the mean squared deviation plus the small constant), applies the gain and the offset, clamps below at
  zero and multiplies by the weight block into a zero accumulator. At `(p, q)` the stored value is the hidden layer's
  action on row `p` of the block, read at `q`. The two kernels have the same body.
-/
import proofs.«118564_j3066606649549_2_alg».proof.Proof.Gen.KernelIdeal.Frame
import proofs.«118564_j3066606649549_2_alg».proof.Proof.Spec
import proofs.«118564_j3066606649549_2_alg».proof.Proof.LibPlainDot
import proofs.«118564_j3066606649549_2_alg».proof.Proof.KBlockLib

noncomputable section

namespace Cert.KernelIdeal.KBody

open Idealize.ShloMosaic Idealize.ShloMosaic.ValueIdx Cert.KernelIdeal
open scoped BigOperators

theorem out1_5_apply (x0 : Vec Ideal S5000x128 .f32) (x1 x2 x3 : Vec Ideal S1x128 .f32) (x4 : Vec Ideal S128x128 .f32)
    (p : Fin 5000) (q : Fin 128) :
    Gen.out1_5 (F := Ideal) x0 x1 x2 x3 x4 (ix2 p q)
      = Cert.Spec.layerRow (fun k : Fin 128 => x0 (ix2 p k)) (fun k => x1 (ix2 (0 : Fin 1) k))
          (fun k => x2 (ix2 (0 : Fin 1) k)) (fun k => x3 (ix2 (0 : Fin 1) k))
          (fun (k : Fin 128) (j : Fin 128) => x4 (ix2 k j)) q := by
  unfold Gen.out1_5
  rw [View.canon_unit_zero KBlock.zero_offsets]
  simp only [View.ld_unit_zero (S := S5000x128) KBlock.zero_offsets,
    View.ld_unit_zero (S := S1x128) KBlock.zero_offsets, View.ld_unit_zero (S := S128x128) KBlock.zero_offsets]
  exact KBlock.layer_apply Facts₀.shapeCasts_S5000x128_S5000x128 Facts₀.shapeCasts_S1x128_S1x128
    Facts₀.broadcasts_S1x128_S5000x128 Facts₀.reduces_S5000x128_S5000 Facts₀.shapeCasts_S5000_S5000x1
    Facts₀.broadcasts_S5000x1_S5000x128
    Facts₀.dot_S5000x128_S128x128_S5000x128_1_0_0_1_n_n_wf (some .fp32) x0 x1 x2 x3 x4 p q

theorem out2_5_apply (x0 : Vec Ideal S5000x128 .f32) (x1 x2 x3 : Vec Ideal S1x128 .f32) (x4 : Vec Ideal S128x128 .f32)
    (p : Fin 5000) (q : Fin 128) :
    Gen.out2_5 (F := Ideal) x0 x1 x2 x3 x4 (ix2 p q)
      = Cert.Spec.layerRow (fun k : Fin 128 => x0 (ix2 p k)) (fun k => x1 (ix2 (0 : Fin 1) k))
          (fun k => x2 (ix2 (0 : Fin 1) k)) (fun k => x3 (ix2 (0 : Fin 1) k))
          (fun (k : Fin 128) (j : Fin 128) => x4 (ix2 k j)) q := by
  unfold Gen.out2_5
  rw [View.canon_unit_zero KBlock.zero_offsets]
  simp only [View.ld_unit_zero (S := S5000x128) KBlock.zero_offsets,
    View.ld_unit_zero (S := S1x128) KBlock.zero_offsets, View.ld_unit_zero (S := S128x128) KBlock.zero_offsets]
  exact KBlock.layer_apply Facts₀.shapeCasts_S5000x128_S5000x128 Facts₀.shapeCasts_S1x128_S1x128
    Facts₀.broadcasts_S1x128_S5000x128 Facts₀.reduces_S5000x128_S5000 Facts₀.shapeCasts_S5000_S5000x1
    Facts₀.broadcasts_S5000x1_S5000x128
    Facts₀.dot_S5000x128_S128x128_S5000x128_1_0_0_1_n_n_wf (some .fp32) x0 x1 x2 x3 x4 p q

end Cert.KernelIdeal.KBody

end
-- ==== Proof.KArr1.lean ====
/-
  The first hidden-layer pallas_call, from blocks to the array. Its grid has 20 points; point t holds rows
  5000 t .. 5000 t + 4999 of the node features (128 columns), the whole bias, gain and offset rows and the whole 128 x 128
  weight matrix, and writes back rows 5000 t .. 5000 t + 4999 of the result. Each row of a block's result is the hidden
  layer's action on that row of the features, so what point t writes back is block t of the layer applied to the whole
  arrays; the 20 blocks cover the 100000 rows, hence the array after the region is the layer of the arrays.
-/
import proofs.«118564_j3066606649549_2_alg».proof.Proof.Gen.KernelIdeal.Frame
import proofs.«118564_j3066606649549_2_alg».proof.Proof.Spec
import proofs.«118564_j3066606649549_2_alg».proof.Proof.KArrLib
import proofs.«118564_j3066606649549_2_alg».proof.Proof.KBody1
import Idealize.ShloMosaic.Lib.Pipeline.Value
import Idealize.ShloMosaic.Lib.Tactic

noncomputable section

namespace Cert.KernelIdeal.KArr

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The index maps over the 20 points: the feature window and the output window sit at row block t, column block 0;
    the bias, gain, offset and weight windows at block (0, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The feature block at point t is rows 5000 t .. 5000 t + 4999 of the feature array. -/
theorem blk1_0_apply (c : Dev nD) (t : Fin cfg1.N) (y : S5000x128.Idx) (i : S100000x128.Idx)
    (h0 : (i 0).val = t.val * 5000 + (y 0).val) (h1 : (i 1).val = (y 1).val) :
    (iblk1 V c 0 t : Vec Ideal S5000x128 .f32) y = (V c main_v19 : S100000x128.Idx → EReal) i := by
  obtain ⟨e0, e1, -, -, -, -, -, -, -, -, -, -⟩ := idx1 t
  unfold iblk1
  rw [View.read_apply]
  show V c main_v19 (((cfg1.win 0).blk t).view.emb y) = V c main_v19 i
  refine congrArg (V c main_v19) ?_
  funext a
  apply Fin.ext
  match a with
  | ⟨0, _⟩ => show win1_0.index t (0 : Fin 2) * 5000 + 1 * (y 0).val = (i 0).val; omega
  | ⟨1, _⟩ => show win1_0.index t (1 : Fin 2) * 128 + 1 * (y 1).val = (i 1).val; omega

/-- The bias block at every point is the bias row. -/
theorem blk1_1_apply (c : Dev nD) (t : Fin cfg1.N) (y : S1x128.Idx) :
    (iblk1 V c 1 t : Vec Ideal S1x128 .f32) y = (V c main_v20 : S1x128.Idx → EReal) y := by
  obtain ⟨-, -, e0, e1, -, -, -, -, -, -, -, -⟩ := idx1 t
  unfold iblk1
  rw [View.read_apply]
  show V c main_v20 (((cfg1.win 1).blk t).view.emb y) = V c main_v20 y
  refine congrArg (V c main_v20) ?_
  funext a
  apply Fin.ext
  match a with
  | ⟨0, _⟩ => show win1_1.index t (0 : Fin 2) * 1 + 1 * (y 0).val = (y 0).val; omega
  | ⟨1, _⟩ => show win1_1.index t (1 : Fin 2) * 128 + 1 * (y 1).val = (y 1).val; omega

/-- The gain block at every point is the gain row. -/
theorem blk1_2_apply (c : Dev nD) (t : Fin cfg1.N) (y : S1x128.Idx) :
    (iblk1 V c 2 t : Vec Ideal S1x128 .f32) y = (V c main_v21 : S1x128.Idx → EReal) y := by
  obtain ⟨-, -, -, -, e0, e1, -, -, -, -, -, -⟩ := idx1 t
  unfold iblk1
  rw [View.read_apply]
  show V c main_v21 (((cfg1.win 2).blk t).view.emb y) = V c main_v21 y
  refine congrArg (V c main_v21) ?_
  funext a
  apply Fin.ext
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- The offset block at every point is the offset row. -/
theorem blk1_3_apply (c : Dev nD) (t : Fin cfg1.N) (y : S1x128.Idx) :
    (iblk1 V c 3 t : Vec Ideal S1x128 .f32) y = (V c main_v22 : S1x128.Idx → EReal) y := by
  obtain ⟨-, -, -, -, -, -, e0, e1, -, -, -, -⟩ := idx1 t
  unfold iblk1
  rw [View.read_apply]
  show V c main_v22 (((cfg1.win 3).blk t).view.emb y) = V c main_v22 y
  refine congrArg (V c main_v22) ?_
  funext a
  apply Fin.ext
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- The weight block at every point is the weight array. -/
theorem blk1_4_apply (c : Dev nD) (t : Fin cfg1.N) (y : S128x128.Idx) :
    (iblk1 V c 4 t : Vec Ideal S128x128 .f32) y = (V c main_arg6 : S128x128.Idx → EReal) y := by
  obtain ⟨-, -, -, -, -, -, -, -, e0, e1, -, -⟩ := idx1 t
  unfold iblk1
  rw [View.read_apply]
  show V c main_arg6 (((cfg1.win 4).blk t).view.emb y) = V c main_arg6 y
  refine congrArg (V c main_arg6) ?_
  funext a
  apply Fin.ext
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- What point t writes back is block t of the layer applied to the whole arrays, given the body read at an index. -/
theorem flushed1_eq
    (hbody : ∀ (x0 : Vec Ideal S5000x128 .f32) (x1 x2 x3 : Vec Ideal S1x128 .f32) (x4 : Vec Ideal S128x128 .f32)
      (p : Fin 5000) (q : Fin 128),
      Gen.out1_5 (F := Ideal) x0 x1 x2 x3 x4 (ix2 p q)
        = Cert.Spec.layerRow (fun k : Fin 128 => x0 (ix2 p k)) (fun k => x1 (ix2 (0 : Fin 1) k))
            (fun k => x2 (ix2 (0 : Fin 1) k)) (fun k => x3 (ix2 (0 : Fin 1) k))
            (fun (k : Fin 128) (j : Fin 128) => x4 (ix2 k j)) q)
    (c : Dev nD) (t : Fin cfg1.N) :
    (dat1 V c).flushed 5 t
      = ((cfg1.win 5).blk t).view.read (Elt Ideal) (Cert.Spec.layerB (V c main_v19) (V c main_v20) (V c main_v21) (V c main_v22) (V c main_arg6)) := by
  show (cfg1.win 5).cut (grid1.coords t) ((dat1 V c).after 5 t) = _
  rw [after1_5]
  obtain ⟨-, -, -, -, -, -, -, -, -, -, e0, e1⟩ := idx1 t
  funext j
  obtain ⟨p, q, rfl⟩ : ∃ (p : Fin 5000) (q : Fin 128), j = ix2 p q := ⟨j 0, j 1, eq_ix2 j⟩
  rw [View.read_apply]
  show out1_5 (iblk1 V c 0 t) (iblk1 V c 1 t) (iblk1 V c 2 t) (iblk1 V c 3 t) (iblk1 V c 4 t) (ix2 p q)
    = Cert.Spec.layerB (V c main_v19) (V c main_v20) (V c main_v21) (V c main_v22) (V c main_arg6) (((cfg1.win 5).blk t).view.emb (ix2 p q))
  refine (hbody _ _ _ _ _ p q).trans ?_
  show Cert.Spec.layerRow _ _ _ _ _ q
    = Cert.Spec.layerRow
        (fun k => (V c main_v19 : S100000x128.Idx → EReal)
          (ix2 ((((cfg1.win 5).blk t).view.emb (ix2 p q) : S100000x128.Idx) 0) k))
        (fun k => (V c main_v20 : S1x128.Idx → EReal) (ix2 (0 : Fin 1) k))
        (fun k => (V c main_v21 : S1x128.Idx → EReal) (ix2 (0 : Fin 1) k))
        (fun k => (V c main_v22 : S1x128.Idx → EReal) (ix2 (0 : Fin 1) k))
        (fun k j => (V c main_arg6 : S128x128.Idx → EReal) (ix2 k j))
        ((((cfg1.win 5).blk t).view.emb (ix2 p q) : S100000x128.Idx) 1)
  refine layerRow_congr (fun k => ?_) (fun k => ?_) (fun k => ?_) (fun k => ?_) (fun k j => ?_) ?_
  · refine blk1_0_apply V c t (ix2 p k) _ ?_ rfl
    show win1_5.index t (0 : Fin 2) * 5000 + 1 * p.val = t.val * 5000 + p.val
    omega
  · exact blk1_1_apply V c t (ix2 (0 : Fin 1) k)
  · exact blk1_2_apply V c t (ix2 (0 : Fin 1) k)
  · exact blk1_3_apply V c t (ix2 (0 : Fin 1) k)
  · exact blk1_4_apply V c t (ix2 k j)
  · apply Fin.ext
    show q.val = win1_5.index t (1 : Fin 2) * 128 + 1 * q.val
    omega

/-- An index of the result array is in point t's block iff each coordinate is in the block's range on its axis. -/
theorem mem_blk1 (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v23).slice (win1_5.rect t)).set ↔ _
  rw [View.set_slice_whole, Rect.mem_set_unit]
  exact Iff.rfl

/-- Row r of the result array is in the block of point r / 5000. -/
theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have ht : (i 0).val / 5000 < cfg1.N := by rw [show cfg1.N = 20 from N_1]; omega
  obtain ⟨-, -, -, -, -, -, -, -, -, -, e0, e1⟩ := idx1 ⟨(i 0).val / 5000, ht⟩
  have e0' : win1_5.index ⟨(i 0).val / 5000, ht⟩ (0 : Fin 2) = (i 0).val / 5000 := e0
  refine ⟨⟨(i 0).val / 5000, ht⟩, flush1_5 _, ?_⟩
  rw [mem_blk1]
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    omega
  | ⟨1, _⟩ =>
    show win1_5.index ⟨(i 0).val / 5000, ht⟩ (1 : Fin 2) * 128 ≤ (i 1).val
      ∧ (i 1).val < win1_5.index ⟨(i 0).val / 5000, ht⟩ (1 : Fin 2) * 128 + 128
    omega

/-- The result array after the region, given the body read at an index. -/
theorem final1_of
    (hbody : ∀ (x0 : Vec Ideal S5000x128 .f32) (x1 x2 x3 : Vec Ideal S1x128 .f32) (x4 : Vec Ideal S128x128 .f32)
      (p : Fin 5000) (q : Fin 128),
      Gen.out1_5 (F := Ideal) x0 x1 x2 x3 x4 (ix2 p q)
        = Cert.Spec.layerRow (fun k : Fin 128 => x0 (ix2 p k)) (fun k => x1 (ix2 (0 : Fin 1) k))
            (fun k => x2 (ix2 (0 : Fin 1) k)) (fun k => x3 (ix2 (0 : Fin 1) k))
            (fun (k : Fin 128) (j : Fin 128) => x4 (ix2 k j)) q)
    (c : Dev nD) :
    (Gen.dat1 (F := Ideal) V c).arrAt 5 cfg1.N = Cert.Spec.layerB (V c main_v19) (V c main_v20) (V c main_v21) (V c main_v22) (V c main_arg6) :=
  (dat1 V c).arrAt_eq_of_cover 5 (Cert.Spec.layerB (V c main_v19) (V c main_v20) (V c main_v21) (V c main_v22) (V c main_arg6))
    (fun t _ => flushed1_eq V hbody c t) cover1

/-- The result array after the region is the hidden layer applied to the arrays the region finds. -/
theorem final1 (c : Dev nD) :
    (Gen.dat1 (F := Ideal) V c).arrAt 5 cfg1.N = Cert.Spec.layerB (V c main_v19) (V c main_v20) (V c main_v21) (V c main_v22) (V c main_arg6) :=
  final1_of V KBody.out1_5_apply c

end Cert.KernelIdeal.KArr

end
-- ==== Proof.KArr2.lean ====
/-
  The second hidden-layer pallas_call, from blocks to the array. Its grid has 20 points; point t holds rows
  5000 t .. 5000 t + 4999 of the node features (128 columns), the whole bias, gain and offset rows and the whole 128 x 128
  weight matrix, and writes back rows 5000 t .. 5000 t + 4999 of the result. Each row of a block's result is the hidden
  layer's action on that row of the features, so what point t writes back is block t of the layer applied to the whole
  arrays; the 20 blocks cover the 100000 rows, hence the array after the region is the layer of the arrays.
-/
import proofs.«118564_j3066606649549_2_alg».proof.Proof.Gen.KernelIdeal.Frame
import proofs.«118564_j3066606649549_2_alg».proof.Proof.Spec
import proofs.«118564_j3066606649549_2_alg».proof.Proof.KArrLib
import proofs.«118564_j3066606649549_2_alg».proof.Proof.KBody1
import Idealize.ShloMosaic.Lib.Pipeline.Value
import Idealize.ShloMosaic.Lib.Tactic

noncomputable section

namespace Cert.KernelIdeal.KArr

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The index maps over the 20 points: the feature window and the output window sit at row block t, column block 0;
    the bias, gain, offset and weight windows at block (0, 0). -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The feature block at point t is rows 5000 t .. 5000 t + 4999 of the feature array. -/
theorem blk2_0_apply (c : Dev nD) (t : Fin cfg2.N) (y : S5000x128.Idx) (i : S100000x128.Idx)
    (h0 : (i 0).val = t.val * 5000 + (y 0).val) (h1 : (i 1).val = (y 1).val) :
    (iblk2 V c 0 t : Vec Ideal S5000x128 .f32) y = (V c main_v42 : S100000x128.Idx → EReal) i := by
  obtain ⟨e0, e1, -, -, -, -, -, -, -, -, -, -⟩ := idx2 t
  unfold iblk2
  rw [View.read_apply]
  show V c main_v42 (((cfg2.win 0).blk t).view.emb y) = V c main_v42 i
  refine congrArg (V c main_v42) ?_
  funext a
  apply Fin.ext
  match a with
  | ⟨0, _⟩ => show win2_0.index t (0 : Fin 2) * 5000 + 1 * (y 0).val = (i 0).val; omega
  | ⟨1, _⟩ => show win2_0.index t (1 : Fin 2) * 128 + 1 * (y 1).val = (i 1).val; omega

/-- The bias block at every point is the bias row. -/
theorem blk2_1_apply (c : Dev nD) (t : Fin cfg2.N) (y : S1x128.Idx) :
    (iblk2 V c 1 t : Vec Ideal S1x128 .f32) y = (V c main_v43 : S1x128.Idx → EReal) y := by
  obtain ⟨-, -, e0, e1, -, -, -, -, -, -, -, -⟩ := idx2 t
  unfold iblk2
  rw [View.read_apply]
  show V c main_v43 (((cfg2.win 1).blk t).view.emb y) = V c main_v43 y
  refine congrArg (V c main_v43) ?_
  funext a
  apply Fin.ext
  match a with
  | ⟨0, _⟩ => show win2_1.index t (0 : Fin 2) * 1 + 1 * (y 0).val = (y 0).val; omega
  | ⟨1, _⟩ => show win2_1.index t (1 : Fin 2) * 128 + 1 * (y 1).val = (y 1).val; omega

/-- The gain block at every point is the gain row. -/
theorem blk2_2_apply (c : Dev nD) (t : Fin cfg2.N) (y : S1x128.Idx) :
    (iblk2 V c 2 t : Vec Ideal S1x128 .f32) y = (V c main_v44 : S1x128.Idx → EReal) y := by
  obtain ⟨-, -, -, -, e0, e1, -, -, -, -, -, -⟩ := idx2 t
  unfold iblk2
  rw [View.read_apply]
  show V c main_v44 (((cfg2.win 2).blk t).view.emb y) = V c main_v44 y
  refine congrArg (V c main_v44) ?_
  funext a
  apply Fin.ext
  match a with
  | ⟨0, _⟩ => show win2_2.index t (0 : Fin 2) * 1 + 1 * (y 0).val = (y 0).val; omega
  | ⟨1, _⟩ => show win2_2.index t (1 : Fin 2) * 128 + 1 * (y 1).val = (y 1).val; omega

/-- The offset block at every point is the offset row. -/
theorem blk2_3_apply (c : Dev nD) (t : Fin cfg2.N) (y : S1x128.Idx) :
    (iblk2 V c 3 t : Vec Ideal S1x128 .f32) y = (V c main_v45 : S1x128.Idx → EReal) y := by
  obtain ⟨-, -, -, -, -, -, e0, e1, -, -, -, -⟩ := idx2 t
  unfold iblk2
  rw [View.read_apply]
  show V c main_v45 (((cfg2.win 3).blk t).view.emb y) = V c main_v45 y
  refine congrArg (V c main_v45) ?_
  funext a
  apply Fin.ext
  match a with
  | ⟨0, _⟩ => show win2_3.index t (0 : Fin 2) * 1 + 1 * (y 0).val = (y 0).val; omega
  | ⟨1, _⟩ => show win2_3.index t (1 : Fin 2) * 128 + 1 * (y 1).val = (y 1).val; omega

/-- The weight block at every point is the weight array. -/
theorem blk2_4_apply (c : Dev nD) (t : Fin cfg2.N) (y : S128x128.Idx) :
    (iblk2 V c 4 t : Vec Ideal S128x128 .f32) y = (V c main_arg8 : S128x128.Idx → EReal) y := by
  obtain ⟨-, -, -, -, -, -, -, -, e0, e1, -, -⟩ := idx2 t
  unfold iblk2
  rw [View.read_apply]
  show V c main_arg8 (((cfg2.win 4).blk t).view.emb y) = V c main_arg8 y
  refine congrArg (V c main_arg8) ?_
  funext a
  apply Fin.ext
  match a with
  | ⟨0, _⟩ => show win2_4.index t (0 : Fin 2) * 128 + 1 * (y 0).val = (y 0).val; omega
  | ⟨1, _⟩ => show win2_4.index t (1 : Fin 2) * 128 + 1 * (y 1).val = (y 1).val; omega

/-- What point t writes back is block t of the layer applied to the whole arrays, given the body read at an index. -/
theorem flushed2_eq
    (hbody : ∀ (x0 : Vec Ideal S5000x128 .f32) (x1 x2 x3 : Vec Ideal S1x128 .f32) (x4 : Vec Ideal S128x128 .f32)
      (p : Fin 5000) (q : Fin 128),
      Gen.out2_5 (F := Ideal) x0 x1 x2 x3 x4 (ix2 p q)
        = Cert.Spec.layerRow (fun k : Fin 128 => x0 (ix2 p k)) (fun k => x1 (ix2 (0 : Fin 1) k))
            (fun k => x2 (ix2 (0 : Fin 1) k)) (fun k => x3 (ix2 (0 : Fin 1) k))
            (fun (k : Fin 128) (j : Fin 128) => x4 (ix2 k j)) q)
    (c : Dev nD) (t : Fin cfg2.N) :
    (dat2 V c).flushed 5 t
      = ((cfg2.win 5).blk t).view.read (Elt Ideal) (Cert.Spec.layerB (V c main_v42) (V c main_v43) (V c main_v44) (V c main_v45) (V c main_arg8)) := by
  show (cfg2.win 5).cut (grid2.coords t) ((dat2 V c).after 5 t) = _
  rw [after2_5]
  obtain ⟨-, -, -, -, -, -, -, -, -, -, e0, e1⟩ := idx2 t
  funext j
  obtain ⟨p, q, rfl⟩ : ∃ (p : Fin 5000) (q : Fin 128), j = ix2 p q := ⟨j 0, j 1, eq_ix2 j⟩
  rw [View.read_apply]
  show out2_5 (iblk2 V c 0 t) (iblk2 V c 1 t) (iblk2 V c 2 t) (iblk2 V c 3 t) (iblk2 V c 4 t) (ix2 p q)
    = Cert.Spec.layerB (V c main_v42) (V c main_v43) (V c main_v44) (V c main_v45) (V c main_arg8) (((cfg2.win 5).blk t).view.emb (ix2 p q))
  refine (hbody _ _ _ _ _ p q).trans ?_
  show Cert.Spec.layerRow _ _ _ _ _ q
    = Cert.Spec.layerRow
        (fun k => (V c main_v42 : S100000x128.Idx → EReal)
          (ix2 ((((cfg2.win 5).blk t).view.emb (ix2 p q) : S100000x128.Idx) 0) k))
        (fun k => (V c main_v43 : S1x128.Idx → EReal) (ix2 (0 : Fin 1) k))
        (fun k => (V c main_v44 : S1x128.Idx → EReal) (ix2 (0 : Fin 1) k))
        (fun k => (V c main_v45 : S1x128.Idx → EReal) (ix2 (0 : Fin 1) k))
        (fun k j => (V c main_arg8 : S128x128.Idx → EReal) (ix2 k j))
        ((((cfg2.win 5).blk t).view.emb (ix2 p q) : S100000x128.Idx) 1)
  refine layerRow_congr (fun k => ?_) (fun k => ?_) (fun k => ?_) (fun k => ?_) (fun k j => ?_) ?_
  · refine blk2_0_apply V c t (ix2 p k) _ ?_ rfl
    show win2_5.index t (0 : Fin 2) * 5000 + 1 * p.val = t.val * 5000 + p.val
    omega
  · exact blk2_1_apply V c t (ix2 (0 : Fin 1) k)
  · exact blk2_2_apply V c t (ix2 (0 : Fin 1) k)
  · exact blk2_3_apply V c t (ix2 (0 : Fin 1) k)
  · exact blk2_4_apply V c t (ix2 k j)
  · apply Fin.ext
    show q.val = win2_5.index t (1 : Fin 2) * 128 + 1 * q.val
    omega

/-- An index of the result array is in point t's block iff each coordinate is in the block's range on its axis. -/
theorem mem_blk2 (t : Fin cfg2.N) (i : S100000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v46).slice (win2_5.rect t)).set ↔ _
  rw [View.set_slice_whole, Rect.mem_set_unit]
  exact Iff.rfl

/-- Row r of the result array is in the block of point r / 5000. -/
theorem cover2 (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have ht : (i 0).val / 5000 < cfg2.N := by rw [show cfg2.N = 20 from N_2]; omega
  obtain ⟨-, -, -, -, -, -, -, -, -, -, e0, e1⟩ := idx2 ⟨(i 0).val / 5000, ht⟩
  have e0' : win2_5.index ⟨(i 0).val / 5000, ht⟩ (0 : Fin 2) = (i 0).val / 5000 := e0
  refine ⟨⟨(i 0).val / 5000, ht⟩, flush2_5 _, ?_⟩
  rw [mem_blk2]
  intro a
  match a with
  | ⟨0, _⟩ =>
    show win2_5.index ⟨(i 0).val / 5000, ht⟩ (0 : Fin 2) * 5000 ≤ (i 0).val
      ∧ (i 0).val < win2_5.index ⟨(i 0).val / 5000, ht⟩ (0 : Fin 2) * 5000 + 5000
    omega
  | ⟨1, _⟩ =>
    show win2_5.index ⟨(i 0).val / 5000, ht⟩ (1 : Fin 2) * 128 ≤ (i 1).val
      ∧ (i 1).val < win2_5.index ⟨(i 0).val / 5000, ht⟩ (1 : Fin 2) * 128 + 128
    omega

/-- The result array after the region, given the body read at an index. -/
theorem final2_of
    (hbody : ∀ (x0 : Vec Ideal S5000x128 .f32) (x1 x2 x3 : Vec Ideal S1x128 .f32) (x4 : Vec Ideal S128x128 .f32)
      (p : Fin 5000) (q : Fin 128),
      Gen.out2_5 (F := Ideal) x0 x1 x2 x3 x4 (ix2 p q)
        = Cert.Spec.layerRow (fun k : Fin 128 => x0 (ix2 p k)) (fun k => x1 (ix2 (0 : Fin 1) k))
            (fun k => x2 (ix2 (0 : Fin 1) k)) (fun k => x3 (ix2 (0 : Fin 1) k))
            (fun (k : Fin 128) (j : Fin 128) => x4 (ix2 k j)) q)
    (c : Dev nD) :
    (Gen.dat2 (F := Ideal) V c).arrAt 5 cfg2.N = Cert.Spec.layerB (V c main_v42) (V c main_v43) (V c main_v44) (V c main_v45) (V c main_arg8) :=
  (dat2 V c).arrAt_eq_of_cover 5 (Cert.Spec.layerB (V c main_v42) (V c main_v43) (V c main_v44) (V c main_v45) (V c main_arg8))
    (fun t _ => flushed2_eq V hbody c t) cover2

/-- The result array after the region is the hidden layer applied to the arrays the region finds. -/
theorem final2 (c : Dev nD) :
    (Gen.dat2 (F := Ideal) V c).arrAt 5 cfg2.N = Cert.Spec.layerB (V c main_v42) (V c main_v43) (V c main_v44) (V c main_v45) (V c main_arg8) :=
  final2_of V KBody.out2_5_apply c

end Cert.KernelIdeal.KArr

end
-- ==== Proof.KBody3.lean ====
/-
  The output kernel's body at an index.

  The body normalises and clamps its block as the hidden layers do, multiplies by the 128 × 41 weight block, adds the
  output bias, and takes the log-softmax of every row: subtract the row's maximum, then subtract the logarithm of the
  row sum of the exponentials of the shifted scores. At `(p, q)` the stored value is the output head's action on row
  `p` of the block, read at `q`.
-/
import proofs.«118564_j3066606649549_2_alg».proof.Proof.Gen.KernelIdeal.Frame
import proofs.«118564_j3066606649549_2_alg».proof.Proof.Spec
import proofs.«118564_j3066606649549_2_alg».proof.Proof.LibPlainDot
import proofs.«118564_j3066606649549_2_alg».proof.Proof.KBlockLib

noncomputable section

namespace Cert.KernelIdeal.KBody

open Idealize.ShloMosaic Idealize.ShloMosaic.ValueIdx Cert.KernelIdeal
open scoped BigOperators

/-- The scores of the block before the softmax, at `(p, j)`: the layer's action on row `p` plus the output bias. -/
theorem scores_apply (x0 : Vec Ideal S5000x128 .f32) (x1 x2 x3 : Vec Ideal S1x128 .f32) (x4 : Vec Ideal S128x41 .f32)
    (x5 : Vec Ideal S1x41 .f32) (p : Fin 5000) (j : Fin 41) :
    Gen.k3_pay2 (F := Ideal) x0 x1 x2 x3 x4 x5 (ix2 p j)
      = Cert.Spec.layerRow (fun k : Fin 128 => x0 (ix2 p k)) (fun k => x1 (ix2 (0 : Fin 1) k))
          (fun k => x2 (ix2 (0 : Fin 1) k)) (fun k => x3 (ix2 (0 : Fin 1) k))
          (fun (k : Fin 128) (j : Fin 41) => x4 (ix2 k j)) j + x5 (ix2 (0 : Fin 1) j) := by
  show matmul (Cert.Lib.PlainDot.dims Facts₀.dot_S5000x128_S128x41_S5000x41_1_0_0_1_n_n_wf) (some .fp32)
      (KBlock.normClamp Facts₀.shapeCasts_S5000x128_S5000x128 Facts₀.shapeCasts_S1x128_S1x128
      Facts₀.broadcasts_S1x128_S5000x128 Facts₀.reduces_S5000x128_S5000 Facts₀.shapeCasts_S5000_S5000x1
      Facts₀.broadcasts_S5000x1_S5000x128 x0 x1 x2 x3) x4
      (constant (F := Ideal) S5000x41 .f32 0x00000000#32) (ix2 p j)
    + broadcastTo S5000x41 (shapeCast S1x41 x5 Facts₀.shapeCasts_S1x41_S1x41) Facts₀.broadcasts_S1x41_S5000x41
      (ix2 p j) = _
  rw [Cert.Lib.Rows.bcastRow_apply, shapeCast_self, KBlock.layer_apply]

theorem out3_6_apply (x0 : Vec Ideal S5000x128 .f32) (x1 x2 x3 : Vec Ideal S1x128 .f32) (x4 : Vec Ideal S128x41 .f32)
    (x5 : Vec Ideal S1x41 .f32) (p : Fin 5000) (q : Fin 41) :
    Gen.out3_6 (F := Ideal) x0 x1 x2 x3 x4 x5 (ix2 p q)
      = Cert.Spec.headRow (fun k : Fin 128 => x0 (ix2 p k)) (fun k => x1 (ix2 (0 : Fin 1) k))
          (fun k => x2 (ix2 (0 : Fin 1) k)) (fun k => x3 (ix2 (0 : Fin 1) k))
          (fun (k : Fin 128) (j : Fin 41) => x4 (ix2 k j)) (fun j => x5 (ix2 (0 : Fin 1) j)) q := by
  unfold Gen.out3_6
  rw [View.canon_unit_zero KBlock.zero_offsets]
  simp only [View.ld_unit_zero (S := S5000x128) KBlock.zero_offsets,
    View.ld_unit_zero (S := S1x128) KBlock.zero_offsets, View.ld_unit_zero (S := S128x41) KBlock.zero_offsets,
    View.ld_unit_zero (S := S1x41) KBlock.zero_offsets]
  refine (KBlock.logSoftmax_apply Facts₀.reduces_S5000x41_S5000 Facts₀.shapeCasts_S5000_S5000x1
    Facts₀.broadcasts_S5000x1_S5000x41 (.inl rfl) rfl (Gen.k3_pay2 (F := Ideal) x0 x1 x2 x3 x4 x5) p q).trans ?_
  exact congrArg (fun z => Cert.Spec.logSoftmaxRow z q) (funext fun j => scores_apply x0 x1 x2 x3 x4 x5 p j)

end Cert.KernelIdeal.KBody

end
-- ==== Proof.KArr3.lean ====
/-
  The output pallas_call, from blocks to the array. Its grid has 20 points; point t holds rows 5000 t .. 5000 t + 4999
  of the node features (128 columns), the whole bias, gain and offset rows, the whole 128 x 41 weight matrix and the
  whole output-bias row, and writes back rows 5000 t .. 5000 t + 4999 of the 41 log-probabilities. Each row of a block's
  result is the output head's action on that row of the features, so what point t writes back is block t of the head
  applied to the whole arrays; the 20 blocks cover the 100000 rows, hence the array after the region is the head of
  the arrays.
-/
import proofs.«118564_j3066606649549_2_alg».proof.Proof.Gen.KernelIdeal.Frame
import proofs.«118564_j3066606649549_2_alg».proof.Proof.Spec
import proofs.«118564_j3066606649549_2_alg».proof.Proof.KArrLib
import proofs.«118564_j3066606649549_2_alg».proof.Proof.KBody3
import Idealize.ShloMosaic.Lib.Pipeline.Value
import Idealize.ShloMosaic.Lib.Tactic

noncomputable section

namespace Cert.KernelIdeal.KArr

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The index maps over the 20 points: the feature window and the output window sit at row block t, column block 0;
    the bias, gain, offset, weight and output-bias windows at block (0, 0). -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- The feature block at point t is rows 5000 t .. 5000 t + 4999 of the feature array. -/
theorem blk3_0_apply (c : Dev nD) (t : Fin cfg3.N) (y : S5000x128.Idx) (i : S100000x128.Idx)
    (h0 : (i 0).val = t.val * 5000 + (y 0).val) (h1 : (i 1).val = (y 1).val) :
    (iblk3 V c 0 t : Vec Ideal S5000x128 .f32) y = (V c main_v65 : S100000x128.Idx → EReal) i := by
  obtain ⟨e0, e1, -, -, -, -, -, -, -, -, -, -, -, -⟩ := idx3 t
  unfold iblk3
  rw [View.read_apply]
  show V c main_v65 (((cfg3.win 0).blk t).view.emb y) = V c main_v65 i
  refine congrArg (V c main_v65) ?_
  funext a
  apply Fin.ext
  match a with
  | ⟨0, _⟩ => show win3_0.index t (0 : Fin 2) * 5000 + 1 * (y 0).val = (i 0).val; omega
  | ⟨1, _⟩ => show win3_0.index t (1 : Fin 2) * 128 + 1 * (y 1).val = (i 1).val; omega

/-- The bias block at every point is the bias row. -/
theorem blk3_1_apply (c : Dev nD) (t : Fin cfg3.N) (y : S1x128.Idx) :
    (iblk3 V c 1 t : Vec Ideal S1x128 .f32) y = (V c main_v66 : S1x128.Idx → EReal) y := by
  obtain ⟨-, -, e0, e1, -, -, -, -, -, -, -, -, -, -⟩ := idx3 t
  unfold iblk3
  rw [View.read_apply]
  show V c main_v66 (((cfg3.win 1).blk t).view.emb y) = V c main_v66 y
  refine congrArg (V c main_v66) ?_
  funext a
  apply Fin.ext
  match a with
  | ⟨0, _⟩ => show win3_1.index t (0 : Fin 2) * 1 + 1 * (y 0).val = (y 0).val; omega
  | ⟨1, _⟩ => show win3_1.index t (1 : Fin 2) * 128 + 1 * (y 1).val = (y 1).val; omega

/-- The gain block at every point is the gain row. -/
theorem blk3_2_apply (c : Dev nD) (t : Fin cfg3.N) (y : S1x128.Idx) :
    (iblk3 V c 2 t : Vec Ideal S1x128 .f32) y = (V c main_v67 : S1x128.Idx → EReal) y := by
  obtain ⟨-, -, -, -, e0, e1, -, -, -, -, -, -, -, -⟩ := idx3 t
  unfold iblk3
  rw [View.read_apply]
  show V c main_v67 (((cfg3.win 2).blk t).view.emb y) = V c main_v67 y
  refine congrArg (V c main_v67) ?_
  funext a
  apply Fin.ext
  match a with
  | ⟨0, _⟩ => show win3_2.index t (0 : Fin 2) * 1 + 1 * (y 0).val = (y 0).val; omega
  | ⟨1, _⟩ => show win3_2.index t (1 : Fin 2) * 128 + 1 * (y 1).val = (y 1).val; omega

/-- The offset block at every point is the offset row. -/
theorem blk3_3_apply (c : Dev nD) (t : Fin cfg3.N) (y : S1x128.Idx) :
    (iblk3 V c 3 t : Vec Ideal S1x128 .f32) y = (V c main_v68 : S1x128.Idx → EReal) y := by
  obtain ⟨-, -, -, -, -, -, e0, e1, -, -, -, -, -, -⟩ := idx3 t
  unfold iblk3
  rw [View.read_apply]
  show V c main_v68 (((cfg3.win 3).blk t).view.emb y) = V c main_v68 y
  refine congrArg (V c main_v68) ?_
  funext a
  apply Fin.ext
  match a with
  | ⟨0, _⟩ => show win3_3.index t (0 : Fin 2) * 1 + 1 * (y 0).val = (y 0).val; omega
  | ⟨1, _⟩ => show win3_3.index t (1 : Fin 2) * 128 + 1 * (y 1).val = (y 1).val; omega

/-- The weight block at every point is the weight array. -/
theorem blk3_4_apply (c : Dev nD) (t : Fin cfg3.N) (y : S128x41.Idx) :
    (iblk3 V c 4 t : Vec Ideal S128x41 .f32) y = (V c main_arg12 : S128x41.Idx → EReal) y := by
  obtain ⟨-, -, -, -, -, -, -, -, e0, e1, -, -, -, -⟩ := idx3 t
  unfold iblk3
  rw [View.read_apply]
  show V c main_arg12 (((cfg3.win 4).blk t).view.emb y) = V c main_arg12 y
  refine congrArg (V c main_arg12) ?_
  funext a
  apply Fin.ext
  match a with
  | ⟨0, _⟩ => show win3_4.index t (0 : Fin 2) * 128 + 1 * (y 0).val = (y 0).val; omega
  | ⟨1, _⟩ => show win3_4.index t (1 : Fin 2) * 41 + 1 * (y 1).val = (y 1).val; omega

/-- The output-bias block at every point is the output-bias row. -/
theorem blk3_5_apply (c : Dev nD) (t : Fin cfg3.N) (y : S1x41.Idx) :
    (iblk3 V c 5 t : Vec Ideal S1x41 .f32) y = (V c main_v69 : S1x41.Idx → EReal) y := by
  obtain ⟨-, -, -, -, -, -, -, -, -, -, e0, e1, -, -⟩ := idx3 t
  unfold iblk3
  rw [View.read_apply]
  show V c main_v69 (((cfg3.win 5).blk t).view.emb y) = V c main_v69 y
  refine congrArg (V c main_v69) ?_
  funext a
  apply Fin.ext
  match a with
  | ⟨0, _⟩ => show win3_5.index t (0 : Fin 2) * 1 + 1 * (y 0).val = (y 0).val; omega
  | ⟨1, _⟩ => show win3_5.index t (1 : Fin 2) * 41 + 1 * (y 1).val = (y 1).val; omega

/-- What point t writes back is block t of the head applied to the whole arrays, given the body read at an index. -/
theorem flushed3_eq
    (hbody : ∀ (x0 : Vec Ideal S5000x128 .f32) (x1 x2 x3 : Vec Ideal S1x128 .f32) (x4 : Vec Ideal S128x41 .f32)
      (x5 : Vec Ideal S1x41 .f32) (p : Fin 5000) (q : Fin 41),
      Gen.out3_6 (F := Ideal) x0 x1 x2 x3 x4 x5 (ix2 p q)
        = Cert.Spec.headRow (fun k : Fin 128 => x0 (ix2 p k)) (fun k => x1 (ix2 (0 : Fin 1) k))
            (fun k => x2 (ix2 (0 : Fin 1) k)) (fun k => x3 (ix2 (0 : Fin 1) k))
            (fun (k : Fin 128) (j : Fin 41) => x4 (ix2 k j)) (fun j => x5 (ix2 (0 : Fin 1) j)) q)
    (c : Dev nD) (t : Fin cfg3.N) :
    (dat3 V c).flushed 6 t
      = ((cfg3.win 6).blk t).view.read (Elt Ideal) (Cert.Spec.headB (V c main_v65) (V c main_v66) (V c main_v67) (V c main_v68) (V c main_arg12) (V c main_v69)) := by
  show (cfg3.win 6).cut (grid3.coords t) ((dat3 V c).after 6 t) = _
  rw [after3_6]
  obtain ⟨-, -, -, -, -, -, -, -, -, -, -, -, e0, e1⟩ := idx3 t
  funext j
  obtain ⟨p, q, rfl⟩ : ∃ (p : Fin 5000) (q : Fin 41), j = ix2 p q := ⟨j 0, j 1, eq_ix2 j⟩
  rw [View.read_apply]
  show out3_6 (iblk3 V c 0 t) (iblk3 V c 1 t) (iblk3 V c 2 t) (iblk3 V c 3 t) (iblk3 V c 4 t) (iblk3 V c 5 t) (ix2 p q)
    = Cert.Spec.headB (V c main_v65) (V c main_v66) (V c main_v67) (V c main_v68) (V c main_arg12) (V c main_v69) (((cfg3.win 6).blk t).view.emb (ix2 p q))
  refine (hbody _ _ _ _ _ _ p q).trans ?_
  show Cert.Spec.headRow _ _ _ _ _ _ q
    = Cert.Spec.headRow
        (fun k => (V c main_v65 : S100000x128.Idx → EReal)
          (ix2 ((((cfg3.win 6).blk t).view.emb (ix2 p q) : S100000x41.Idx) 0) k))
        (fun k => (V c main_v66 : S1x128.Idx → EReal) (ix2 (0 : Fin 1) k))
        (fun k => (V c main_v67 : S1x128.Idx → EReal) (ix2 (0 : Fin 1) k))
        (fun k => (V c main_v68 : S1x128.Idx → EReal) (ix2 (0 : Fin 1) k))
        (fun k j => (V c main_arg12 : S128x41.Idx → EReal) (ix2 k j))
        (fun j => (V c main_v69 : S1x41.Idx → EReal) (ix2 (0 : Fin 1) j))
        ((((cfg3.win 6).blk t).view.emb (ix2 p q) : S100000x41.Idx) 1)
  refine headRow_congr (fun k => ?_) (fun k => ?_) (fun k => ?_) (fun k => ?_) (fun k j => ?_) (fun j => ?_) ?_
  · refine blk3_0_apply V c t (ix2 p k) _ ?_ rfl
    show win3_6.index t (0 : Fin 2) * 5000 + 1 * p.val = t.val * 5000 + p.val
    omega
  · exact blk3_1_apply V c t (ix2 (0 : Fin 1) k)
  · exact blk3_2_apply V c t (ix2 (0 : Fin 1) k)
  · exact blk3_3_apply V c t (ix2 (0 : Fin 1) k)
  · exact blk3_4_apply V c t (ix2 k j)
  · exact blk3_5_apply V c t (ix2 (0 : Fin 1) j)
  · apply Fin.ext
    show q.val = win3_6.index t (1 : Fin 2) * 41 + 1 * q.val
    omega

/-- An index of the result array is in point t's block iff each coordinate is in the block's range on its axis. -/
theorem mem_blk3 (t : Fin cfg3.N) (i : S100000x41.Idx) :
    i ∈ ((cfg3.win 6).blk t).view.set ↔ ∀ a : Fin 2, win3_6.index t a * S5000x41.size a ≤ (i a).val
      ∧ (i a).val < win3_6.index t a * S5000x41.size a + S5000x41.size a := by
  show i ∈ ((View.whole main_v70).slice (win3_6.rect t)).set ↔ _
  rw [View.set_slice_whole, Rect.mem_set_unit]
  exact Iff.rfl

/-- Row r of the result array is in the block of point r / 5000. -/
theorem cover3 (i : S100000x41.Idx) :
    ∃ t : Fin cfg3.N, (cfg3.win 6).flush t = true ∧ i ∈ ((cfg3.win 6).blk t).view.set := by
  have hi0 : (i 0).val < 100000 := (i 0).isLt
  have hi1 : (i 1).val < 41 := (i 1).isLt
  have ht : (i 0).val / 5000 < cfg3.N := by rw [show cfg3.N = 20 from N_3]; omega
  obtain ⟨-, -, -, -, -, -, -, -, -, -, -, -, e0, e1⟩ := idx3 ⟨(i 0).val / 5000, ht⟩
  have e0' : win3_6.index ⟨(i 0).val / 5000, ht⟩ (0 : Fin 2) = (i 0).val / 5000 := e0
  refine ⟨⟨(i 0).val / 5000, ht⟩, flush3_6 _, ?_⟩
  rw [mem_blk3]
  intro a
  match a with
  | ⟨0, _⟩ =>
    show win3_6.index ⟨(i 0).val / 5000, ht⟩ (0 : Fin 2) * 5000 ≤ (i 0).val
      ∧ (i 0).val < win3_6.index ⟨(i 0).val / 5000, ht⟩ (0 : Fin 2) * 5000 + 5000
    omega
  | ⟨1, _⟩ =>
    show win3_6.index ⟨(i 0).val / 5000, ht⟩ (1 : Fin 2) * 41 ≤ (i 1).val
      ∧ (i 1).val < win3_6.index ⟨(i 0).val / 5000, ht⟩ (1 : Fin 2) * 41 + 41
    omega

/-- The result array after the region, given the body read at an index. -/
theorem final3_of
    (hbody : ∀ (x0 : Vec Ideal S5000x128 .f32) (x1 x2 x3 : Vec Ideal S1x128 .f32) (x4 : Vec Ideal S128x41 .f32)
      (x5 : Vec Ideal S1x41 .f32) (p : Fin 5000) (q : Fin 41),
      Gen.out3_6 (F := Ideal) x0 x1 x2 x3 x4 x5 (ix2 p q)
        = Cert.Spec.headRow (fun k : Fin 128 => x0 (ix2 p k)) (fun k => x1 (ix2 (0 : Fin 1) k))
            (fun k => x2 (ix2 (0 : Fin 1) k)) (fun k => x3 (ix2 (0 : Fin 1) k))
            (fun (k : Fin 128) (j : Fin 41) => x4 (ix2 k j)) (fun j => x5 (ix2 (0 : Fin 1) j)) q)
    (c : Dev nD) :
    (Gen.dat3 (F := Ideal) V c).arrAt 6 cfg3.N = Cert.Spec.headB (V c main_v65) (V c main_v66) (V c main_v67) (V c main_v68) (V c main_arg12) (V c main_v69) :=
  (dat3 V c).arrAt_eq_of_cover 6 (Cert.Spec.headB (V c main_v65) (V c main_v66) (V c main_v67) (V c main_v68) (V c main_arg12) (V c main_v69))
    (fun t _ => flushed3_eq V hbody c t) cover3

/-- The result array after the region is the output head applied to the arrays the region finds. -/
theorem final3 (c : Dev nD) :
    (Gen.dat3 (F := Ideal) V c).arrAt 6 cfg3.N = Cert.Spec.headB (V c main_v65) (V c main_v66) (V c main_v67) (V c main_v68) (V c main_arg12) (V c main_v69) :=
  final3_of V KBody.out3_6_apply c

end Cert.KernelIdeal.KArr

end
-- ==== Proof.LibMergeRows.lean ====
/-
  Two leading axes merged into one, and split again, read at an index.

  An a × b × c array reshaped to r × c with r = a · b keeps its row-major order, so row (p, q) of the a × b grid of
  length-c rows becomes flat row b · p + q: the reshaped array at (b · p + q, k) is the array at (p, q, k), and an
  r × c array reshaped to a × b × c reads, at (p, q, k), the flat array at (b · p + q, k). For any element type and any
  extents; the number of flat rows is a separate variable with the equation r = a · b as a hypothesis, so that a
  literal such as 65536 need not be spelt as a product.
-/
import Idealize.ShloMosaic.Lib.Pipeline.Value
import Idealize.ShloMosaic.Lib.ValueIdx

noncomputable section

namespace Cert.Lib.MergeRows

open Idealize.ShloMosaic Idealize.ShloMosaic.ValueIdx

variable {a b c r : Nat}

/-- Flat row b · p + q of the r = a · b rows. -/
abbrev flatRow (hr : r = a * b) (p : Fin a) (q : Fin b) : Fin r :=
  ⟨p.val * b + q.val, by
    have hp := p.isLt
    have hq := q.isLt
    have h1 : p.val * b + b ≤ a * b := by
      have := Nat.mul_le_mul_right b (Nat.succ_le_of_lt hp)
      rwa [Nat.succ_mul] at this
    omega⟩

/-- The merged array at (b · p + q, k) is the array at (p, q, k). -/
theorem merge_apply {α : Type} (hr : r = a * b) (x : (⟨3, ![a, b, c]⟩ : Shape).Idx → α)
    (h : (⟨3, ![a, b, c]⟩ : Shape).ShapeCasts ⟨2, ![r, c]⟩) (p : Fin a) (q : Fin b) (k : Fin c) :
    shapeCast ⟨2, ![r, c]⟩ x h (ix2 (flatRow hr p q) k) = x (ix3 p q k) :=
  shapeCast_apply x h _ _ (by
    rw [Shape.rowMajor_val_two, Shape.rowMajor_val_three]
    rfl)

/-- The split array at (p, q, k) is the flat array at (b · p + q, k). -/
theorem split_apply {α : Type} (hr : r = a * b) (y : (⟨2, ![r, c]⟩ : Shape).Idx → α)
    (h : (⟨2, ![r, c]⟩ : Shape).ShapeCasts ⟨3, ![a, b, c]⟩) (p : Fin a) (q : Fin b) (k : Fin c) :
    shapeCast ⟨3, ![a, b, c]⟩ y h (ix3 p q k) = y (ix2 (flatRow hr p q) k) :=
  shapeCast_apply y h _ _ (by
    rw [Shape.rowMajor_val_two, Shape.rowMajor_val_three]
    rfl)

/-- A length-b vector reshaped to a 1 × b row reads, at (0, q), the vector at q. -/
theorem row_apply {α : Type} (v : (⟨1, ![b]⟩ : Shape).Idx → α)
    (h : (⟨1, ![b]⟩ : Shape).ShapeCasts ⟨2, ![1, b]⟩) (q : Fin b) :
    shapeCast ⟨2, ![1, b]⟩ v h (ix2 (0 : Fin 1) q) = v (ix1 q) :=
  shapeCast_apply v h _ _ (by
    rw [Shape.rowMajor_val_two, Shape.rowMajor_val_one]
    show q.val = 0 * b + q.val
    omega)

/-- Entry (k, o) of the transpose of an a × b matrix is entry (o, k) of the matrix. -/
theorem transpose_apply {α : Type} (L : (⟨2, ![a, b]⟩ : Shape).Idx → α)
    (h : (⟨2, ![a, b]⟩ : Shape).Transposes [1, 0] ⟨2, ![b, a]⟩) (k : Fin b) (o : Fin a) :
    transpose ⟨2, ![b, a]⟩ [1, 0] L h (ix2 k o) = L (ix2 o k) :=
  Idealize.ShloMosaic.transpose_apply [1, 0] L h (ix2 k o) (ix2 o k) fun ax => by
    match ax with
    | ⟨0, _⟩ => rfl
    | ⟨1, _⟩ => rfl

end Cert.Lib.MergeRows

end
-- ==== Proof.SpecCast.lean ====
/-
  A layer whose bias, gain and offset arrive as one-row arrays recast from vectors.

  A vector of length b recast as a 1 × b array holds, at (0, q), the vector's entry q. So a hidden layer, or the output
  head, given its vectors in that form is the layer given the vectors themselves.
-/
import proofs.«118564_j3066606649549_2_alg».proof.Proof.Spec
import proofs.«118564_j3066606649549_2_alg».proof.Proof.LibMergeRows

noncomputable section

namespace Cert.Spec

open Idealize.ShloMosaic Idealize.ShloMosaic.ValueIdx

variable {a b : Nat}

/-- A hidden layer over recast vectors is the layer over the vectors. -/
theorem layerB_cast (H : Arr a 128) (bias g bb : Vec1 128) (W : Arr 128 b)
    (hc : (⟨1, ![128]⟩ : Shape).ShapeCasts ⟨2, ![1, 128]⟩) :
    layerB H (shapeCast ⟨2, ![1, 128]⟩ bias hc) (shapeCast ⟨2, ![1, 128]⟩ g hc) (shapeCast ⟨2, ![1, 128]⟩ bb hc) W
      = layer H bias g bb W := by
  funext i
  unfold layerB layer
  simp only [Cert.Lib.MergeRows.row_apply]

/-- The output head over recast vectors is the head over the vectors. -/
theorem headB_cast (H : Arr a 128) (bias g bb : Vec1 128) (W : Arr 128 41) (bout : Vec1 41)
    (hc : (⟨1, ![128]⟩ : Shape).ShapeCasts ⟨2, ![1, 128]⟩) (hc' : (⟨1, ![41]⟩ : Shape).ShapeCasts ⟨2, ![1, 41]⟩) :
    headB H (shapeCast ⟨2, ![1, 128]⟩ bias hc) (shapeCast ⟨2, ![1, 128]⟩ g hc) (shapeCast ⟨2, ![1, 128]⟩ bb hc) W
        (shapeCast ⟨2, ![1, 41]⟩ bout hc')
      = head H bias g bb W bout := by
  funext i
  unfold headB head
  simp only [Cert.Lib.MergeRows.row_apply]

end Cert.Spec

end
-- ==== Proof.KChain.lean ====
/-
  The idealized kernel's result as the network's function of the argument arrays.

  Boundary by boundary: the first region leaves the product of the features with the first weight matrix; each host
  stretch applies a sparse product to the previous region's output and recasts the layer's vectors as one-row arrays;
  each of the next two regions applies a hidden layer row by row; the last region applies the output head. Every
  argument array a stretch or a window reads still holds what the launch memory held. Composed, the result buffer
  holds the whole network's value.
-/
import proofs.«118564_j3066606649549_2_alg».proof.Proof.KRun
import proofs.«118564_j3066606649549_2_alg».proof.Proof.KArgs
import proofs.«118564_j3066606649549_2_alg».proof.Proof.KHost1
import proofs.«118564_j3066606649549_2_alg».proof.Proof.KHost2
import proofs.«118564_j3066606649549_2_alg».proof.Proof.KHost3
import proofs.«118564_j3066606649549_2_alg».proof.Proof.KArr0
import proofs.«118564_j3066606649549_2_alg».proof.Proof.KArr1
import proofs.«118564_j3066606649549_2_alg».proof.Proof.KArr2
import proofs.«118564_j3066606649549_2_alg».proof.Proof.KArr3
import proofs.«118564_j3066606649549_2_alg».proof.Proof.SpecCast

set_option maxRecDepth 16384

noncomputable section

namespace Cert.KernelIdeal.KValue

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-- After the first region: the features times the first weight matrix. -/
theorem at_v0 : (W1 m ρ c (Proc.devRef .tc main_v0)) = (Cert.Spec.mm (m ((c : Thread nD τ).loc main_arg0)) (m ((c : Thread nD τ).loc main_arg4))) :=
  (W1_arr m ρ c 2).trans (Cert.KernelIdeal.KArr.final0 (V0 m ρ) c)

/-- After the first host stretch: the first sparse product of it. -/
theorem at_v19 : (W2 m ρ c (Proc.devRef .tc main_v19)) = (spmm0 (m ((c : Thread nD τ).loc main_arg1)) (m ((c : Thread nD τ).loc main_arg2)) (m ((c : Thread nD τ).loc main_arg3)) (Cert.Spec.mm (m ((c : Thread nD τ).loc main_arg0)) (m ((c : Thread nD τ).loc main_arg4)))) := by
  rw [W2_v19, W1_arg1, W1_arg2, W1_arg3, at_v0]

/-- After the second region: the first hidden layer. -/
theorem at_v23 : (W3 m ρ c (Proc.devRef .tc main_v23)) = (Cert.Spec.layer (spmm0 (m ((c : Thread nD τ).loc main_arg1)) (m ((c : Thread nD τ).loc main_arg2)) (m ((c : Thread nD τ).loc main_arg3)) (Cert.Spec.mm (m ((c : Thread nD τ).loc main_arg0)) (m ((c : Thread nD τ).loc main_arg4)))) (m ((c : Thread nD τ).loc main_arg5)) (m ((c : Thread nD τ).loc main_arg10)) (m ((c : Thread nD τ).loc main_arg11)) (m ((c : Thread nD τ).loc main_arg6))) := by
  refine (W3_arr m ρ c 5).trans ((Cert.KernelIdeal.KArr.final1 (V2 m ρ) c).trans ?_)
  show Cert.Spec.layerB (W2 m ρ c (Proc.devRef .tc main_v19)) (W2 m ρ c (Proc.devRef .tc main_v20)) (W2 m ρ c (Proc.devRef .tc main_v21)) (W2 m ρ c (Proc.devRef .tc main_v22)) (W2 m ρ c (Proc.devRef .tc main_arg6)) = _
  rw [at_v19, W2_v20, W2_v21, W2_v22, W2_arg6, W1_arg5, W1_arg10, W1_arg11]
  exact Cert.Spec.layerB_cast _ _ _ _ _ _

/-- After the second host stretch: the second sparse product. -/
theorem at_v42 : (W4 m ρ c (Proc.devRef .tc main_v42)) = (spmm1 (m ((c : Thread nD τ).loc main_arg1)) (m ((c : Thread nD τ).loc main_arg2)) (m ((c : Thread nD τ).loc main_arg3)) (Cert.Spec.layer (spmm0 (m ((c : Thread nD τ).loc main_arg1)) (m ((c : Thread nD τ).loc main_arg2)) (m ((c : Thread nD τ).loc main_arg3)) (Cert.Spec.mm (m ((c : Thread nD τ).loc main_arg0)) (m ((c : Thread nD τ).loc main_arg4)))) (m ((c : Thread nD τ).loc main_arg5)) (m ((c : Thread nD τ).loc main_arg10)) (m ((c : Thread nD τ).loc main_arg11)) (m ((c : Thread nD τ).loc main_arg6)))) := by
  rw [W4_v42, W3_arg1, W3_arg2, W3_arg3, at_v23]

/-- After the third region: the second hidden layer. -/
theorem at_v46 : (W5 m ρ c (Proc.devRef .tc main_v46)) = (Cert.Spec.layer (spmm1 (m ((c : Thread nD τ).loc main_arg1)) (m ((c : Thread nD τ).loc main_arg2)) (m ((c : Thread nD τ).loc main_arg3)) (Cert.Spec.layer (spmm0 (m ((c : Thread nD τ).loc main_arg1)) (m ((c : Thread nD τ).loc main_arg2)) (m ((c : Thread nD τ).loc main_arg3)) (Cert.Spec.mm (m ((c : Thread nD τ).loc main_arg0)) (m ((c : Thread nD τ).loc main_arg4)))) (m ((c : Thread nD τ).loc main_arg5)) (m ((c : Thread nD τ).loc main_arg10)) (m ((c : Thread nD τ).loc main_arg11)) (m ((c : Thread nD τ).loc main_arg6)))) (m ((c : Thread nD τ).loc main_arg7)) (m ((c : Thread nD τ).loc main_arg10)) (m ((c : Thread nD τ).loc main_arg11)) (m ((c : Thread nD τ).loc main_arg8))) := by
  refine (W5_arr m ρ c 5).trans ((Cert.KernelIdeal.KArr.final2 (V4 m ρ) c).trans ?_)
  show Cert.Spec.layerB (W4 m ρ c (Proc.devRef .tc main_v42)) (W4 m ρ c (Proc.devRef .tc main_v43)) (W4 m ρ c (Proc.devRef .tc main_v44)) (W4 m ρ c (Proc.devRef .tc main_v45)) (W4 m ρ c (Proc.devRef .tc main_arg8)) = _
  rw [at_v42, W4_v43, W4_v44, W4_v45, W4_arg8, W3_arg7, W3_arg10, W3_arg11]
  exact Cert.Spec.layerB_cast _ _ _ _ _ _

/-- After the third host stretch: the third sparse product. -/
theorem at_v65 : (W6 m ρ c (Proc.devRef .tc main_v65)) = (spmm2 (m ((c : Thread nD τ).loc main_arg1)) (m ((c : Thread nD τ).loc main_arg2)) (m ((c : Thread nD τ).loc main_arg3)) (Cert.Spec.layer (spmm1 (m ((c : Thread nD τ).loc main_arg1)) (m ((c : Thread nD τ).loc main_arg2)) (m ((c : Thread nD τ).loc main_arg3)) (Cert.Spec.layer (spmm0 (m ((c : Thread nD τ).loc main_arg1)) (m ((c : Thread nD τ).loc main_arg2)) (m ((c : Thread nD τ).loc main_arg3)) (Cert.Spec.mm (m ((c : Thread nD τ).loc main_arg0)) (m ((c : Thread nD τ).loc main_arg4)))) (m ((c : Thread nD τ).loc main_arg5)) (m ((c : Thread nD τ).loc main_arg10)) (m ((c : Thread nD τ).loc main_arg11)) (m ((c : Thread nD τ).loc main_arg6)))) (m ((c : Thread nD τ).loc main_arg7)) (m ((c : Thread nD τ).loc main_arg10)) (m ((c : Thread nD τ).loc main_arg11)) (m ((c : Thread nD τ).loc main_arg8)))) := by
  rw [W6_v65, W5_arg1, W5_arg2, W5_arg3, at_v46]

/-- After the last region: the output head; this is the whole network. -/
theorem at_v70 : (W7 m ρ c (Proc.devRef .tc main_v70))
    = Cert.Spec.net (spmm0 (m ((c : Thread nD τ).loc main_arg1)) (m ((c : Thread nD τ).loc main_arg2)) (m ((c : Thread nD τ).loc main_arg3))) (spmm1 (m ((c : Thread nD τ).loc main_arg1)) (m ((c : Thread nD τ).loc main_arg2)) (m ((c : Thread nD τ).loc main_arg3))) (spmm2 (m ((c : Thread nD τ).loc main_arg1)) (m ((c : Thread nD τ).loc main_arg2)) (m ((c : Thread nD τ).loc main_arg3))) (m ((c : Thread nD τ).loc main_arg0)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W7_arr m ρ c 6).trans ((Cert.KernelIdeal.KArr.final3 (V6 m ρ) c).trans ?_)
  show Cert.Spec.headB (W6 m ρ c (Proc.devRef .tc main_v65)) (W6 m ρ c (Proc.devRef .tc main_v66)) (W6 m ρ c (Proc.devRef .tc main_v67)) (W6 m ρ c (Proc.devRef .tc main_v68)) (W6 m ρ c (Proc.devRef .tc main_arg12)) (W6 m ρ c (Proc.devRef .tc main_v69)) = _
  rw [at_v65, W6_v66, W6_v67, W6_v68, W6_v69, W6_arg12, W5_arg9, W5_arg10, W5_arg11, W5_arg13]
  exact Cert.Spec.headB_cast _ _ _ _ _ _ _ _

/-- Every weakly fair execution of the idealized kernel terminates without a fault, its result buffer at the network's
    value of the launch arguments, the arguments unchanged. -/
theorem run : θ_run (defs (F := Ideal)) (onTc (τ := τ) (main (F := Ideal))) ⟨m, fun _ => 0, ρ⟩ (fun r => ∀ c : Dev nD,
      r.2.mem ((c.tc : Thread nD τ).loc main_v70)
        = Cert.Spec.net (spmm0 (m ((c : Thread nD τ).loc main_arg1)) (m ((c : Thread nD τ).loc main_arg2)) (m ((c : Thread nD τ).loc main_arg3))) (spmm1 (m ((c : Thread nD τ).loc main_arg1)) (m ((c : Thread nD τ).loc main_arg2)) (m ((c : Thread nD τ).loc main_arg3))) (spmm2 (m ((c : Thread nD τ).loc main_arg1)) (m ((c : Thread nD τ).loc main_arg2)) (m ((c : Thread nD τ).loc main_arg3))) (m ((c : Thread nD τ).loc main_arg0)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run (defs (F := Ideal)) _ _).mono (fun r h c => ⟨(h c).1.trans (at_v70 m ρ c), (h c).2⟩) (run_last m ρ)

end Cert.KernelIdeal.KValue

end
-- ==== Proof.RefRunA.lean ====
/-
  The reference program's host operations, the first of three: the operations of `main_part0` as lists, the calls of the
  outlined functions written out at their call sites over the calls' buffer records, and the window as the straight line of those lists.
-/
import proofs.«118564_j3066606649549_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first aggregation: row 0 of the three edge tables, the input's product with the first weight, the gather of its rows at the source indices (a negative index wrapped), their scaling by the edge weights, and the scatter-add into zeros at the destination indices. -/
abbrev T0 : List (HloOp τ sig (Elt F)) :=
  [ StableHlo.unary main_arg1 main_v0 ((extractStridedSlice S1x1600000 ![0, 0] · slices_S3x1600000_S1x1600000_0_0) : (⟨S3x1600000, .i32⟩ : BufTy).Contents (Elt F) → (⟨S1x1600000, .i32⟩ : BufTy).Contents (Elt F)),
    StableHlo.reshape main_v0 main_v1 rfl shapeCasts_S1x1600000_S1600000,
    StableHlo.unary main_arg2 main_v2 ((extractStridedSlice S1x1600000 ![0, 0] · slices_S3x1600000_S1x1600000_0_0) : (⟨S3x1600000, .i32⟩ : BufTy).Contents (Elt F) → (⟨S1x1600000, .i32⟩ : BufTy).Contents (Elt F)),
    StableHlo.reshape main_v2 main_v3 rfl shapeCasts_S1x1600000_S1600000,
    StableHlo.unary main_arg3 main_v4 ((extractStridedSlice S1x1600000 ![0, 0] · slices_S3x1600000_S1x1600000_0_0) : (⟨S3x1600000, .f32⟩ : BufTy).Contents (Elt F) → (⟨S1x1600000, .f32⟩ : BufTy).Contents (Elt F)),
    StableHlo.reshape main_v4 main_v5 rfl shapeCasts_S1x1600000_S1600000,
    StableHlo.binary main_arg0 main_arg4 main_v6 ((fun l r => Host.dotGeneral dot_S100000x602_S602x128_S100000x128_1_0_0_1_n_n none l r) : (⟨S100000x602, .f32⟩ : BufTy).Contents (Elt F) → (⟨S602x128, .f32⟩ : BufTy).Contents (Elt F) → (⟨S100000x128, .f32⟩ : BufTy).Contents (Elt F)),
    StableHlo.unary main_v5 main_v7 (broadcastInDim S1600000x1 ![0] bcast_S1600000_S1600000x1_0 : (⟨S1600000, .f32⟩ : BufTy).Contents (Elt F) → (⟨S1600000x1, .f32⟩ : BufTy).Contents (Elt F)),
    StableHlo.nullary main_c (constantI S_ 32 0#32),
    StableHlo.unary main_c main_v8 (broadcastInDim S1600000 ![] bcast_S_S1600000 : (⟨S_, .i32⟩ : BufTy).Contents (Elt F) → (⟨S1600000, .i32⟩ : BufTy).Contents (Elt F)),
    StableHlo.binary main_v3 main_v8 main_v9 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v10 (broadcastInDim S1600000 ![] bcast_S_S1600000 : (⟨S_, .i32⟩ : BufTy).Contents (Elt F) → (⟨S1600000, .i32⟩ : BufTy).Contents (Elt F)),
    StableHlo.binary main_v3 main_v10 main_v11 (addi : (⟨S1600000, .i32⟩ : BufTy).Contents (Elt F) → (⟨S1600000, .i32⟩ : BufTy).Contents (Elt F) → (⟨S1600000, .i32⟩ : BufTy).Contents (Elt F)),
    StableHlo.ternary main_v9 main_v11 main_v3 main_v12 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v12 main_v13 (broadcastInDim S1600000x1 ![0] bcast_S1600000_S1600000x1_0 : (⟨S1600000, .i32⟩ : BufTy).Contents (Elt F) → (⟨S1600000x1, .i32⟩ : BufTy).Contents (Elt F)),
    StableHlo.binary main_v6 main_v13 main_v14 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_v7 main_v15 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v15 main_v14 main_v16 (mulf : (⟨S1600000x128, .f32⟩ : BufTy).Contents (Elt F) → (⟨S1600000x128, .f32⟩ : BufTy).Contents (Elt F) → (⟨S1600000x128, .f32⟩ : BufTy).Contents (Elt F)),
    StableHlo.nullary main_cst (constant S_ .f32 0x00000000#32),
    StableHlo.unary main_cst main_v17 (broadcastInDim S100000x128 ![] bcast_S_S100000x128 : (⟨S_, .f32⟩ : BufTy).Contents (Elt F) → (⟨S100000x128, .f32⟩ : BufTy).Contents (Elt F)),
    StableHlo.unary main_v1 main_v18 (broadcastInDim S1600000x1 ![0] bcast_S1600000_S1600000x1_0 : (⟨S1600000, .i32⟩ : BufTy).Contents (Elt F) → (⟨S1600000x1, .i32⟩ : BufTy).Contents (Elt F)),
    StableHlo.ternary main_v17 main_v18 main_v16 main_v19 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- The first layer's normalisation: the bias added, the row mean, the row variance (the outlined variance function and its select, written out over the call's buffers), the normalised rows scaled and shifted, then the maximum with zero. -/
abbrev T1 : List (HloOp τ sig (Elt F)) :=
  [ StableHlo.unary main_arg5 main_v20 (broadcastInDim S1x128 ![1] bcast_S128_S1x128_1 : (⟨S128, .f32⟩ : BufTy).Contents (Elt F) → (⟨S1x128, .f32⟩ : BufTy).Contents (Elt F)),
    StableHlo.unary main_v20 main_v21 (broadcastInDim S100000x128 ![0, 1] bcast_S1x128_S100000x128_0_1 : (⟨S1x128, .f32⟩ : BufTy).Contents (Elt F) → (⟨S100000x128, .f32⟩ : BufTy).Contents (Elt F)),
    StableHlo.binary main_v19 main_v21 main_v22 (addf : (⟨S100000x128, .f32⟩ : BufTy).Contents (Elt F) → (⟨S100000x128, .f32⟩ : BufTy).Contents (Elt F) → (⟨S100000x128, .f32⟩ : BufTy).Contents (Elt F)),
    StableHlo.nullary main_cst_1 (constant S_ .f32 0x00000000#32),
    StableHlo.binary main_v22 main_cst_1 main_v23 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    StableHlo.unary main_v23 main_v24 (broadcastInDim S100000x1 ![0] bcast_S100000_S100000x1_0 : (⟨S100000, .f32⟩ : BufTy).Contents (Elt F) → (⟨S100000x1, .f32⟩ : BufTy).Contents (Elt F)),
    StableHlo.nullary main_cst_2 (constant S_ .f32 0x43000000#32),
    StableHlo.unary main_cst_2 main_v25 (broadcastInDim S100000x1 ![] bcast_S_S100000x1 : (⟨S_, .f32⟩ : BufTy).Contents (Elt F) → (⟨S100000x1, .f32⟩ : BufTy).Contents (Elt F)),
    StableHlo.binary main_v24 main_v25 main_v26 (Host.divf : (⟨S100000x1, .f32⟩ : BufTy).Contents (Elt F) → (⟨S100000x1, .f32⟩ : BufTy).Contents (Elt F) → (⟨S100000x1, .f32⟩ : BufTy).Contents (Elt F)),
    StableHlo.nullary main_c_3 (constantI S_ 32 0#32),
    StableHlo.TRef.nullary main_call0.cst (constant S_ .f32 0x00000000#32),
    StableHlo.TRef.binary (TRef.of main_v22 : TRef sig ⟨S100000x128, .f32⟩) main_call0.cst main_call0.v0 (fun x v => Host.reduceAdd x v reducesTo_S100000x128_S100000_d1 h_S_),
    StableHlo.TRef.unary main_call0.v0 main_call0.v1 (broadcastInDim S100000x1 ![0] bcast_S100000_S100000x1_0),
    StableHlo.TRef.nullary main_call0.cst_0 (constant S_ .f32 0x43000000#32),
    StableHlo.TRef.unary main_call0.cst_0 main_call0.v2 (broadcastInDim S100000x1 ![] bcast_S_S100000x1),
    StableHlo.TRef.binary main_call0.v1 main_call0.v2 main_call0.v3 Host.divf,
    StableHlo.TRef.unary main_call0.v3 main_call0.v4 (broadcastInDim S100000x128 ![0, 1] bcast_S100000x1_S100000x128_0_1),
    StableHlo.TRef.binary (TRef.of main_v22 : TRef sig ⟨S100000x128, .f32⟩) main_call0.v4 main_call0.v5 subf,
    StableHlo.TRef.binary main_call0.v5 main_call0.v5 main_call0.v6 mulf,
    StableHlo.TRef.unary (TRef.of main_c_3 : TRef sig ⟨S_, .i32⟩) main_call0.v7 (sitofp .f32),
    StableHlo.TRef.nullary main_call0.cst_1 (constant S_ .f32 0x43000000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S100000_d1 h_S_),
    StableHlo.TRef.unary main_call0.v9 main_call0.v10 (broadcastInDim S100000x1 ![0] bcast_S100000_S100000x1_0),
    StableHlo.TRef.unary main_call0.v8 main_call0.v11 (broadcastInDim S100000x1 ![] bcast_S_S100000x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S100000x1 ![] bcast_S_S100000x1),
    StableHlo.TRef.ternary main_call0.v13 main_call0.v12 main_call0.call0.v1 main_call0.call0.v2 (fun p a b => select (broadcastInDim S100000x1 ![] bcast_S_S100000x1 p) a b),
    StableHlo.unary main_v26 main_v28 (broadcastInDim S100000x128 ![0, 1] bcast_S100000x1_S100000x128_0_1 : (⟨S100000x1, .f32⟩ : BufTy).Contents (Elt F) → (⟨S100000x128, .f32⟩ : BufTy).Contents (Elt F)),
    StableHlo.binary main_v22 main_v28 main_v29 (subf : (⟨S100000x128, .f32⟩ : BufTy).Contents (Elt F) → (⟨S100000x128, .f32⟩ : BufTy).Contents (Elt F) → (⟨S100000x128, .f32⟩ : BufTy).Contents (Elt F)),
    StableHlo.nullary main_cst_4 (constant S_ .f32 0x3727C5AC#32),
    StableHlo.unary main_cst_4 main_v30 (broadcastInDim S100000x1 ![] bcast_S_S100000x1 : (⟨S_, .f32⟩ : BufTy).Contents (Elt F) → (⟨S100000x1, .f32⟩ : BufTy).Contents (Elt F)),
    StableHlo.binary main_v27 main_v30 main_v31 (addf : (⟨S100000x1, .f32⟩ : BufTy).Contents (Elt F) → (⟨S100000x1, .f32⟩ : BufTy).Contents (Elt F) → (⟨S100000x1, .f32⟩ : BufTy).Contents (Elt F)),
    StableHlo.unary main_v31 main_v32 (Host.rsqrt : (⟨S100000x1, .f32⟩ : BufTy).Contents (Elt F) → (⟨S100000x1, .f32⟩ : BufTy).Contents (Elt F)),
    StableHlo.unary main_v32 main_v33 (broadcastInDim S100000x128 ![0, 1] bcast_S100000x1_S100000x128_0_1 : (⟨S100000x1, .f32⟩ : BufTy).Contents (Elt F) → (⟨S100000x128, .f32⟩ : BufTy).Contents (Elt F)),
    StableHlo.binary main_v29 main_v33 main_v34 (mulf : (⟨S100000x128, .f32⟩ : BufTy).Contents (Elt F) → (⟨S100000x128, .f32⟩ : BufTy).Contents (Elt F) → (⟨S100000x128, .f32⟩ : BufTy).Contents (Elt F)),
    StableHlo.unary main_arg10 main_v35 (broadcastInDim S1x128 ![1] bcast_S128_S1x128_1 : (⟨S128, .f32⟩ : BufTy).Contents (Elt F) → (⟨S1x128, .f32⟩ : BufTy).Contents (Elt F)),
    StableHlo.unary main_v35 main_v36 (broadcastInDim S100000x128 ![0, 1] bcast_S1x128_S100000x128_0_1 : (⟨S1x128, .f32⟩ : BufTy).Contents (Elt F) → (⟨S100000x128, .f32⟩ : BufTy).Contents (Elt F)),
    StableHlo.binary main_v34 main_v36 main_v37 (mulf : (⟨S100000x128, .f32⟩ : BufTy).Contents (Elt F) → (⟨S100000x128, .f32⟩ : BufTy).Contents (Elt F) → (⟨S100000x128, .f32⟩ : BufTy).Contents (Elt F)),
    StableHlo.unary main_arg11 main_v38 (broadcastInDim S1x128 ![1] bcast_S128_S1x128_1 : (⟨S128, .f32⟩ : BufTy).Contents (Elt F) → (⟨S1x128, .f32⟩ : BufTy).Contents (Elt F)),
    StableHlo.unary main_v38 main_v39 (broadcastInDim S100000x128 ![0, 1] bcast_S1x128_S100000x128_0_1 : (⟨S1x128, .f32⟩ : BufTy).Contents (Elt F) → (⟨S100000x128, .f32⟩ : BufTy).Contents (Elt F)),
    StableHlo.binary main_v37 main_v39 main_v40 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (TRef.of main_v40 : TRef sig ⟨S100000x128, .f32⟩) main_call1.v0 main_call1.v1 maximumf ]

/-- Row 1 of the three edge tables, the product with the second weight, and the start of the second aggregation's index arithmetic. -/
abbrev T2a : List (HloOp τ sig (Elt F)) :=
  [ StableHlo.unary main_arg1 main_v42 ((extractStridedSlice S1x1600000 ![1, 0] · slices_S3x1600000_S1x1600000_1_0) : (⟨S3x1600000, .i32⟩ : BufTy).Contents (Elt F) → (⟨S1x1600000, .i32⟩ : BufTy).Contents (Elt F)),
    StableHlo.reshape main_v42 main_v43 rfl shapeCasts_S1x1600000_S1600000,
    StableHlo.unary main_arg2 main_v44 ((extractStridedSlice S1x1600000 ![1, 0] · slices_S3x1600000_S1x1600000_1_0) : (⟨S3x1600000, .i32⟩ : BufTy).Contents (Elt F) → (⟨S1x1600000, .i32⟩ : BufTy).Contents (Elt F)),
    StableHlo.reshape main_v44 main_v45 rfl shapeCasts_S1x1600000_S1600000,
    StableHlo.unary main_arg3 main_v46 ((extractStridedSlice S1x1600000 ![1, 0] · slices_S3x1600000_S1x1600000_1_0) : (⟨S3x1600000, .f32⟩ : BufTy).Contents (Elt F) → (⟨S1x1600000, .f32⟩ : BufTy).Contents (Elt F)),
    StableHlo.reshape main_v46 main_v47 rfl shapeCasts_S1x1600000_S1600000,
    StableHlo.binary main_v41 main_arg6 main_v48 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v47 main_v49 (broadcastInDim S1600000x1 ![0] bcast_S1600000_S1600000x1_0 : (⟨S1600000, .f32⟩ : BufTy).Contents (Elt F) → (⟨S1600000x1, .f32⟩ : BufTy).Contents (Elt F)),
    StableHlo.nullary main_c_5 (constantI S_ 32 0#32),
    StableHlo.unary main_c_5 main_v50 (broadcastInDim S1600000 ![] bcast_S_S1600000 : (⟨S_, .i32⟩ : BufTy).Contents (Elt F) → (⟨S1600000, .i32⟩ : BufTy).Contents (Elt F)),
    StableHlo.binary main_v45 main_v50 main_v51 (cmpi .slt : (⟨S1600000, .i32⟩ : BufTy).Contents (Elt F) → (⟨S1600000, .i32⟩ : BufTy).Contents (Elt F) → (⟨S1600000, .i1⟩ : BufTy).Contents (Elt F)) ]

set_option maxRecDepth 8192 in
set_option maxHeartbeats 4000000 in
/-- The window is its lists run one after the other: the outlined functions unfolded at their calls, both sides are one
    chain of steps once sequencing is reassociated. -/
theorem main_part0_eq (c : Dev nD) :
    main_part0 (F := F) c = (seq T0 >>= fun _ => seq T1 >>= fun _ => seq T2a : Prog (TpuEff nD τ sig (Elt F) (Pipeline.Sig Λ₀ (Fin 0) fun p => (pcfgs (F := F) p).Adm) .tc) PUnit) := by
  simp only [main_part0, fn_var.body, fn_where.body, fn_relu.body, fn_log_softmax.body, seq, bind_assoc, pure_bind]
  rfl

/-- Every operation of the list touches TensorCore references only. -/
theorem T0_sub : (T0 : List (HloOp τ sig (Elt F))).Forall fun op => op.bufs ⊆ tcRefs τ sig :=
  ⟨unary_bufs_sub .., reshape_bufs_sub .., unary_bufs_sub .., reshape_bufs_sub .., unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩

/-- Every operation of the list determines its results. -/
theorem T0_fresh : ∀ op ∈ (T0 : List (HloOp τ sig (Elt F))), op.fresh = ∅ := by
  intro _ h; (repeat (cases h with | head => rfl | tail _ h => ?_)); exact nomatch h

/-- Every operation of the list touches TensorCore references only. -/
theorem T1_sub : (T1 : List (HloOp τ sig (Elt F))).Forall fun op => op.bufs ⊆ tcRefs τ sig :=
  ⟨unary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

/-- Every operation of the list determines its results. -/
theorem T1_fresh : ∀ op ∈ (T1 : List (HloOp τ sig (Elt F))), op.fresh = ∅ := by
  intro _ h; (repeat (cases h with | head => rfl | tail _ h => ?_)); exact nomatch h

/-- Every operation of the list touches TensorCore references only. -/
theorem T2a_sub : (T2a : List (HloOp τ sig (Elt F))).Forall fun op => op.bufs ⊆ tcRefs τ sig :=
  ⟨unary_bufs_sub .., reshape_bufs_sub .., unary_bufs_sub .., reshape_bufs_sub .., unary_bufs_sub .., reshape_bufs_sub .., binary_bufs_sub .., unary_bufs_sub .., nullary_bufs_sub .., unary_bufs_sub .., binary_bufs_sub ..⟩

/-- Every operation of the list determines its results. -/
theorem T2a_fresh : ∀ op ∈ (T2a : List (HloOp τ sig (Elt F))), op.fresh = ∅ := by
  intro _ h; (repeat (cases h with | head => rfl | tail _ h => ?_)); exact nomatch h

end Cert.ReferenceIdeal.RefRun

end
-- ==== Proof.RefRunB.lean ====
/-
  The reference program's host operations, the second of three: the operations of `main_part1` as lists, the calls of the
  outlined functions written out at their call sites over the calls' buffer records, and the window as the straight line of those lists.
-/
import proofs.«118564_j3066606649549_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The rest of the second aggregation: the wrapped source indices, the gather, the scaling, the scatter-add into zeros. -/
abbrev T2b : List (HloOp τ sig (Elt F)) :=
  [ StableHlo.nullary main_c_6 (constantI S_ 32 100000#32),
    StableHlo.unary main_c_6 main_v52 (broadcastInDim S1600000 ![] bcast_S_S1600000 : (⟨S_, .i32⟩ : BufTy).Contents (Elt F) → (⟨S1600000, .i32⟩ : BufTy).Contents (Elt F)),
    StableHlo.binary main_v45 main_v52 main_v53 (addi : (⟨S1600000, .i32⟩ : BufTy).Contents (Elt F) → (⟨S1600000, .i32⟩ : BufTy).Contents (Elt F) → (⟨S1600000, .i32⟩ : BufTy).Contents (Elt F)),
    StableHlo.ternary main_v51 main_v53 main_v45 main_v54 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v54 main_v55 (broadcastInDim S1600000x1 ![0] bcast_S1600000_S1600000x1_0 : (⟨S1600000, .i32⟩ : BufTy).Contents (Elt F) → (⟨S1600000x1, .i32⟩ : BufTy).Contents (Elt F)),
    StableHlo.binary main_v48 main_v55 main_v56 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_v49 main_v57 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v57 main_v56 main_v58 (mulf : (⟨S1600000x128, .f32⟩ : BufTy).Contents (Elt F) → (⟨S1600000x128, .f32⟩ : BufTy).Contents (Elt F) → (⟨S1600000x128, .f32⟩ : BufTy).Contents (Elt F)),
    StableHlo.nullary main_cst_7 (constant S_ .f32 0x00000000#32),
    StableHlo.unary main_cst_7 main_v59 (broadcastInDim S100000x128 ![] bcast_S_S100000x128 : (⟨S_, .f32⟩ : BufTy).Contents (Elt F) → (⟨S100000x128, .f32⟩ : BufTy).Contents (Elt F)),
    StableHlo.unary main_v43 main_v60 (broadcastInDim S1600000x1 ![0] bcast_S1600000_S1600000x1_0 : (⟨S1600000, .i32⟩ : BufTy).Contents (Elt F) → (⟨S1600000x1, .i32⟩ : BufTy).Contents (Elt F)),
    StableHlo.ternary main_v59 main_v60 main_v58 main_v61 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- The second layer's normalisation, as the first. -/
abbrev T3 : List (HloOp τ sig (Elt F)) :=
  [ StableHlo.unary main_arg7 main_v62 (broadcastInDim S1x128 ![1] bcast_S128_S1x128_1 : (⟨S128, .f32⟩ : BufTy).Contents (Elt F) → (⟨S1x128, .f32⟩ : BufTy).Contents (Elt F)),
    StableHlo.unary main_v62 main_v63 (broadcastInDim S100000x128 ![0, 1] bcast_S1x128_S100000x128_0_1 : (⟨S1x128, .f32⟩ : BufTy).Contents (Elt F) → (⟨S100000x128, .f32⟩ : BufTy).Contents (Elt F)),
    StableHlo.binary main_v61 main_v63 main_v64 (addf : (⟨S100000x128, .f32⟩ : BufTy).Contents (Elt F) → (⟨S100000x128, .f32⟩ : BufTy).Contents (Elt F) → (⟨S100000x128, .f32⟩ : BufTy).Contents (Elt F)),
    StableHlo.nullary main_cst_8 (constant S_ .f32 0x00000000#32),
    StableHlo.binary main_v64 main_cst_8 main_v65 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    StableHlo.unary main_v65 main_v66 (broadcastInDim S100000x1 ![0] bcast_S100000_S100000x1_0 : (⟨S100000, .f32⟩ : BufTy).Contents (Elt F) → (⟨S100000x1, .f32⟩ : BufTy).Contents (Elt F)),
    StableHlo.nullary main_cst_9 (constant S_ .f32 0x43000000#32),
    StableHlo.unary main_cst_9 main_v67 (broadcastInDim S100000x1 ![] bcast_S_S100000x1 : (⟨S_, .f32⟩ : BufTy).Contents (Elt F) → (⟨S100000x1, .f32⟩ : BufTy).Contents (Elt F)),
    StableHlo.binary main_v66 main_v67 main_v68 (Host.divf : (⟨S100000x1, .f32⟩ : BufTy).Contents (Elt F) → (⟨S100000x1, .f32⟩ : BufTy).Contents (Elt F) → (⟨S100000x1, .f32⟩ : BufTy).Contents (Elt F)),
    StableHlo.nullary main_c_10 (constantI S_ 32 0#32),
    StableHlo.TRef.nullary main_call2.cst (constant S_ .f32 0x00000000#32),
    StableHlo.TRef.binary (TRef.of main_v64 : TRef sig ⟨S100000x128, .f32⟩) main_call2.cst main_call2.v0 (fun x v => Host.reduceAdd x v reducesTo_S100000x128_S100000_d1 h_S_),
    StableHlo.TRef.unary main_call2.v0 main_call2.v1 (broadcastInDim S100000x1 ![0] bcast_S100000_S100000x1_0),
    StableHlo.TRef.nullary main_call2.cst_0 (constant S_ .f32 0x43000000#32),
    StableHlo.TRef.unary main_call2.cst_0 main_call2.v2 (broadcastInDim S100000x1 ![] bcast_S_S100000x1),
    StableHlo.TRef.binary main_call2.v1 main_call2.v2 main_call2.v3 Host.divf,
    StableHlo.TRef.unary main_call2.v3 main_call2.v4 (broadcastInDim S100000x128 ![0, 1] bcast_S100000x1_S100000x128_0_1),
    StableHlo.TRef.binary (TRef.of main_v64 : TRef sig ⟨S100000x128, .f32⟩) main_call2.v4 main_call2.v5 subf,
    StableHlo.TRef.binary main_call2.v5 main_call2.v5 main_call2.v6 mulf,
    StableHlo.TRef.unary (TRef.of main_c_10 : TRef sig ⟨S_, .i32⟩) main_call2.v7 (sitofp .f32),
    StableHlo.TRef.nullary main_call2.cst_1 (constant S_ .f32 0x43000000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S100000_d1 h_S_),
    StableHlo.TRef.unary main_call2.v9 main_call2.v10 (broadcastInDim S100000x1 ![0] bcast_S100000_S100000x1_0),
    StableHlo.TRef.unary main_call2.v8 main_call2.v11 (broadcastInDim S100000x1 ![] bcast_S_S100000x1),
    StableHlo.TRef.binary main_call2.v10 main_call2.v11 main_call2.v12 Host.divf,
    StableHlo.TRef.nullary main_call2.cst_3 (constant S_ .f32 0x00000000#32),
    StableHlo.TRef.binary main_call2.v8 main_call2.cst_3 main_call2.v13 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S100000x1 ![] bcast_S_S100000x1),
    StableHlo.TRef.ternary main_call2.v13 main_call2.v12 main_call2.call0.v1 main_call2.call0.v2 (fun p a b => select (broadcastInDim S100000x1 ![] bcast_S_S100000x1 p) a b),
    StableHlo.unary main_v68 main_v70 (broadcastInDim S100000x128 ![0, 1] bcast_S100000x1_S100000x128_0_1 : (⟨S100000x1, .f32⟩ : BufTy).Contents (Elt F) → (⟨S100000x128, .f32⟩ : BufTy).Contents (Elt F)),
    StableHlo.binary main_v64 main_v70 main_v71 (subf : (⟨S100000x128, .f32⟩ : BufTy).Contents (Elt F) → (⟨S100000x128, .f32⟩ : BufTy).Contents (Elt F) → (⟨S100000x128, .f32⟩ : BufTy).Contents (Elt F)),
    StableHlo.nullary main_cst_11 (constant S_ .f32 0x3727C5AC#32),
    StableHlo.unary main_cst_11 main_v72 (broadcastInDim S100000x1 ![] bcast_S_S100000x1 : (⟨S_, .f32⟩ : BufTy).Contents (Elt F) → (⟨S100000x1, .f32⟩ : BufTy).Contents (Elt F)),
    StableHlo.binary main_v69 main_v72 main_v73 (addf : (⟨S100000x1, .f32⟩ : BufTy).Contents (Elt F) → (⟨S100000x1, .f32⟩ : BufTy).Contents (Elt F) → (⟨S100000x1, .f32⟩ : BufTy).Contents (Elt F)),
    StableHlo.unary main_v73 main_v74 (Host.rsqrt : (⟨S100000x1, .f32⟩ : BufTy).Contents (Elt F) → (⟨S100000x1, .f32⟩ : BufTy).Contents (Elt F)),
    StableHlo.unary main_v74 main_v75 (broadcastInDim S100000x128 ![0, 1] bcast_S100000x1_S100000x128_0_1 : (⟨S100000x1, .f32⟩ : BufTy).Contents (Elt F) → (⟨S100000x128, .f32⟩ : BufTy).Contents (Elt F)),
    StableHlo.binary main_v71 main_v75 main_v76 (mulf : (⟨S100000x128, .f32⟩ : BufTy).Contents (Elt F) → (⟨S100000x128, .f32⟩ : BufTy).Contents (Elt F) → (⟨S100000x128, .f32⟩ : BufTy).Contents (Elt F)),
    StableHlo.unary main_arg10 main_v77 (broadcastInDim S1x128 ![1] bcast_S128_S1x128_1 : (⟨S128, .f32⟩ : BufTy).Contents (Elt F) → (⟨S1x128, .f32⟩ : BufTy).Contents (Elt F)),
    StableHlo.unary main_v77 main_v78 (broadcastInDim S100000x128 ![0, 1] bcast_S1x128_S100000x128_0_1 : (⟨S1x128, .f32⟩ : BufTy).Contents (Elt F) → (⟨S100000x128, .f32⟩ : BufTy).Contents (Elt F)),
    StableHlo.binary main_v76 main_v78 main_v79 (mulf : (⟨S100000x128, .f32⟩ : BufTy).Contents (Elt F) → (⟨S100000x128, .f32⟩ : BufTy).Contents (Elt F) → (⟨S100000x128, .f32⟩ : BufTy).Contents (Elt F)),
    StableHlo.unary main_arg11 main_v80 (broadcastInDim S1x128 ![1] bcast_S128_S1x128_1 : (⟨S128, .f32⟩ : BufTy).Contents (Elt F) → (⟨S1x128, .f32⟩ : BufTy).Contents (Elt F)),
    StableHlo.unary main_v80 main_v81 (broadcastInDim S100000x128 ![0, 1] bcast_S1x128_S100000x128_0_1 : (⟨S1x128, .f32⟩ : BufTy).Contents (Elt F) → (⟨S100000x128, .f32⟩ : BufTy).Contents (Elt F)),
    StableHlo.binary main_v79 main_v81 main_v82 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (TRef.of main_v82 : TRef sig ⟨S100000x128, .f32⟩) main_call3.v0 main_call3.v1 maximumf ]

/-- Row 2 of the three edge tables, the product with the third weight, and the third aggregation up to its scatter's operands. -/
abbrev T4a : List (HloOp τ sig (Elt F)) :=
  [ StableHlo.unary main_arg1 main_v84 ((extractStridedSlice S1x1600000 ![2, 0] · slices_S3x1600000_S1x1600000_2_0) : (⟨S3x1600000, .i32⟩ : BufTy).Contents (Elt F) → (⟨S1x1600000, .i32⟩ : BufTy).Contents (Elt F)),
    StableHlo.reshape main_v84 main_v85 rfl shapeCasts_S1x1600000_S1600000,
    StableHlo.unary main_arg2 main_v86 ((extractStridedSlice S1x1600000 ![2, 0] · slices_S3x1600000_S1x1600000_2_0) : (⟨S3x1600000, .i32⟩ : BufTy).Contents (Elt F) → (⟨S1x1600000, .i32⟩ : BufTy).Contents (Elt F)),
    StableHlo.reshape main_v86 main_v87 rfl shapeCasts_S1x1600000_S1600000,
    StableHlo.unary main_arg3 main_v88 ((extractStridedSlice S1x1600000 ![2, 0] · slices_S3x1600000_S1x1600000_2_0) : (⟨S3x1600000, .f32⟩ : BufTy).Contents (Elt F) → (⟨S1x1600000, .f32⟩ : BufTy).Contents (Elt F)),
    StableHlo.reshape main_v88 main_v89 rfl shapeCasts_S1x1600000_S1600000,
    StableHlo.binary main_v83 main_arg8 main_v90 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v89 main_v91 (broadcastInDim S1600000x1 ![0] bcast_S1600000_S1600000x1_0 : (⟨S1600000, .f32⟩ : BufTy).Contents (Elt F) → (⟨S1600000x1, .f32⟩ : BufTy).Contents (Elt F)),
    StableHlo.nullary main_c_12 (constantI S_ 32 0#32),
    StableHlo.unary main_c_12 main_v92 (broadcastInDim S1600000 ![] bcast_S_S1600000 : (⟨S_, .i32⟩ : BufTy).Contents (Elt F) → (⟨S1600000, .i32⟩ : BufTy).Contents (Elt F)),
    StableHlo.binary main_v87 main_v92 main_v93 (cmpi .slt : (⟨S1600000, .i32⟩ : BufTy).Contents (Elt F) → (⟨S1600000, .i32⟩ : BufTy).Contents (Elt F) → (⟨S1600000, .i1⟩ : BufTy).Contents (Elt F)),
    StableHlo.nullary main_c_13 (constantI S_ 32 100000#32),
    StableHlo.unary main_c_13 main_v94 (broadcastInDim S1600000 ![] bcast_S_S1600000 : (⟨S_, .i32⟩ : BufTy).Contents (Elt F) → (⟨S1600000, .i32⟩ : BufTy).Contents (Elt F)),
    StableHlo.binary main_v87 main_v94 main_v95 (addi : (⟨S1600000, .i32⟩ : BufTy).Contents (Elt F) → (⟨S1600000, .i32⟩ : BufTy).Contents (Elt F) → (⟨S1600000, .i32⟩ : BufTy).Contents (Elt F)),
    StableHlo.ternary main_v93 main_v95 main_v87 main_v96 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v96 main_v97 (broadcastInDim S1600000x1 ![0] bcast_S1600000_S1600000x1_0 : (⟨S1600000, .i32⟩ : BufTy).Contents (Elt F) → (⟨S1600000x1, .i32⟩ : BufTy).Contents (Elt F)),
    StableHlo.binary main_v90 main_v97 main_v98 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_v91 main_v99 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v99 main_v98 main_v100 (mulf : (⟨S1600000x128, .f32⟩ : BufTy).Contents (Elt F) → (⟨S1600000x128, .f32⟩ : BufTy).Contents (Elt F) → (⟨S1600000x128, .f32⟩ : BufTy).Contents (Elt F)),
    StableHlo.nullary main_cst_14 (constant S_ .f32 0x00000000#32),
    StableHlo.unary main_cst_14 main_v101 (broadcastInDim S100000x128 ![] bcast_S_S100000x128 : (⟨S_, .f32⟩ : BufTy).Contents (Elt F) → (⟨S100000x128, .f32⟩ : BufTy).Contents (Elt F)),
    StableHlo.unary main_v85 main_v102 (broadcastInDim S1600000x1 ![0] bcast_S1600000_S1600000x1_0 : (⟨S1600000, .i32⟩ : BufTy).Contents (Elt F) → (⟨S1600000x1, .i32⟩ : BufTy).Contents (Elt F)) ]

set_option maxRecDepth 8192 in
set_option maxHeartbeats 4000000 in
/-- The window is its lists run one after the other: the outlined functions unfolded at their calls, both sides are one
    chain of steps once sequencing is reassociated. -/
theorem main_part1_eq (c : Dev nD) :
    main_part1 (F := F) c = (seq T2b >>= fun _ => seq T3 >>= fun _ => seq T4a : Prog (TpuEff nD τ sig (Elt F) (Pipeline.Sig Λ₀ (Fin 0) fun p => (pcfgs (F := F) p).Adm) .tc) PUnit) := by
  simp only [main_part1, fn_var.body, fn_where.body, fn_relu.body, fn_log_softmax.body, seq, bind_assoc, pure_bind]
  rfl

/-- Every operation of the list touches TensorCore references only. -/
theorem T2b_sub : (T2b : List (HloOp τ sig (Elt F))).Forall fun op => op.bufs ⊆ tcRefs τ sig :=
  ⟨nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩

/-- Every operation of the list determines its results. -/
theorem T2b_fresh : ∀ op ∈ (T2b : List (HloOp τ sig (Elt F))), op.fresh = ∅ := by
  intro _ h; (repeat (cases h with | head => rfl | tail _ h => ?_)); exact nomatch h

/-- Every operation of the list touches TensorCore references only. -/
theorem T3_sub : (T3 : List (HloOp τ sig (Elt F))).Forall fun op => op.bufs ⊆ tcRefs τ sig :=
  ⟨unary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

/-- Every operation of the list determines its results. -/
theorem T3_fresh : ∀ op ∈ (T3 : List (HloOp τ sig (Elt F))), op.fresh = ∅ := by
  intro _ h; (repeat (cases h with | head => rfl | tail _ h => ?_)); exact nomatch h

/-- Every operation of the list touches TensorCore references only. -/
theorem T4a_sub : (T4a : List (HloOp τ sig (Elt F))).Forall fun op => op.bufs ⊆ tcRefs τ sig :=
  ⟨unary_bufs_sub .., reshape_bufs_sub .., unary_bufs_sub .., reshape_bufs_sub .., unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub ..⟩

/-- Every operation of the list determines its results. -/
theorem T4a_fresh : ∀ op ∈ (T4a : List (HloOp τ sig (Elt F))), op.fresh = ∅ := by
  intro _ h; (repeat (cases h with | head => rfl | tail _ h => ?_)); exact nomatch h

end Cert.ReferenceIdeal.RefRun

end
-- ==== Proof.RefRunC.lean ====
/-
  The reference program's host operations, the third of three: the operations of `main_part2` as lists, the calls of the
  outlined functions written out at their call sites over the calls' buffer records, and the window as the straight line of those lists.
-/
import proofs.«118564_j3066606649549_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The third aggregation's scatter-add. -/
abbrev T4b : List (HloOp τ sig (Elt F)) :=
  [ StableHlo.ternary main_v101 main_v102 main_v100 main_v103 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- The third layer's normalisation, as the first. -/
abbrev T5 : List (HloOp τ sig (Elt F)) :=
  [ StableHlo.unary main_arg9 main_v104 (broadcastInDim S1x128 ![1] bcast_S128_S1x128_1 : (⟨S128, .f32⟩ : BufTy).Contents (Elt F) → (⟨S1x128, .f32⟩ : BufTy).Contents (Elt F)),
    StableHlo.unary main_v104 main_v105 (broadcastInDim S100000x128 ![0, 1] bcast_S1x128_S100000x128_0_1 : (⟨S1x128, .f32⟩ : BufTy).Contents (Elt F) → (⟨S100000x128, .f32⟩ : BufTy).Contents (Elt F)),
    StableHlo.binary main_v103 main_v105 main_v106 (addf : (⟨S100000x128, .f32⟩ : BufTy).Contents (Elt F) → (⟨S100000x128, .f32⟩ : BufTy).Contents (Elt F) → (⟨S100000x128, .f32⟩ : BufTy).Contents (Elt F)),
    StableHlo.nullary main_cst_15 (constant S_ .f32 0x00000000#32),
    StableHlo.binary main_v106 main_cst_15 main_v107 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    StableHlo.unary main_v107 main_v108 (broadcastInDim S100000x1 ![0] bcast_S100000_S100000x1_0 : (⟨S100000, .f32⟩ : BufTy).Contents (Elt F) → (⟨S100000x1, .f32⟩ : BufTy).Contents (Elt F)),
    StableHlo.nullary main_cst_16 (constant S_ .f32 0x43000000#32),
    StableHlo.unary main_cst_16 main_v109 (broadcastInDim S100000x1 ![] bcast_S_S100000x1 : (⟨S_, .f32⟩ : BufTy).Contents (Elt F) → (⟨S100000x1, .f32⟩ : BufTy).Contents (Elt F)),
    StableHlo.binary main_v108 main_v109 main_v110 (Host.divf : (⟨S100000x1, .f32⟩ : BufTy).Contents (Elt F) → (⟨S100000x1, .f32⟩ : BufTy).Contents (Elt F) → (⟨S100000x1, .f32⟩ : BufTy).Contents (Elt F)),
    StableHlo.nullary main_c_17 (constantI S_ 32 0#32),
    StableHlo.TRef.nullary main_call4.cst (constant S_ .f32 0x00000000#32),
    StableHlo.TRef.binary (TRef.of main_v106 : TRef sig ⟨S100000x128, .f32⟩) main_call4.cst main_call4.v0 (fun x v => Host.reduceAdd x v reducesTo_S100000x128_S100000_d1 h_S_),
    StableHlo.TRef.unary main_call4.v0 main_call4.v1 (broadcastInDim S100000x1 ![0] bcast_S100000_S100000x1_0),
    StableHlo.TRef.nullary main_call4.cst_0 (constant S_ .f32 0x43000000#32),
    StableHlo.TRef.unary main_call4.cst_0 main_call4.v2 (broadcastInDim S100000x1 ![] bcast_S_S100000x1),
    StableHlo.TRef.binary main_call4.v1 main_call4.v2 main_call4.v3 Host.divf,
    StableHlo.TRef.unary main_call4.v3 main_call4.v4 (broadcastInDim S100000x128 ![0, 1] bcast_S100000x1_S100000x128_0_1),
    StableHlo.TRef.binary (TRef.of main_v106 : TRef sig ⟨S100000x128, .f32⟩) main_call4.v4 main_call4.v5 subf,
    StableHlo.TRef.binary main_call4.v5 main_call4.v5 main_call4.v6 mulf,
    StableHlo.TRef.unary (TRef.of main_c_17 : TRef sig ⟨S_, .i32⟩) main_call4.v7 (sitofp .f32),
    StableHlo.TRef.nullary main_call4.cst_1 (constant S_ .f32 0x43000000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x128_S100000_d1 h_S_),
    StableHlo.TRef.unary main_call4.v9 main_call4.v10 (broadcastInDim S100000x1 ![0] bcast_S100000_S100000x1_0),
    StableHlo.TRef.unary main_call4.v8 main_call4.v11 (broadcastInDim S100000x1 ![] bcast_S_S100000x1),
    StableHlo.TRef.binary main_call4.v10 main_call4.v11 main_call4.v12 Host.divf,
    StableHlo.TRef.nullary main_call4.cst_3 (constant S_ .f32 0x00000000#32),
    StableHlo.TRef.binary main_call4.v8 main_call4.cst_3 main_call4.v13 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S100000x1 ![] bcast_S_S100000x1),
    StableHlo.TRef.ternary main_call4.v13 main_call4.v12 main_call4.call0.v1 main_call4.call0.v2 (fun p a b => select (broadcastInDim S100000x1 ![] bcast_S_S100000x1 p) a b),
    StableHlo.unary main_v110 main_v112 (broadcastInDim S100000x128 ![0, 1] bcast_S100000x1_S100000x128_0_1 : (⟨S100000x1, .f32⟩ : BufTy).Contents (Elt F) → (⟨S100000x128, .f32⟩ : BufTy).Contents (Elt F)),
    StableHlo.binary main_v106 main_v112 main_v113 (subf : (⟨S100000x128, .f32⟩ : BufTy).Contents (Elt F) → (⟨S100000x128, .f32⟩ : BufTy).Contents (Elt F) → (⟨S100000x128, .f32⟩ : BufTy).Contents (Elt F)),
    StableHlo.nullary main_cst_18 (constant S_ .f32 0x3727C5AC#32),
    StableHlo.unary main_cst_18 main_v114 (broadcastInDim S100000x1 ![] bcast_S_S100000x1 : (⟨S_, .f32⟩ : BufTy).Contents (Elt F) → (⟨S100000x1, .f32⟩ : BufTy).Contents (Elt F)),
    StableHlo.binary main_v111 main_v114 main_v115 (addf : (⟨S100000x1, .f32⟩ : BufTy).Contents (Elt F) → (⟨S100000x1, .f32⟩ : BufTy).Contents (Elt F) → (⟨S100000x1, .f32⟩ : BufTy).Contents (Elt F)),
    StableHlo.unary main_v115 main_v116 (Host.rsqrt : (⟨S100000x1, .f32⟩ : BufTy).Contents (Elt F) → (⟨S100000x1, .f32⟩ : BufTy).Contents (Elt F)),
    StableHlo.unary main_v116 main_v117 (broadcastInDim S100000x128 ![0, 1] bcast_S100000x1_S100000x128_0_1 : (⟨S100000x1, .f32⟩ : BufTy).Contents (Elt F) → (⟨S100000x128, .f32⟩ : BufTy).Contents (Elt F)),
    StableHlo.binary main_v113 main_v117 main_v118 (mulf : (⟨S100000x128, .f32⟩ : BufTy).Contents (Elt F) → (⟨S100000x128, .f32⟩ : BufTy).Contents (Elt F) → (⟨S100000x128, .f32⟩ : BufTy).Contents (Elt F)),
    StableHlo.unary main_arg10 main_v119 (broadcastInDim S1x128 ![1] bcast_S128_S1x128_1 : (⟨S128, .f32⟩ : BufTy).Contents (Elt F) → (⟨S1x128, .f32⟩ : BufTy).Contents (Elt F)),
    StableHlo.unary main_v119 main_v120 (broadcastInDim S100000x128 ![0, 1] bcast_S1x128_S100000x128_0_1 : (⟨S1x128, .f32⟩ : BufTy).Contents (Elt F) → (⟨S100000x128, .f32⟩ : BufTy).Contents (Elt F)),
    StableHlo.binary main_v118 main_v120 main_v121 (mulf : (⟨S100000x128, .f32⟩ : BufTy).Contents (Elt F) → (⟨S100000x128, .f32⟩ : BufTy).Contents (Elt F) → (⟨S100000x128, .f32⟩ : BufTy).Contents (Elt F)),
    StableHlo.unary main_arg11 main_v122 (broadcastInDim S1x128 ![1] bcast_S128_S1x128_1 : (⟨S128, .f32⟩ : BufTy).Contents (Elt F) → (⟨S1x128, .f32⟩ : BufTy).Contents (Elt F)),
    StableHlo.unary main_v122 main_v123 (broadcastInDim S100000x128 ![0, 1] bcast_S1x128_S100000x128_0_1 : (⟨S1x128, .f32⟩ : BufTy).Contents (Elt F) → (⟨S100000x128, .f32⟩ : BufTy).Contents (Elt F)),
    StableHlo.binary main_v121 main_v123 main_v124 (addf : (⟨S100000x128, .f32⟩ : BufTy).Contents (Elt F) → (⟨S100000x128, .f32⟩ : BufTy).Contents (Elt F) → (⟨S100000x128, .f32⟩ : BufTy).Contents (Elt F)),
    StableHlo.TRef.nullary main_call5.cst (constant S_ .f32 0x00000000#32),
    StableHlo.TRef.unary main_call5.cst main_call5.v0 (broadcastInDim S100000x128 ![] bcast_S_S100000x128),
    StableHlo.TRef.binary (TRef.of main_v124 : TRef sig ⟨S100000x128, .f32⟩) main_call5.v0 main_call5.v1 maximumf ]

/-- The head: the product with the output weight, the bias, and the row-wise log-softmax (the outlined function written out over the call's buffers). -/
abbrev T6 : List (HloOp τ sig (Elt F)) :=
  [ StableHlo.binary main_v125 main_arg12 main_v126 ((fun l r => Host.dotGeneral dot_S100000x128_S128x41_S100000x41_1_0_0_1_n_n none l r) : (⟨S100000x128, .f32⟩ : BufTy).Contents (Elt F) → (⟨S128x41, .f32⟩ : BufTy).Contents (Elt F) → (⟨S100000x41, .f32⟩ : BufTy).Contents (Elt F)),
    StableHlo.unary main_arg13 main_v127 (broadcastInDim S1x41 ![1] bcast_S41_S1x41_1 : (⟨S41, .f32⟩ : BufTy).Contents (Elt F) → (⟨S1x41, .f32⟩ : BufTy).Contents (Elt F)),
    StableHlo.unary main_v127 main_v128 (broadcastInDim S100000x41 ![0, 1] bcast_S1x41_S100000x41_0_1 : (⟨S1x41, .f32⟩ : BufTy).Contents (Elt F) → (⟨S100000x41, .f32⟩ : BufTy).Contents (Elt F)),
    StableHlo.binary main_v126 main_v128 main_v129 (addf : (⟨S100000x41, .f32⟩ : BufTy).Contents (Elt F) → (⟨S100000x41, .f32⟩ : BufTy).Contents (Elt F) → (⟨S100000x41, .f32⟩ : BufTy).Contents (Elt F)),
    StableHlo.TRef.nullary main_call6.cst (constant S_ .f32 0xFF800000#32),
    StableHlo.TRef.binary (TRef.of main_v129 : TRef sig ⟨S100000x41, .f32⟩) main_call6.cst main_call6.v0 (fun x v => Host.reduce FloatOps.maximumf x v reducesTo_S100000x41_S100000_d1 h_S_),
    StableHlo.TRef.nullary main_call6.cst_0 (constant S_ .f32 0xFF800000#32),
    StableHlo.TRef.unary main_call6.cst_0 main_call6.v1 (broadcastInDim S100000 ![] bcast_S_S100000),
    StableHlo.TRef.binary main_call6.v1 main_call6.v0 main_call6.v2 maximumf,
    StableHlo.TRef.unary main_call6.v2 main_call6.v3 (broadcastInDim S100000x1 ![0] bcast_S100000_S100000x1_0),
    StableHlo.TRef.unary main_call6.v3 main_call6.v4 (broadcastInDim S100000x41 ![0, 1] bcast_S100000x1_S100000x41_0_1),
    StableHlo.TRef.binary (TRef.of main_v129 : TRef sig ⟨S100000x41, .f32⟩) main_call6.v4 main_call6.v5 subf,
    StableHlo.TRef.unary main_call6.v5 main_call6.v6 Host.exp,
    StableHlo.TRef.nullary main_call6.cst_1 (constant S_ .f32 0x00000000#32),
    StableHlo.TRef.binary main_call6.v6 main_call6.cst_1 main_call6.v7 (fun x v => Host.reduceAdd x v reducesTo_S100000x41_S100000_d1 h_S_),
    StableHlo.TRef.unary main_call6.v7 main_call6.v8 (broadcastInDim S100000x1 ![0] bcast_S100000_S100000x1_0),
    StableHlo.TRef.unary main_call6.v8 main_call6.v9 Host.log,
    StableHlo.TRef.unary main_call6.v9 main_call6.v10 (broadcastInDim S100000x41 ![0, 1] bcast_S100000x1_S100000x41_0_1),
    StableHlo.TRef.binary main_call6.v5 main_call6.v10 main_call6.v11 subf ]

set_option maxRecDepth 8192 in
set_option maxHeartbeats 4000000 in
/-- The window is its lists run one after the other: the outlined functions unfolded at their calls, both sides are one
    chain of steps once sequencing is reassociated. -/
theorem main_part2_eq (c : Dev nD) :
    main_part2 (F := F) c = (seq T4b >>= fun _ => seq T5 >>= fun _ => seq T6 : Prog (TpuEff nD τ sig (Elt F) (Pipeline.Sig Λ₀ (Fin 0) fun p => (pcfgs (F := F) p).Adm) .tc) PUnit) := by
  simp only [main_part2, fn_var.body, fn_where.body, fn_relu.body, fn_log_softmax.body, seq, bind_assoc, pure_bind]

/-- Every operation of the list touches TensorCore references only. -/
theorem T4b_sub : (T4b : List (HloOp τ sig (Elt F))).Forall fun op => op.bufs ⊆ tcRefs τ sig :=
  ternary_bufs_sub ..

/-- Every operation of the list determines its results. -/
theorem T4b_fresh : ∀ op ∈ (T4b : List (HloOp τ sig (Elt F))), op.fresh = ∅ := by
  intro _ h; (repeat (cases h with | head => rfl | tail _ h => ?_)); exact nomatch h

/-- Every operation of the list touches TensorCore references only. -/
theorem T5_sub : (T5 : List (HloOp τ sig (Elt F))).Forall fun op => op.bufs ⊆ tcRefs τ sig :=
  ⟨unary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

/-- Every operation of the list determines its results. -/
theorem T5_fresh : ∀ op ∈ (T5 : List (HloOp τ sig (Elt F))), op.fresh = ∅ := by
  intro _ h; (repeat (cases h with | head => rfl | tail _ h => ?_)); exact nomatch h

/-- Every operation of the list touches TensorCore references only. -/
theorem T6_sub : (T6 : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- Every operation of the list determines its results. -/
theorem T6_fresh : ∀ op ∈ (T6 : List (HloOp τ sig (Elt F))), op.fresh = ∅ := by
  intro _ h; (repeat (cases h with | head => rfl | tail _ h => ?_)); exact nomatch h

end Cert.ReferenceIdeal.RefRun

end
-- ==== Proof.LibAfterAppend.lean ====
/-
  The contents after two lines of host operations run one after the other.

  The buffers' contents after a list of operations is a fold: each operation in turn rewrites the buffers it writes. Over a
  list that is one line followed by another, the fold is the second line's fold started from the first line's result. This
  lets a long line be read in stretches, the contents between two stretches named once. It holds over any signature and
  any value type.
-/
import Idealize.ShloMosaic.Lib.StableHlo.Run

noncomputable section

namespace Cert.Lib.AfterAppend

open Idealize.ShloMosaic Idealize.ShloMosaic.StableHlo

variable {τ : Topo} {sig : RefSig} {Val : EltTy → Type}

/-- After `l₁` followed by `l₂`: after `l₂`, from what `l₁` left. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Cert.Lib.AfterAppend

end
-- ==== Proof.RefRun.lean ====
/-
  The reference program as one straight line of host operations, and its run.

  The program's three windows are straight lines of host operations once the outlined functions (the variance with its
  select, the clamp at zero, the log-softmax) are written out at their calls over the calls' own buffers. The whole program is
  the nine lists of the three windows run in order: every weakly fair execution terminates, and each TensorCore buffer ends
  at the fold of the operations' results over the contents at launch.
-/
import proofs.«118564_j3066606649549_2_alg».proof.Proof.RefRunA
import proofs.«118564_j3066606649549_2_alg».proof.Proof.RefRunB
import proofs.«118564_j3066606649549_2_alg».proof.Proof.RefRunC
import proofs.«118564_j3066606649549_2_alg».proof.Proof.LibAfterAppend

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's operations, in order: nine lists, cut where a window ends and where a stage of the network ends. -/
abbrev ops : List (HloOp τ sig (Elt F)) :=
  T0 ++ (T1 ++ (T2a ++ (T2b ++ (T3 ++ (T4a ++ (T4b ++ (T5 ++ (T6))))))))

/-- The program is that straight line: each window is its lists in order, and a line of two lists is the first then the
    second. -/
theorem main_eq (c : Dev nD) : main (F := F) c = seq ops := by
  simp only [main, main_part0_eq, main_part1_eq, main_part2_eq, ops, seq_append, bind_assoc]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  List.forall_append.mpr ⟨T0_sub, List.forall_append.mpr ⟨T1_sub, List.forall_append.mpr ⟨T2a_sub, List.forall_append.mpr ⟨T2b_sub, List.forall_append.mpr ⟨T3_sub, List.forall_append.mpr ⟨T4a_sub, List.forall_append.mpr ⟨T4b_sub, List.forall_append.mpr ⟨T5_sub, T6_sub⟩⟩⟩⟩⟩⟩⟩⟩

/-- Every operation determines its results. -/
theorem ops_fresh : ∀ op ∈ (ops : List (HloOp τ sig (Elt F))), op.fresh = ∅ := by
  intro op h
  simp only [ops, List.mem_append] at h
  rcases h with h | h | h | h | h | h | h | h | h
  · exact T0_fresh op h
  · exact T1_fresh op h
  · exact T2a_fresh op h
  · exact T2b_fresh op h
  · exact T3_fresh op h
  · exact T4a_fresh op h
  · exact T4b_fresh op h
  · exact T5_fresh op h
  · exact T6_fresh op h

/-- The contents after the whole line, read list by list. -/
theorem after_ops (V : Valuation τ sig (Elt F)) :
    after ops V = after T6 (after T5 (after T4b (after T4a (after T3 (after T2b (after T2a (after T1 (after T0 V)))))))) := by
  simp only [ops, Cert.Lib.AfterAppend.after_append]

/-- On every device, for any float values, from any memory with zero counters: every weakly fair execution of the program
    terminates with each TensorCore buffer at the fold of the operations over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.RefRun

end
-- ==== Proof.RefStages.lean ====
/-
  The reference network's stages as functions of arrays.

  The reference computes, in order: a dense product of the node features with the first weight matrix; three times a
  sparse product followed by a hidden layer (add a bias, normalise each row to zero mean and unit variance, scale and
  shift, clamp below at zero, multiply by the next weight matrix); and, after the third normalisation, the product with
  the output matrix, an output bias and a row-wise log-softmax. Each definition below is the composition of the
  array operations the reference applies for that stretch, in the reference's order, over variables for the arrays
  the stretch starts from. The sparse product takes one row of the three edge lists (targets, sources, weights):
  a negative source index is wrapped by the node count, the source rows are gathered, scaled by the edge weight, and
  added into a zero array at the target rows. The variance is computed by a routine of its own that recomputes the
  row mean, divides the sum of squared deviations by 128 minus a correction of zero, and guards the quotient by a
  comparison of that divisor with zero.
-/
import proofs.«118564_j3066606649549_2_alg».proof.ReferenceIdeal
import Idealize.ShloMosaic.PureOps.Ideal

noncomputable section

namespace Cert.ReferenceIdeal.RefStages

open Idealize.ShloMosaic Cert.ReferenceIdeal Cert.ReferenceIdeal.Facts₀

variable [Facts₀]

/-- The dense product of the features with the first weight matrix. -/
def mmT (x : FVec Ideal S100000x602 .f32) (w : FVec Ideal S602x128 .f32) : FVec Ideal S100000x128 .f32 :=
  Host.dotGeneral dot_S100000x602_S602x128_S100000x128_1_0_0_1_n_n none x w

/-- One row of a three-row edge list as a one-axis array. -/
abbrev edgeRow {α : Type} (off : Fin S3x1600000.rank → Nat) (hs : S3x1600000.Slices off S1x1600000)
    (a : S3x1600000.Idx → α) : S1600000.Idx → α :=
  shapeCast S1600000 (extractStridedSlice S1x1600000 off a hs) shapeCasts_S1x1600000_S1600000

/-- The sparse product with the edges of one row of the edge lists: wrap the source indices, gather those rows of
    the node array, scale each by its edge weight, and add them into zeros at the target rows. -/
abbrev spmmAt (off : Fin S3x1600000.rank → Nat) (hs : S3x1600000.Slices off S1x1600000)
    (rows cols : IVec S3x1600000 32) (vals : FVec Ideal S3x1600000 .f32) (h : FVec Ideal S100000x128 .f32) :
    FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 (edgeRow off hs rows))
    (mulf
      (broadcastInDim S1600000x128 ![0, 1] bcast_S1600000x1_S1600000x128_0_1
        (broadcastInDim S1600000x1 ![0] bcast_S1600000_S1600000x1_0 (edgeRow off hs vals)))
      (Host.gather gather_S100000x128_S1600000x1_S1600000x128_1_0_n_n_0_1_1128 h
        (broadcastInDim S1600000x1 ![0] bcast_S1600000_S1600000x1_0
          (select
            (cmpi .slt (edgeRow off hs cols) (broadcastInDim S1600000 ![] bcast_S_S1600000 (constantI S_ 32 0#32)))
            (addi (edgeRow off hs cols) (broadcastInDim S1600000 ![] bcast_S_S1600000 (constantI S_ 32 100000#32)))
            (edgeRow off hs cols)))))

/-- The three sparse products, one per row of the edge lists. -/
def spmm0 (rows cols : IVec S3x1600000 32) (vals : FVec Ideal S3x1600000 .f32) (h : FVec Ideal S100000x128 .f32) :
    FVec Ideal S100000x128 .f32 :=
  spmmAt ![0, 0] slices_S3x1600000_S1x1600000_0_0 rows cols vals h

def spmm1 (rows cols : IVec S3x1600000 32) (vals : FVec Ideal S3x1600000 .f32) (h : FVec Ideal S100000x128 .f32) :
    FVec Ideal S100000x128 .f32 :=
  spmmAt ![1, 0] slices_S3x1600000_S1x1600000_1_0 rows cols vals h

def spmm2 (rows cols : IVec S3x1600000 32) (vals : FVec Ideal S3x1600000 .f32) (h : FVec Ideal S100000x128 .f32) :
    FVec Ideal S100000x128 .f32 :=
  spmmAt ![2, 0] slices_S3x1600000_S1x1600000_2_0 rows cols vals h

/-- A vector of 128 entries repeated along every row. -/
abbrev rowsOf (v : FVec Ideal S128 .f32) : FVec Ideal S100000x128 .f32 :=
  broadcastInDim S100000x128 ![0, 1] bcast_S1x128_S100000x128_0_1 (broadcastInDim S1x128 ![1] bcast_S128_S1x128_1 v)

/-- One value per row repeated along the row. -/
abbrev alongRow (c : FVec Ideal S100000x1 .f32) : FVec Ideal S100000x128 .f32 :=
  broadcastInDim S100000x128 ![0, 1] bcast_S100000x1_S100000x128_0_1 c

/-- A float word as a column with one entry per row. -/
abbrev colOf (b : BitVec 32) : FVec Ideal S100000x1 .f32 :=
  broadcastInDim S100000x1 ![] bcast_S_S100000x1 (constant (F := Ideal) S_ .f32 b)

/-- The sum of each row, kept as a column. -/
abbrev rowSum (t : FVec Ideal S100000x128 .f32) : FVec Ideal S100000x1 .f32 :=
  broadcastInDim S100000x1 ![0] bcast_S100000_S100000x1_0
    (Host.reduceAdd (F := Ideal) t (constant (F := Ideal) S_ .f32 0x00000000#32) reducesTo_S100000x128_S100000_d1 h_S_)

/-- The mean of each row: its sum divided by 128. -/
abbrev meanT (t : FVec Ideal S100000x128 .f32) : FVec Ideal S100000x1 .f32 :=
  Host.divf (rowSum t) (colOf 0x43000000#32)

/-- The divisor of the variance: 128 minus the correction, an integer zero read as a float. -/
abbrev varDen : FVec Ideal S_ .f32 :=
  subf (constant (F := Ideal) S_ .f32 0x43000000#32) (sitofp (F := Ideal) .f32 (constantI S_ 32 0#32))

/-- The variance of each row as its routine computes it: the mean again, the squared deviations summed and divided
    by the divisor, kept where the divisor is positive and replaced by the not-a-number word elsewhere. -/
abbrev varT (t : FVec Ideal S100000x128 .f32) : FVec Ideal S100000x1 .f32 :=
  select
    (broadcastInDim S100000x1 ![] bcast_S_S100000x1
      (cmpf .ogt varDen (constant (F := Ideal) S_ .f32 0x00000000#32)))
    (Host.divf
      (rowSum (mulf (subf t (alongRow (meanT t))) (subf t (alongRow (meanT t)))))
      (broadcastInDim S100000x1 ![] bcast_S_S100000x1 varDen))
    (broadcastInDim S100000x1 ![] bcast_S_S100000x1 (id (constant (F := Ideal) S_ .f32 0x7FC00000#32)))

/-- The clamp below at zero. -/
abbrev reluT (t : FVec Ideal S100000x128 .f32) : FVec Ideal S100000x128 .f32 :=
  maximumf t (broadcastInDim S100000x128 ![] bcast_S_S100000x128 (constant (F := Ideal) S_ .f32 0x00000000#32))

/-- Bias, normalisation of each row, gain and offset, clamp. -/
def lnReluT (h : FVec Ideal S100000x128 .f32) (bias g bb : FVec Ideal S128 .f32) : FVec Ideal S100000x128 .f32 :=
  reluT
    (addf
      (mulf
        (mulf
          (subf (addf h (rowsOf bias)) (alongRow (meanT (addf h (rowsOf bias)))))
          (alongRow (Host.rsqrt (addf (varT (addf h (rowsOf bias))) (colOf 0x3727C5AC#32)))))
        (rowsOf g))
      (rowsOf bb))

/-- A hidden layer: the normalisation and clamp, then the next weight matrix. -/
def layerT (h : FVec Ideal S100000x128 .f32) (bias g bb : FVec Ideal S128 .f32) (W : FVec Ideal S128x128 .f32) :
    FVec Ideal S100000x128 .f32 :=
  Host.dotGeneral dot_S100000x128_S128x128_S100000x128_1_0_0_1_n_n none (lnReluT h bias g bb) W

/-- One value per row repeated along a row of 41 scores. -/
abbrev alongRow41 (c : FVec Ideal S100000x1 .f32) : FVec Ideal S100000x41 .f32 :=
  broadcastInDim S100000x41 ![0, 1] bcast_S100000x1_S100000x41_0_1 c

/-- The scores of a row minus the row's largest score. -/
abbrev shiftedT (z : FVec Ideal S100000x41 .f32) : FVec Ideal S100000x41 .f32 :=
  subf z
    (alongRow41
      (broadcastInDim S100000x1 ![0] bcast_S100000_S100000x1_0
        (maximumf
          (broadcastInDim S100000 ![] bcast_S_S100000 (constant (F := Ideal) S_ .f32 0xFF800000#32))
          (Host.reduce FloatOps.maximumf z (constant (F := Ideal) S_ .f32 0xFF800000#32)
            reducesTo_S100000x41_S100000_d1 h_S_))))

/-- The log-softmax of each row of 41 scores. -/
abbrev logSoftmaxT (z : FVec Ideal S100000x41 .f32) : FVec Ideal S100000x41 .f32 :=
  subf (shiftedT z)
    (alongRow41
      (Host.log
        (broadcastInDim S100000x1 ![0] bcast_S100000_S100000x1_0
          (Host.reduceAdd (F := Ideal) (Host.exp (shiftedT z)) (constant (F := Ideal) S_ .f32 0x00000000#32)
            reducesTo_S100000x41_S100000_d1 h_S_))))

/-- The output head: the last normalisation and clamp, the output matrix and bias, the log-softmax. -/
def headT (h : FVec Ideal S100000x128 .f32) (bias g bb : FVec Ideal S128 .f32) (W : FVec Ideal S128x41 .f32)
    (bout : FVec Ideal S41 .f32) : FVec Ideal S100000x41 .f32 :=
  logSoftmaxT
    (addf
      (Host.dotGeneral dot_S100000x128_S128x41_S100000x41_1_0_0_1_n_n none (lnReluT h bias g bb) W)
      (broadcastInDim S100000x41 ![0, 1] bcast_S1x41_S100000x41_0_1
        (broadcastInDim S1x41 ![1] bcast_S41_S1x41_1 bout)))

/-- The whole reference network. -/
def netT (arg0 : FVec Ideal S100000x602 .f32) (arg1 arg2 : IVec S3x1600000 32) (arg3 : FVec Ideal S3x1600000 .f32)
    (arg4 : FVec Ideal S602x128 .f32) (arg5 : FVec Ideal S128 .f32) (arg6 : FVec Ideal S128x128 .f32)
    (arg7 : FVec Ideal S128 .f32) (arg8 : FVec Ideal S128x128 .f32) (arg9 arg10 arg11 : FVec Ideal S128 .f32)
    (arg12 : FVec Ideal S128x41 .f32) (arg13 : FVec Ideal S41 .f32) : FVec Ideal S100000x41 .f32 :=
  headT
    (spmm2 arg1 arg2 arg3
      (layerT
        (spmm1 arg1 arg2 arg3
          (layerT (spmm0 arg1 arg2 arg3 (mmT arg0 arg4)) arg5 arg10 arg11 arg6))
        arg7 arg10 arg11 arg8))
    arg9 arg10 arg11 arg12 arg13

end Cert.ReferenceIdeal.RefStages

end
-- ==== Proof.RefValueA.lean ====
/-
  What the first window's lists leave in their result buffers, as the network's stages of the contents they start from, and
  that no list of the window writes an argument.
-/
import proofs.«118564_j3066606649549_2_alg».proof.Proof.RefRunA
import proofs.«118564_j3066606649549_2_alg».proof.Proof.RefStages

noncomputable section

namespace Cert.ReferenceIdeal.RefValue

open Cert.ReferenceIdeal Cert.ReferenceIdeal.Gen Idealize.ShloMosaic Idealize.ShloMosaic.TcCoe Idealize.SL.Sem Idealize.ShloMosaic.StableHlo Cert.ReferenceIdeal.RefRun

-- sums, reductions, gathers and scatter-adds are carried as whole operations: the equations below hold for any such operations
attribute [local irreducible] Host.reduceAdd Host.reduce Host.gather Host.scatterAdd

/-- The list's result: the first aggregation of the input's product with the first weight. -/
theorem T0_value (W : Valuation τ sig (Elt Ideal)) :
    after (T0 (F := Ideal)) W (Proc.devRef .tc main_v19)
      = RefStages.spmm0 (W (Proc.devRef .tc main_arg1)) (W (Proc.devRef .tc main_arg2)) (W (Proc.devRef .tc main_arg3))
          (RefStages.mmT (W (Proc.devRef .tc main_arg0)) (W (Proc.devRef .tc main_arg4))) := by
  after_results_simp
  rfl

/-- The list's result: the normalisation and clamp of its input array with the bias, gain and offset vectors. -/
theorem T1_value (W : Valuation τ sig (Elt Ideal)) :
    after (T1 (F := Ideal)) W (Proc.devRef .tc main_v41)
      = RefStages.lnReluT (W (Proc.devRef .tc main_v19)) (W (Proc.devRef .tc main_arg5)) (W (Proc.devRef .tc main_arg10)) (W (Proc.devRef .tc main_arg11)) := by
  after_results_simp
  rfl

/-! No list writes an argument. -/

theorem T0_arg0 (W : Valuation τ sig (Elt Ideal)) :
    after (T0 (F := Ideal)) W (Proc.devRef .tc main_arg0) = W (Proc.devRef .tc main_arg0) := by
  after_results_simp

theorem T0_arg1 (W : Valuation τ sig (Elt Ideal)) :
    after (T0 (F := Ideal)) W (Proc.devRef .tc main_arg1) = W (Proc.devRef .tc main_arg1) := by
  after_results_simp

theorem T0_arg2 (W : Valuation τ sig (Elt Ideal)) :
    after (T0 (F := Ideal)) W (Proc.devRef .tc main_arg2) = W (Proc.devRef .tc main_arg2) := by
  after_results_simp

theorem T0_arg3 (W : Valuation τ sig (Elt Ideal)) :
    after (T0 (F := Ideal)) W (Proc.devRef .tc main_arg3) = W (Proc.devRef .tc main_arg3) := by
  after_results_simp

theorem T0_arg4 (W : Valuation τ sig (Elt Ideal)) :
    after (T0 (F := Ideal)) W (Proc.devRef .tc main_arg4) = W (Proc.devRef .tc main_arg4) := by
  after_results_simp

theorem T0_arg5 (W : Valuation τ sig (Elt Ideal)) :
    after (T0 (F := Ideal)) W (Proc.devRef .tc main_arg5) = W (Proc.devRef .tc main_arg5) := by
  after_results_simp

theorem T0_arg6 (W : Valuation τ sig (Elt Ideal)) :
    after (T0 (F := Ideal)) W (Proc.devRef .tc main_arg6) = W (Proc.devRef .tc main_arg6) := by
  after_results_simp

theorem T0_arg7 (W : Valuation τ sig (Elt Ideal)) :
    after (T0 (F := Ideal)) W (Proc.devRef .tc main_arg7) = W (Proc.devRef .tc main_arg7) := by
  after_results_simp

theorem T0_arg8 (W : Valuation τ sig (Elt Ideal)) :
    after (T0 (F := Ideal)) W (Proc.devRef .tc main_arg8) = W (Proc.devRef .tc main_arg8) := by
  after_results_simp

theorem T0_arg9 (W : Valuation τ sig (Elt Ideal)) :
    after (T0 (F := Ideal)) W (Proc.devRef .tc main_arg9) = W (Proc.devRef .tc main_arg9) := by
  after_results_simp

theorem T0_arg10 (W : Valuation τ sig (Elt Ideal)) :
    after (T0 (F := Ideal)) W (Proc.devRef .tc main_arg10) = W (Proc.devRef .tc main_arg10) := by
  after_results_simp

theorem T0_arg11 (W : Valuation τ sig (Elt Ideal)) :
    after (T0 (F := Ideal)) W (Proc.devRef .tc main_arg11) = W (Proc.devRef .tc main_arg11) := by
  after_results_simp

theorem T0_arg12 (W : Valuation τ sig (Elt Ideal)) :
    after (T0 (F := Ideal)) W (Proc.devRef .tc main_arg12) = W (Proc.devRef .tc main_arg12) := by
  after_results_simp

theorem T0_arg13 (W : Valuation τ sig (Elt Ideal)) :
    after (T0 (F := Ideal)) W (Proc.devRef .tc main_arg13) = W (Proc.devRef .tc main_arg13) := by
  after_results_simp

theorem T1_arg0 (W : Valuation τ sig (Elt Ideal)) :
    after (T1 (F := Ideal)) W (Proc.devRef .tc main_arg0) = W (Proc.devRef .tc main_arg0) := by
  after_results_simp

theorem T1_arg1 (W : Valuation τ sig (Elt Ideal)) :
    after (T1 (F := Ideal)) W (Proc.devRef .tc main_arg1) = W (Proc.devRef .tc main_arg1) := by
  after_results_simp

theorem T1_arg2 (W : Valuation τ sig (Elt Ideal)) :
    after (T1 (F := Ideal)) W (Proc.devRef .tc main_arg2) = W (Proc.devRef .tc main_arg2) := by
  after_results_simp

theorem T1_arg3 (W : Valuation τ sig (Elt Ideal)) :
    after (T1 (F := Ideal)) W (Proc.devRef .tc main_arg3) = W (Proc.devRef .tc main_arg3) := by
  after_results_simp

theorem T1_arg4 (W : Valuation τ sig (Elt Ideal)) :
    after (T1 (F := Ideal)) W (Proc.devRef .tc main_arg4) = W (Proc.devRef .tc main_arg4) := by
  after_results_simp

theorem T1_arg5 (W : Valuation τ sig (Elt Ideal)) :
    after (T1 (F := Ideal)) W (Proc.devRef .tc main_arg5) = W (Proc.devRef .tc main_arg5) := by
  after_results_simp

theorem T1_arg6 (W : Valuation τ sig (Elt Ideal)) :
    after (T1 (F := Ideal)) W (Proc.devRef .tc main_arg6) = W (Proc.devRef .tc main_arg6) := by
  after_results_simp

theorem T1_arg7 (W : Valuation τ sig (Elt Ideal)) :
    after (T1 (F := Ideal)) W (Proc.devRef .tc main_arg7) = W (Proc.devRef .tc main_arg7) := by
  after_results_simp

theorem T1_arg8 (W : Valuation τ sig (Elt Ideal)) :
    after (T1 (F := Ideal)) W (Proc.devRef .tc main_arg8) = W (Proc.devRef .tc main_arg8) := by
  after_results_simp

theorem T1_arg9 (W : Valuation τ sig (Elt Ideal)) :
    after (T1 (F := Ideal)) W (Proc.devRef .tc main_arg9) = W (Proc.devRef .tc main_arg9) := by
  after_results_simp

theorem T1_arg10 (W : Valuation τ sig (Elt Ideal)) :
    after (T1 (F := Ideal)) W (Proc.devRef .tc main_arg10) = W (Proc.devRef .tc main_arg10) := by
  after_results_simp

theorem T1_arg11 (W : Valuation τ sig (Elt Ideal)) :
    after (T1 (F := Ideal)) W (Proc.devRef .tc main_arg11) = W (Proc.devRef .tc main_arg11) := by
  after_results_simp

theorem T1_arg12 (W : Valuation τ sig (Elt Ideal)) :
    after (T1 (F := Ideal)) W (Proc.devRef .tc main_arg12) = W (Proc.devRef .tc main_arg12) := by
  after_results_simp

theorem T1_arg13 (W : Valuation τ sig (Elt Ideal)) :
    after (T1 (F := Ideal)) W (Proc.devRef .tc main_arg13) = W (Proc.devRef .tc main_arg13) := by
  after_results_simp

theorem T2a_arg0 (W : Valuation τ sig (Elt Ideal)) :
    after (T2a (F := Ideal)) W (Proc.devRef .tc main_arg0) = W (Proc.devRef .tc main_arg0) := by
  after_results_simp

theorem T2a_arg1 (W : Valuation τ sig (Elt Ideal)) :
    after (T2a (F := Ideal)) W (Proc.devRef .tc main_arg1) = W (Proc.devRef .tc main_arg1) := by
  after_results_simp

theorem T2a_arg2 (W : Valuation τ sig (Elt Ideal)) :
    after (T2a (F := Ideal)) W (Proc.devRef .tc main_arg2) = W (Proc.devRef .tc main_arg2) := by
  after_results_simp

theorem T2a_arg3 (W : Valuation τ sig (Elt Ideal)) :
    after (T2a (F := Ideal)) W (Proc.devRef .tc main_arg3) = W (Proc.devRef .tc main_arg3) := by
  after_results_simp

theorem T2a_arg4 (W : Valuation τ sig (Elt Ideal)) :
    after (T2a (F := Ideal)) W (Proc.devRef .tc main_arg4) = W (Proc.devRef .tc main_arg4) := by
  after_results_simp

theorem T2a_arg5 (W : Valuation τ sig (Elt Ideal)) :
    after (T2a (F := Ideal)) W (Proc.devRef .tc main_arg5) = W (Proc.devRef .tc main_arg5) := by
  after_results_simp

theorem T2a_arg6 (W : Valuation τ sig (Elt Ideal)) :
    after (T2a (F := Ideal)) W (Proc.devRef .tc main_arg6) = W (Proc.devRef .tc main_arg6) := by
  after_results_simp

theorem T2a_arg7 (W : Valuation τ sig (Elt Ideal)) :
    after (T2a (F := Ideal)) W (Proc.devRef .tc main_arg7) = W (Proc.devRef .tc main_arg7) := by
  after_results_simp

theorem T2a_arg8 (W : Valuation τ sig (Elt Ideal)) :
    after (T2a (F := Ideal)) W (Proc.devRef .tc main_arg8) = W (Proc.devRef .tc main_arg8) := by
  after_results_simp

theorem T2a_arg9 (W : Valuation τ sig (Elt Ideal)) :
    after (T2a (F := Ideal)) W (Proc.devRef .tc main_arg9) = W (Proc.devRef .tc main_arg9) := by
  after_results_simp

theorem T2a_arg10 (W : Valuation τ sig (Elt Ideal)) :
    after (T2a (F := Ideal)) W (Proc.devRef .tc main_arg10) = W (Proc.devRef .tc main_arg10) := by
  after_results_simp

theorem T2a_arg11 (W : Valuation τ sig (Elt Ideal)) :
    after (T2a (F := Ideal)) W (Proc.devRef .tc main_arg11) = W (Proc.devRef .tc main_arg11) := by
  after_results_simp

theorem T2a_arg12 (W : Valuation τ sig (Elt Ideal)) :
    after (T2a (F := Ideal)) W (Proc.devRef .tc main_arg12) = W (Proc.devRef .tc main_arg12) := by
  after_results_simp

theorem T2a_arg13 (W : Valuation τ sig (Elt Ideal)) :
    after (T2a (F := Ideal)) W (Proc.devRef .tc main_arg13) = W (Proc.devRef .tc main_arg13) := by
  after_results_simp

end Cert.ReferenceIdeal.RefValue

end
-- ==== Proof.RefValueB.lean ====
/-
  What the second window's lists leave in their result buffers, as the network's stages of the contents they start from, and
  that no list of the window writes an argument. The second aggregation starts in the first window (the second row of the edge
  tables and the product with the second weight) and ends in the second: it is read over the two lists together.
-/
import proofs.«118564_j3066606649549_2_alg».proof.Proof.RefRunA
import proofs.«118564_j3066606649549_2_alg».proof.Proof.RefRunB
import proofs.«118564_j3066606649549_2_alg».proof.Proof.RefStages

noncomputable section

namespace Cert.ReferenceIdeal.RefValue

open Cert.ReferenceIdeal Cert.ReferenceIdeal.Gen Idealize.ShloMosaic Idealize.ShloMosaic.TcCoe Idealize.SL.Sem Idealize.ShloMosaic.StableHlo Cert.ReferenceIdeal.RefRun

-- sums, reductions, gathers and scatter-adds are carried as whole operations: the equations below hold for any such operations
attribute [local irreducible] Host.reduceAdd Host.reduce Host.gather Host.scatterAdd

/-- The second aggregation, of the first layer's output times the second weight. -/
theorem T2_value (W : Valuation τ sig (Elt Ideal)) :
    after (T2b (F := Ideal)) (after (T2a (F := Ideal)) W) (Proc.devRef .tc main_v61)
      = RefStages.spmm1 (W (Proc.devRef .tc main_arg1)) (W (Proc.devRef .tc main_arg2)) (W (Proc.devRef .tc main_arg3))
          (Host.dotGeneral (φ₁ := .f32) (φ₂ := .f32) dot_S100000x128_S128x128_S100000x128_1_0_0_1_n_n none (W (Proc.devRef .tc main_v41)) (W (Proc.devRef .tc main_arg6))) := by
  after_results_simp
  rfl

/-- The list's result: the normalisation and clamp of its input array with the bias, gain and offset vectors. -/
theorem T3_value (W : Valuation τ sig (Elt Ideal)) :
    after (T3 (F := Ideal)) W (Proc.devRef .tc main_v83)
      = RefStages.lnReluT (W (Proc.devRef .tc main_v61)) (W (Proc.devRef .tc main_arg7)) (W (Proc.devRef .tc main_arg10)) (W (Proc.devRef .tc main_arg11)) := by
  after_results_simp
  rfl

/-! No list writes an argument. -/

theorem T2b_arg0 (W : Valuation τ sig (Elt Ideal)) :
    after (T2b (F := Ideal)) W (Proc.devRef .tc main_arg0) = W (Proc.devRef .tc main_arg0) := by
  after_results_simp

theorem T2b_arg1 (W : Valuation τ sig (Elt Ideal)) :
    after (T2b (F := Ideal)) W (Proc.devRef .tc main_arg1) = W (Proc.devRef .tc main_arg1) := by
  after_results_simp

theorem T2b_arg2 (W : Valuation τ sig (Elt Ideal)) :
    after (T2b (F := Ideal)) W (Proc.devRef .tc main_arg2) = W (Proc.devRef .tc main_arg2) := by
  after_results_simp

theorem T2b_arg3 (W : Valuation τ sig (Elt Ideal)) :
    after (T2b (F := Ideal)) W (Proc.devRef .tc main_arg3) = W (Proc.devRef .tc main_arg3) := by
  after_results_simp

theorem T2b_arg4 (W : Valuation τ sig (Elt Ideal)) :
    after (T2b (F := Ideal)) W (Proc.devRef .tc main_arg4) = W (Proc.devRef .tc main_arg4) := by
  after_results_simp

theorem T2b_arg5 (W : Valuation τ sig (Elt Ideal)) :
    after (T2b (F := Ideal)) W (Proc.devRef .tc main_arg5) = W (Proc.devRef .tc main_arg5) := by
  after_results_simp

theorem T2b_arg6 (W : Valuation τ sig (Elt Ideal)) :
    after (T2b (F := Ideal)) W (Proc.devRef .tc main_arg6) = W (Proc.devRef .tc main_arg6) := by
  after_results_simp

theorem T2b_arg7 (W : Valuation τ sig (Elt Ideal)) :
    after (T2b (F := Ideal)) W (Proc.devRef .tc main_arg7) = W (Proc.devRef .tc main_arg7) := by
  after_results_simp

theorem T2b_arg8 (W : Valuation τ sig (Elt Ideal)) :
    after (T2b (F := Ideal)) W (Proc.devRef .tc main_arg8) = W (Proc.devRef .tc main_arg8) := by
  after_results_simp

theorem T2b_arg9 (W : Valuation τ sig (Elt Ideal)) :
    after (T2b (F := Ideal)) W (Proc.devRef .tc main_arg9) = W (Proc.devRef .tc main_arg9) := by
  after_results_simp

theorem T2b_arg10 (W : Valuation τ sig (Elt Ideal)) :
    after (T2b (F := Ideal)) W (Proc.devRef .tc main_arg10) = W (Proc.devRef .tc main_arg10) := by
  after_results_simp

theorem T2b_arg11 (W : Valuation τ sig (Elt Ideal)) :
    after (T2b (F := Ideal)) W (Proc.devRef .tc main_arg11) = W (Proc.devRef .tc main_arg11) := by
  after_results_simp

theorem T2b_arg12 (W : Valuation τ sig (Elt Ideal)) :
    after (T2b (F := Ideal)) W (Proc.devRef .tc main_arg12) = W (Proc.devRef .tc main_arg12) := by
  after_results_simp

theorem T2b_arg13 (W : Valuation τ sig (Elt Ideal)) :
    after (T2b (F := Ideal)) W (Proc.devRef .tc main_arg13) = W (Proc.devRef .tc main_arg13) := by
  after_results_simp

theorem T3_arg0 (W : Valuation τ sig (Elt Ideal)) :
    after (T3 (F := Ideal)) W (Proc.devRef .tc main_arg0) = W (Proc.devRef .tc main_arg0) := by
  after_results_simp

theorem T3_arg1 (W : Valuation τ sig (Elt Ideal)) :
    after (T3 (F := Ideal)) W (Proc.devRef .tc main_arg1) = W (Proc.devRef .tc main_arg1) := by
  after_results_simp

theorem T3_arg2 (W : Valuation τ sig (Elt Ideal)) :
    after (T3 (F := Ideal)) W (Proc.devRef .tc main_arg2) = W (Proc.devRef .tc main_arg2) := by
  after_results_simp

theorem T3_arg3 (W : Valuation τ sig (Elt Ideal)) :
    after (T3 (F := Ideal)) W (Proc.devRef .tc main_arg3) = W (Proc.devRef .tc main_arg3) := by
  after_results_simp

theorem T3_arg4 (W : Valuation τ sig (Elt Ideal)) :
    after (T3 (F := Ideal)) W (Proc.devRef .tc main_arg4) = W (Proc.devRef .tc main_arg4) := by
  after_results_simp

theorem T3_arg5 (W : Valuation τ sig (Elt Ideal)) :
    after (T3 (F := Ideal)) W (Proc.devRef .tc main_arg5) = W (Proc.devRef .tc main_arg5) := by
  after_results_simp

theorem T3_arg6 (W : Valuation τ sig (Elt Ideal)) :
    after (T3 (F := Ideal)) W (Proc.devRef .tc main_arg6) = W (Proc.devRef .tc main_arg6) := by
  after_results_simp

theorem T3_arg7 (W : Valuation τ sig (Elt Ideal)) :
    after (T3 (F := Ideal)) W (Proc.devRef .tc main_arg7) = W (Proc.devRef .tc main_arg7) := by
  after_results_simp

theorem T3_arg8 (W : Valuation τ sig (Elt Ideal)) :
    after (T3 (F := Ideal)) W (Proc.devRef .tc main_arg8) = W (Proc.devRef .tc main_arg8) := by
  after_results_simp

theorem T3_arg9 (W : Valuation τ sig (Elt Ideal)) :
    after (T3 (F := Ideal)) W (Proc.devRef .tc main_arg9) = W (Proc.devRef .tc main_arg9) := by
  after_results_simp

theorem T3_arg10 (W : Valuation τ sig (Elt Ideal)) :
    after (T3 (F := Ideal)) W (Proc.devRef .tc main_arg10) = W (Proc.devRef .tc main_arg10) := by
  after_results_simp

theorem T3_arg11 (W : Valuation τ sig (Elt Ideal)) :
    after (T3 (F := Ideal)) W (Proc.devRef .tc main_arg11) = W (Proc.devRef .tc main_arg11) := by
  after_results_simp

theorem T3_arg12 (W : Valuation τ sig (Elt Ideal)) :
    after (T3 (F := Ideal)) W (Proc.devRef .tc main_arg12) = W (Proc.devRef .tc main_arg12) := by
  after_results_simp

theorem T3_arg13 (W : Valuation τ sig (Elt Ideal)) :
    after (T3 (F := Ideal)) W (Proc.devRef .tc main_arg13) = W (Proc.devRef .tc main_arg13) := by
  after_results_simp

theorem T4a_arg0 (W : Valuation τ sig (Elt Ideal)) :
    after (T4a (F := Ideal)) W (Proc.devRef .tc main_arg0) = W (Proc.devRef .tc main_arg0) := by
  after_results_simp

theorem T4a_arg1 (W : Valuation τ sig (Elt Ideal)) :
    after (T4a (F := Ideal)) W (Proc.devRef .tc main_arg1) = W (Proc.devRef .tc main_arg1) := by
  after_results_simp

theorem T4a_arg2 (W : Valuation τ sig (Elt Ideal)) :
    after (T4a (F := Ideal)) W (Proc.devRef .tc main_arg2) = W (Proc.devRef .tc main_arg2) := by
  after_results_simp

theorem T4a_arg3 (W : Valuation τ sig (Elt Ideal)) :
    after (T4a (F := Ideal)) W (Proc.devRef .tc main_arg3) = W (Proc.devRef .tc main_arg3) := by
  after_results_simp

theorem T4a_arg4 (W : Valuation τ sig (Elt Ideal)) :
    after (T4a (F := Ideal)) W (Proc.devRef .tc main_arg4) = W (Proc.devRef .tc main_arg4) := by
  after_results_simp

theorem T4a_arg5 (W : Valuation τ sig (Elt Ideal)) :
    after (T4a (F := Ideal)) W (Proc.devRef .tc main_arg5) = W (Proc.devRef .tc main_arg5) := by
  after_results_simp

theorem T4a_arg6 (W : Valuation τ sig (Elt Ideal)) :
    after (T4a (F := Ideal)) W (Proc.devRef .tc main_arg6) = W (Proc.devRef .tc main_arg6) := by
  after_results_simp

theorem T4a_arg7 (W : Valuation τ sig (Elt Ideal)) :
    after (T4a (F := Ideal)) W (Proc.devRef .tc main_arg7) = W (Proc.devRef .tc main_arg7) := by
  after_results_simp

theorem T4a_arg8 (W : Valuation τ sig (Elt Ideal)) :
    after (T4a (F := Ideal)) W (Proc.devRef .tc main_arg8) = W (Proc.devRef .tc main_arg8) := by
  after_results_simp

theorem T4a_arg9 (W : Valuation τ sig (Elt Ideal)) :
    after (T4a (F := Ideal)) W (Proc.devRef .tc main_arg9) = W (Proc.devRef .tc main_arg9) := by
  after_results_simp

theorem T4a_arg10 (W : Valuation τ sig (Elt Ideal)) :
    after (T4a (F := Ideal)) W (Proc.devRef .tc main_arg10) = W (Proc.devRef .tc main_arg10) := by
  after_results_simp

theorem T4a_arg11 (W : Valuation τ sig (Elt Ideal)) :
    after (T4a (F := Ideal)) W (Proc.devRef .tc main_arg11) = W (Proc.devRef .tc main_arg11) := by
  after_results_simp

theorem T4a_arg12 (W : Valuation τ sig (Elt Ideal)) :
    after (T4a (F := Ideal)) W (Proc.devRef .tc main_arg12) = W (Proc.devRef .tc main_arg12) := by
  after_results_simp

theorem T4a_arg13 (W : Valuation τ sig (Elt Ideal)) :
    after (T4a (F := Ideal)) W (Proc.devRef .tc main_arg13) = W (Proc.devRef .tc main_arg13) := by
  after_results_simp

end Cert.ReferenceIdeal.RefValue

end
-- ==== Proof.RefValueC.lean ====
/-
  What the third window's lists leave in their result buffers, as the network's stages of the contents they start from, and
  that no list of the window writes an argument. The third aggregation starts in the second window and ends with the third
  window's first operation: it is read over the two lists together.
-/
import proofs.«118564_j3066606649549_2_alg».proof.Proof.RefRunB
import proofs.«118564_j3066606649549_2_alg».proof.Proof.RefRunC
import proofs.«118564_j3066606649549_2_alg».proof.Proof.RefStages

noncomputable section

namespace Cert.ReferenceIdeal.RefValue

open Cert.ReferenceIdeal Cert.ReferenceIdeal.Gen Idealize.ShloMosaic Idealize.ShloMosaic.TcCoe Idealize.SL.Sem Idealize.ShloMosaic.StableHlo Cert.ReferenceIdeal.RefRun

-- sums, reductions, gathers and scatter-adds are carried as whole operations: the equations below hold for any such operations
attribute [local irreducible] Host.reduceAdd Host.reduce Host.gather Host.scatterAdd

/-- The third aggregation, of the second layer's output times the third weight. -/
theorem T4_value (W : Valuation τ sig (Elt Ideal)) :
    after (T4b (F := Ideal)) (after (T4a (F := Ideal)) W) (Proc.devRef .tc main_v103)
      = RefStages.spmm2 (W (Proc.devRef .tc main_arg1)) (W (Proc.devRef .tc main_arg2)) (W (Proc.devRef .tc main_arg3))
          (Host.dotGeneral (φ₁ := .f32) (φ₂ := .f32) dot_S100000x128_S128x128_S100000x128_1_0_0_1_n_n none (W (Proc.devRef .tc main_v83)) (W (Proc.devRef .tc main_arg8))) := by
  after_results_simp
  rfl

/-- The list's result: the normalisation and clamp of its input array with the bias, gain and offset vectors. -/
theorem T5_value (W : Valuation τ sig (Elt Ideal)) :
    after (T5 (F := Ideal)) W (Proc.devRef .tc main_v125)
      = RefStages.lnReluT (W (Proc.devRef .tc main_v103)) (W (Proc.devRef .tc main_arg9)) (W (Proc.devRef .tc main_arg10)) (W (Proc.devRef .tc main_arg11)) := by
  after_results_simp
  rfl

/-- Contents moved to a typed reference's buffer and back are the contents: the two moves are transports along an equation of
    types and along its inverse. -/
theorem ofBuf_toBuf {sig : RefSig} {T : BufTy} {Val : EltTy → Type} (x : TRef sig T) (v : T.Contents Val) :
    x.ofBuf (x.toBuf v) = v := by
  cases x with | mk r h a b => cases h; rfl

/-- At the head's input buffer, whose type is the type the log-softmax takes, the move from the buffer is the identity. -/
theorem ofBuf_v129 (X : (⟨S100000x41, .f32⟩ : BufTy).Contents (Elt Ideal)) (p q r) :
    (TRef.of (sig := sig) (T := ⟨S100000x41, .f32⟩) main_v129 p q r).ofBuf X = X := rfl

/-- At the output buffer, whose type is the type the log-softmax returns, the move to the buffer is the identity. -/
theorem toBuf_v130 (X : (⟨S100000x41, .f32⟩ : BufTy).Contents (Elt Ideal)) (p q r) :
    (TRef.of (sig := sig) (T := ⟨S100000x41, .f32⟩) main_v130 p q r).toBuf X = X := rfl

/-- The head's result: the log-softmax of the last layer's output times the output weight plus the output bias. The
    log-softmax's operations are stated over typed references; between two of them a value goes to a buffer and back, at
    the two ends the buffer's type is the value's. -/
theorem T6_value (W : Valuation τ sig (Elt Ideal)) :
    after (T6 (F := Ideal)) W (Proc.devRef .tc main_v130)
      = RefStages.logSoftmaxT
          (addf (Host.dotGeneral (φ₁ := .f32) (φ₂ := .f32) dot_S100000x128_S128x41_S100000x41_1_0_0_1_n_n none (W (Proc.devRef .tc main_v125)) (W (Proc.devRef .tc main_arg12)))
            (broadcastInDim S100000x41 ![0, 1] bcast_S1x41_S100000x41_0_1
              (broadcastInDim S1x41 ![1] bcast_S41_S1x41_1 (W (Proc.devRef .tc main_arg13))))) := by
  after_results_simp
  simp only [ofBuf_toBuf, ofBuf_v129, toBuf_v130]

/-! No list writes an argument. -/

theorem T4b_arg0 (W : Valuation τ sig (Elt Ideal)) :
    after (T4b (F := Ideal)) W (Proc.devRef .tc main_arg0) = W (Proc.devRef .tc main_arg0) := by
  after_results_simp

theorem T4b_arg1 (W : Valuation τ sig (Elt Ideal)) :
    after (T4b (F := Ideal)) W (Proc.devRef .tc main_arg1) = W (Proc.devRef .tc main_arg1) := by
  after_results_simp

theorem T4b_arg2 (W : Valuation τ sig (Elt Ideal)) :
    after (T4b (F := Ideal)) W (Proc.devRef .tc main_arg2) = W (Proc.devRef .tc main_arg2) := by
  after_results_simp

theorem T4b_arg3 (W : Valuation τ sig (Elt Ideal)) :
    after (T4b (F := Ideal)) W (Proc.devRef .tc main_arg3) = W (Proc.devRef .tc main_arg3) := by
  after_results_simp

theorem T4b_arg4 (W : Valuation τ sig (Elt Ideal)) :
    after (T4b (F := Ideal)) W (Proc.devRef .tc main_arg4) = W (Proc.devRef .tc main_arg4) := by
  after_results_simp

theorem T4b_arg5 (W : Valuation τ sig (Elt Ideal)) :
    after (T4b (F := Ideal)) W (Proc.devRef .tc main_arg5) = W (Proc.devRef .tc main_arg5) := by
  after_results_simp

theorem T4b_arg6 (W : Valuation τ sig (Elt Ideal)) :
    after (T4b (F := Ideal)) W (Proc.devRef .tc main_arg6) = W (Proc.devRef .tc main_arg6) := by
  after_results_simp

theorem T4b_arg7 (W : Valuation τ sig (Elt Ideal)) :
    after (T4b (F := Ideal)) W (Proc.devRef .tc main_arg7) = W (Proc.devRef .tc main_arg7) := by
  after_results_simp

theorem T4b_arg8 (W : Valuation τ sig (Elt Ideal)) :
    after (T4b (F := Ideal)) W (Proc.devRef .tc main_arg8) = W (Proc.devRef .tc main_arg8) := by
  after_results_simp

theorem T4b_arg9 (W : Valuation τ sig (Elt Ideal)) :
    after (T4b (F := Ideal)) W (Proc.devRef .tc main_arg9) = W (Proc.devRef .tc main_arg9) := by
  after_results_simp

theorem T4b_arg10 (W : Valuation τ sig (Elt Ideal)) :
    after (T4b (F := Ideal)) W (Proc.devRef .tc main_arg10) = W (Proc.devRef .tc main_arg10) := by
  after_results_simp

theorem T4b_arg11 (W : Valuation τ sig (Elt Ideal)) :
    after (T4b (F := Ideal)) W (Proc.devRef .tc main_arg11) = W (Proc.devRef .tc main_arg11) := by
  after_results_simp

theorem T4b_arg12 (W : Valuation τ sig (Elt Ideal)) :
    after (T4b (F := Ideal)) W (Proc.devRef .tc main_arg12) = W (Proc.devRef .tc main_arg12) := by
  after_results_simp

theorem T4b_arg13 (W : Valuation τ sig (Elt Ideal)) :
    after (T4b (F := Ideal)) W (Proc.devRef .tc main_arg13) = W (Proc.devRef .tc main_arg13) := by
  after_results_simp

theorem T5_arg0 (W : Valuation τ sig (Elt Ideal)) :
    after (T5 (F := Ideal)) W (Proc.devRef .tc main_arg0) = W (Proc.devRef .tc main_arg0) := by
  after_results_simp

theorem T5_arg1 (W : Valuation τ sig (Elt Ideal)) :
    after (T5 (F := Ideal)) W (Proc.devRef .tc main_arg1) = W (Proc.devRef .tc main_arg1) := by
  after_results_simp

theorem T5_arg2 (W : Valuation τ sig (Elt Ideal)) :
    after (T5 (F := Ideal)) W (Proc.devRef .tc main_arg2) = W (Proc.devRef .tc main_arg2) := by
  after_results_simp

theorem T5_arg3 (W : Valuation τ sig (Elt Ideal)) :
    after (T5 (F := Ideal)) W (Proc.devRef .tc main_arg3) = W (Proc.devRef .tc main_arg3) := by
  after_results_simp

theorem T5_arg4 (W : Valuation τ sig (Elt Ideal)) :
    after (T5 (F := Ideal)) W (Proc.devRef .tc main_arg4) = W (Proc.devRef .tc main_arg4) := by
  after_results_simp

theorem T5_arg5 (W : Valuation τ sig (Elt Ideal)) :
    after (T5 (F := Ideal)) W (Proc.devRef .tc main_arg5) = W (Proc.devRef .tc main_arg5) := by
  after_results_simp

theorem T5_arg6 (W : Valuation τ sig (Elt Ideal)) :
    after (T5 (F := Ideal)) W (Proc.devRef .tc main_arg6) = W (Proc.devRef .tc main_arg6) := by
  after_results_simp

theorem T5_arg7 (W : Valuation τ sig (Elt Ideal)) :
    after (T5 (F := Ideal)) W (Proc.devRef .tc main_arg7) = W (Proc.devRef .tc main_arg7) := by
  after_results_simp

theorem T5_arg8 (W : Valuation τ sig (Elt Ideal)) :
    after (T5 (F := Ideal)) W (Proc.devRef .tc main_arg8) = W (Proc.devRef .tc main_arg8) := by
  after_results_simp

theorem T5_arg9 (W : Valuation τ sig (Elt Ideal)) :
    after (T5 (F := Ideal)) W (Proc.devRef .tc main_arg9) = W (Proc.devRef .tc main_arg9) := by
  after_results_simp

theorem T5_arg10 (W : Valuation τ sig (Elt Ideal)) :
    after (T5 (F := Ideal)) W (Proc.devRef .tc main_arg10) = W (Proc.devRef .tc main_arg10) := by
  after_results_simp

theorem T5_arg11 (W : Valuation τ sig (Elt Ideal)) :
    after (T5 (F := Ideal)) W (Proc.devRef .tc main_arg11) = W (Proc.devRef .tc main_arg11) := by
  after_results_simp

theorem T5_arg12 (W : Valuation τ sig (Elt Ideal)) :
    after (T5 (F := Ideal)) W (Proc.devRef .tc main_arg12) = W (Proc.devRef .tc main_arg12) := by
  after_results_simp

theorem T5_arg13 (W : Valuation τ sig (Elt Ideal)) :
    after (T5 (F := Ideal)) W (Proc.devRef .tc main_arg13) = W (Proc.devRef .tc main_arg13) := by
  after_results_simp

theorem T6_arg0 (W : Valuation τ sig (Elt Ideal)) :
    after (T6 (F := Ideal)) W (Proc.devRef .tc main_arg0) = W (Proc.devRef .tc main_arg0) := by
  after_results_simp

theorem T6_arg1 (W : Valuation τ sig (Elt Ideal)) :
    after (T6 (F := Ideal)) W (Proc.devRef .tc main_arg1) = W (Proc.devRef .tc main_arg1) := by
  after_results_simp

theorem T6_arg2 (W : Valuation τ sig (Elt Ideal)) :
    after (T6 (F := Ideal)) W (Proc.devRef .tc main_arg2) = W (Proc.devRef .tc main_arg2) := by
  after_results_simp

theorem T6_arg3 (W : Valuation τ sig (Elt Ideal)) :
    after (T6 (F := Ideal)) W (Proc.devRef .tc main_arg3) = W (Proc.devRef .tc main_arg3) := by
  after_results_simp

theorem T6_arg4 (W : Valuation τ sig (Elt Ideal)) :
    after (T6 (F := Ideal)) W (Proc.devRef .tc main_arg4) = W (Proc.devRef .tc main_arg4) := by
  after_results_simp

theorem T6_arg5 (W : Valuation τ sig (Elt Ideal)) :
    after (T6 (F := Ideal)) W (Proc.devRef .tc main_arg5) = W (Proc.devRef .tc main_arg5) := by
  after_results_simp

theorem T6_arg6 (W : Valuation τ sig (Elt Ideal)) :
    after (T6 (F := Ideal)) W (Proc.devRef .tc main_arg6) = W (Proc.devRef .tc main_arg6) := by
  after_results_simp

theorem T6_arg7 (W : Valuation τ sig (Elt Ideal)) :
    after (T6 (F := Ideal)) W (Proc.devRef .tc main_arg7) = W (Proc.devRef .tc main_arg7) := by
  after_results_simp

theorem T6_arg8 (W : Valuation τ sig (Elt Ideal)) :
    after (T6 (F := Ideal)) W (Proc.devRef .tc main_arg8) = W (Proc.devRef .tc main_arg8) := by
  after_results_simp

theorem T6_arg9 (W : Valuation τ sig (Elt Ideal)) :
    after (T6 (F := Ideal)) W (Proc.devRef .tc main_arg9) = W (Proc.devRef .tc main_arg9) := by
  after_results_simp

theorem T6_arg10 (W : Valuation τ sig (Elt Ideal)) :
    after (T6 (F := Ideal)) W (Proc.devRef .tc main_arg10) = W (Proc.devRef .tc main_arg10) := by
  after_results_simp

theorem T6_arg11 (W : Valuation τ sig (Elt Ideal)) :
    after (T6 (F := Ideal)) W (Proc.devRef .tc main_arg11) = W (Proc.devRef .tc main_arg11) := by
  after_results_simp

theorem T6_arg12 (W : Valuation τ sig (Elt Ideal)) :
    after (T6 (F := Ideal)) W (Proc.devRef .tc main_arg12) = W (Proc.devRef .tc main_arg12) := by
  after_results_simp

theorem T6_arg13 (W : Valuation τ sig (Elt Ideal)) :
    after (T6 (F := Ideal)) W (Proc.devRef .tc main_arg13) = W (Proc.devRef .tc main_arg13) := by
  after_results_simp

end Cert.ReferenceIdeal.RefValue

end
-- ==== Proof.RefValue.lean ====
/-
  The reference program's result as the network's stages of its arguments.

  The contents after the whole line of operations, read list by list: each list's result buffer holds the stage it computes of
  the buffers the list starts from, and no list writes an argument. The results chained, the output buffer holds the whole
  network of the arguments' contents at launch, and the arguments end unchanged.
-/
import proofs.«118564_j3066606649549_2_alg».proof.Proof.RefRun
import proofs.«118564_j3066606649549_2_alg».proof.Proof.RefValueA
import proofs.«118564_j3066606649549_2_alg».proof.Proof.RefValueB
import proofs.«118564_j3066606649549_2_alg».proof.Proof.RefValueC

noncomputable section

namespace Cert.ReferenceIdeal.RefValue

open Cert.ReferenceIdeal Cert.ReferenceIdeal.Gen Idealize.ShloMosaic Idealize.ShloMosaic.TcCoe Idealize.SL.Sem Idealize.ShloMosaic.StableHlo Cert.ReferenceIdeal.RefRun

/-- Argument 0 is written by no operation. -/
theorem arg0_eq (V : Valuation τ sig (Elt Ideal)) :
    after (ops (F := Ideal)) V (Proc.devRef .tc main_arg0) = V (Proc.devRef .tc main_arg0) := by
  rw [after_ops, T6_arg0, T5_arg0, T4b_arg0, T4a_arg0, T3_arg0, T2b_arg0, T2a_arg0, T1_arg0, T0_arg0]

/-- Argument 1 is written by no operation. -/
theorem arg1_eq (V : Valuation τ sig (Elt Ideal)) :
    after (ops (F := Ideal)) V (Proc.devRef .tc main_arg1) = V (Proc.devRef .tc main_arg1) := by
  rw [after_ops, T6_arg1, T5_arg1, T4b_arg1, T4a_arg1, T3_arg1, T2b_arg1, T2a_arg1, T1_arg1, T0_arg1]

/-- Argument 2 is written by no operation. -/
theorem arg2_eq (V : Valuation τ sig (Elt Ideal)) :
    after (ops (F := Ideal)) V (Proc.devRef .tc main_arg2) = V (Proc.devRef .tc main_arg2) := by
  rw [after_ops, T6_arg2, T5_arg2, T4b_arg2, T4a_arg2, T3_arg2, T2b_arg2, T2a_arg2, T1_arg2, T0_arg2]

/-- Argument 3 is written by no operation. -/
theorem arg3_eq (V : Valuation τ sig (Elt Ideal)) :
    after (ops (F := Ideal)) V (Proc.devRef .tc main_arg3) = V (Proc.devRef .tc main_arg3) := by
  rw [after_ops, T6_arg3, T5_arg3, T4b_arg3, T4a_arg3, T3_arg3, T2b_arg3, T2a_arg3, T1_arg3, T0_arg3]

/-- Argument 4 is written by no operation. -/
theorem arg4_eq (V : Valuation τ sig (Elt Ideal)) :
    after (ops (F := Ideal)) V (Proc.devRef .tc main_arg4) = V (Proc.devRef .tc main_arg4) := by
  rw [after_ops, T6_arg4, T5_arg4, T4b_arg4, T4a_arg4, T3_arg4, T2b_arg4, T2a_arg4, T1_arg4, T0_arg4]

/-- Argument 5 is written by no operation. -/
theorem arg5_eq (V : Valuation τ sig (Elt Ideal)) :
    after (ops (F := Ideal)) V (Proc.devRef .tc main_arg5) = V (Proc.devRef .tc main_arg5) := by
  rw [after_ops, T6_arg5, T5_arg5, T4b_arg5, T4a_arg5, T3_arg5, T2b_arg5, T2a_arg5, T1_arg5, T0_arg5]

/-- Argument 6 is written by no operation. -/
theorem arg6_eq (V : Valuation τ sig (Elt Ideal)) :
    after (ops (F := Ideal)) V (Proc.devRef .tc main_arg6) = V (Proc.devRef .tc main_arg6) := by
  rw [after_ops, T6_arg6, T5_arg6, T4b_arg6, T4a_arg6, T3_arg6, T2b_arg6, T2a_arg6, T1_arg6, T0_arg6]

/-- Argument 7 is written by no operation. -/
theorem arg7_eq (V : Valuation τ sig (Elt Ideal)) :
    after (ops (F := Ideal)) V (Proc.devRef .tc main_arg7) = V (Proc.devRef .tc main_arg7) := by
  rw [after_ops, T6_arg7, T5_arg7, T4b_arg7, T4a_arg7, T3_arg7, T2b_arg7, T2a_arg7, T1_arg7, T0_arg7]

/-- Argument 8 is written by no operation. -/
theorem arg8_eq (V : Valuation τ sig (Elt Ideal)) :
    after (ops (F := Ideal)) V (Proc.devRef .tc main_arg8) = V (Proc.devRef .tc main_arg8) := by
  rw [after_ops, T6_arg8, T5_arg8, T4b_arg8, T4a_arg8, T3_arg8, T2b_arg8, T2a_arg8, T1_arg8, T0_arg8]

/-- Argument 9 is written by no operation. -/
theorem arg9_eq (V : Valuation τ sig (Elt Ideal)) :
    after (ops (F := Ideal)) V (Proc.devRef .tc main_arg9) = V (Proc.devRef .tc main_arg9) := by
  rw [after_ops, T6_arg9, T5_arg9, T4b_arg9, T4a_arg9, T3_arg9, T2b_arg9, T2a_arg9, T1_arg9, T0_arg9]

/-- Argument 10 is written by no operation. -/
theorem arg10_eq (V : Valuation τ sig (Elt Ideal)) :
    after (ops (F := Ideal)) V (Proc.devRef .tc main_arg10) = V (Proc.devRef .tc main_arg10) := by
  rw [after_ops, T6_arg10, T5_arg10, T4b_arg10, T4a_arg10, T3_arg10, T2b_arg10, T2a_arg10, T1_arg10, T0_arg10]

/-- Argument 11 is written by no operation. -/
theorem arg11_eq (V : Valuation τ sig (Elt Ideal)) :
    after (ops (F := Ideal)) V (Proc.devRef .tc main_arg11) = V (Proc.devRef .tc main_arg11) := by
  rw [after_ops, T6_arg11, T5_arg11, T4b_arg11, T4a_arg11, T3_arg11, T2b_arg11, T2a_arg11, T1_arg11, T0_arg11]

/-- Argument 12 is written by no operation. -/
theorem arg12_eq (V : Valuation τ sig (Elt Ideal)) :
    after (ops (F := Ideal)) V (Proc.devRef .tc main_arg12) = V (Proc.devRef .tc main_arg12) := by
  rw [after_ops, T6_arg12, T5_arg12, T4b_arg12, T4a_arg12, T3_arg12, T2b_arg12, T2a_arg12, T1_arg12, T0_arg12]

/-- Argument 13 is written by no operation. -/
theorem arg13_eq (V : Valuation τ sig (Elt Ideal)) :
    after (ops (F := Ideal)) V (Proc.devRef .tc main_arg13) = V (Proc.devRef .tc main_arg13) := by
  rw [after_ops, T6_arg13, T5_arg13, T4b_arg13, T4a_arg13, T3_arg13, T2b_arg13, T2a_arg13, T1_arg13, T0_arg13]

/-- The output buffer after the whole line: the network of the arguments. -/
theorem value (V : Valuation τ sig (Elt Ideal)) :
    after (ops (F := Ideal)) V (Proc.devRef .tc main_v130)
      = RefStages.netT (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  rw [after_ops, T6_value]
  repeat (first
    | rw [T5_value]
    | rw [T5_arg0]
    | rw [T5_arg1]
    | rw [T5_arg2]
    | rw [T5_arg3]
    | rw [T5_arg4]
    | rw [T5_arg5]
    | rw [T5_arg6]
    | rw [T5_arg7]
    | rw [T5_arg8]
    | rw [T5_arg9]
    | rw [T5_arg10]
    | rw [T5_arg11]
    | rw [T5_arg12]
    | rw [T5_arg13])
  repeat (first
    | rw [T4_value]
    | rw [T4b_arg0]
    | rw [T4b_arg1]
    | rw [T4b_arg2]
    | rw [T4b_arg3]
    | rw [T4b_arg4]
    | rw [T4b_arg5]
    | rw [T4b_arg6]
    | rw [T4b_arg7]
    | rw [T4b_arg8]
    | rw [T4b_arg9]
    | rw [T4b_arg10]
    | rw [T4b_arg11]
    | rw [T4b_arg12]
    | rw [T4b_arg13]
    | rw [T4a_arg0]
    | rw [T4a_arg1]
    | rw [T4a_arg2]
    | rw [T4a_arg3]
    | rw [T4a_arg4]
    | rw [T4a_arg5]
    | rw [T4a_arg6]
    | rw [T4a_arg7]
    | rw [T4a_arg8]
    | rw [T4a_arg9]
    | rw [T4a_arg10]
    | rw [T4a_arg11]
    | rw [T4a_arg12]
    | rw [T4a_arg13])
  repeat (first
    | rw [T3_value]
    | rw [T3_arg0]
    | rw [T3_arg1]
    | rw [T3_arg2]
    | rw [T3_arg3]
    | rw [T3_arg4]
    | rw [T3_arg5]
    | rw [T3_arg6]
    | rw [T3_arg7]
    | rw [T3_arg8]
    | rw [T3_arg9]
    | rw [T3_arg10]
    | rw [T3_arg11]
    | rw [T3_arg12]
    | rw [T3_arg13])
  repeat (first
    | rw [T2_value]
    | rw [T2b_arg0]
    | rw [T2b_arg1]
    | rw [T2b_arg2]
    | rw [T2b_arg3]
    | rw [T2b_arg4]
    | rw [T2b_arg5]
    | rw [T2b_arg6]
    | rw [T2b_arg7]
    | rw [T2b_arg8]
    | rw [T2b_arg9]
    | rw [T2b_arg10]
    | rw [T2b_arg11]
    | rw [T2b_arg12]
    | rw [T2b_arg13]
    | rw [T2a_arg0]
    | rw [T2a_arg1]
    | rw [T2a_arg2]
    | rw [T2a_arg3]
    | rw [T2a_arg4]
    | rw [T2a_arg5]
    | rw [T2a_arg6]
    | rw [T2a_arg7]
    | rw [T2a_arg8]
    | rw [T2a_arg9]
    | rw [T2a_arg10]
    | rw [T2a_arg11]
    | rw [T2a_arg12]
    | rw [T2a_arg13])
  repeat (first
    | rw [T1_value]
    | rw [T1_arg0]
    | rw [T1_arg1]
    | rw [T1_arg2]
    | rw [T1_arg3]
    | rw [T1_arg4]
    | rw [T1_arg5]
    | rw [T1_arg6]
    | rw [T1_arg7]
    | rw [T1_arg8]
    | rw [T1_arg9]
    | rw [T1_arg10]
    | rw [T1_arg11]
    | rw [T1_arg12]
    | rw [T1_arg13])
  repeat (first
    | rw [T0_value]
    | rw [T0_arg0]
    | rw [T0_arg1]
    | rw [T0_arg2]
    | rw [T0_arg3]
    | rw [T0_arg4]
    | rw [T0_arg5]
    | rw [T0_arg6]
    | rw [T0_arg7]
    | rw [T0_arg8]
    | rw [T0_arg9]
    | rw [T0_arg10]
    | rw [T0_arg11]
    | rw [T0_arg12]
    | rw [T0_arg13])
  simp only [RefStages.netT, RefStages.headT, RefStages.layerT]

/-- On every device, from any memory with zero counters: every weakly fair execution of the reference program terminates with
    the output buffer at the network of the arguments' launch contents, and the arguments unchanged. -/
theorem run (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ (fun r => ∀ c : Dev nD,
      r.2.mem ((c.tc : Thread nD τ).loc main_v130) = RefStages.netT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h c main_v130).trans (value _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _)⟩)
    (run_after m ρ)

end Cert.ReferenceIdeal.RefValue

end
-- ==== Proof.RefRead1.lean ====
/-
  The reference's dense product and hidden layer, read row by row.

  Each array operation of a hidden layer is read at an index (p, k): a vector of 128 entries repeated down the rows
  reads the vector at k; a one-column array repeated along the rows reads the column at p; a float word spread over a
  column reads the word; the sum of a row kept as a column reads the sum over the 128 entries of row p (the sum's
  starting value is the zero word, which is zero). The mean is that sum divided by the word of 128. The variance
  routine's divisor, 128 minus the integer zero read as a float, is the word of 128, which is the number 128 and so
  positive: its guard holds and the routine returns the sum of squared deviations from the mean divided by 128. With
  these the normalised, scaled, shifted and clamped entry at (p, k) is the row function of the specification applied
  to row p, and the product with the next weight matrix is the sum over k of that entry times the matrix at (k, q).
-/
import proofs.«118564_j3066606649549_2_alg».proof.Proof.RefStages
import proofs.«118564_j3066606649549_2_alg».proof.Proof.Spec
import proofs.«118564_j3066606649549_2_alg».proof.Proof.LibPlainDot
import proofs.«118564_j3066606649549_2_alg».proof.Proof.LibRowBroadcasts
import Idealize.ShloMosaic.Lib.IdealHost
import Idealize.ShloMosaic.Lib.Pipeline.Value
import Idealize.ShloMosaic.PureOps.Ideal.Laws

noncomputable section

namespace Cert.ReferenceIdeal.RefRead

open Idealize.ShloMosaic Idealize.ShloMosaic.ValueIdx Cert.ReferenceIdeal Cert.ReferenceIdeal.Facts₀
open scoped BigOperators

variable [Facts₀]

/-- A vector broadcast along dimension 1 into a one-row array reads, at any (u, q), the vector at q. -/
theorem vecRow_apply {α : Type} {b : Nat} (v : (⟨1, ![b]⟩ : Shape).Idx → α)
    (hb : (⟨1, ![b]⟩ : Shape).BroadcastsInDim ⟨2, ![1, b]⟩ ![1]) (u : Fin 1) (q : Fin b) :
    broadcastInDim ⟨2, ![1, b]⟩ ![1] hb v (ix2 u q) = v (ix1 q) :=
  broadcastInDim_apply _ hb v (ix2 u q) (ix1 q) fun ax => by
    match ax with
    | ⟨0, _⟩ =>
      show q.val = if b = 1 then 0 else q.val
      split
      · have := q.isLt; omega
      · rfl

/-- A vector broadcast along dimension 0 into a one-column array reads, at any (p, u), the vector at p. -/
theorem vecCol_apply {α : Type} {a : Nat} (v : (⟨1, ![a]⟩ : Shape).Idx → α)
    (hb : (⟨1, ![a]⟩ : Shape).BroadcastsInDim ⟨2, ![a, 1]⟩ ![0]) (p : Fin a) (u : Fin 1) :
    broadcastInDim ⟨2, ![a, 1]⟩ ![0] hb v (ix2 p u) = v (ix1 p) :=
  broadcastInDim_apply _ hb v (ix2 p u) (ix1 p) fun ax => by
    match ax with
    | ⟨0, _⟩ =>
      show p.val = if a = 1 then 0 else p.val
      split
      · have := p.isLt; omega
      · rfl

/-- A vector of 128 entries repeated down the rows reads, at (p, k), the vector at k. -/
theorem rowsOf_apply (v : FVec Ideal S128 .f32) (p : Fin 100000) (k : Fin 128) :
    RefStages.rowsOf v (ix2 p k) = v (ix1 k) :=
  (Cert.Lib.Rows.dimRow_apply _ bcast_S1x128_S100000x128_0_1 p k).trans (vecRow_apply v bcast_S128_S1x128_1 0 k)

/-- A column repeated along the rows reads, at (p, k), the column at p. -/
theorem alongRow_apply (c : FVec Ideal S100000x1 .f32) (p : Fin 100000) (k : Fin 128) :
    RefStages.alongRow c (ix2 p k) = c (ix2 p (0 : Fin 1)) :=
  Cert.Lib.Rows.dimCol_apply c bcast_S100000x1_S100000x128_0_1 p k

/-- A float word spread over a column reads the word. -/
theorem colOf_apply (b : BitVec 32) (p : Fin 100000) (u : Fin 1) :
    RefStages.colOf b (ix2 p u) = Ideal.ofBits .f32 b :=
  broadcastInDim_scalar_apply bcast_S_S100000x1 _ _

/-- The sum of each row kept as a column reads, at p, the sum of row p's 128 entries. -/
theorem rowSum_apply (t : FVec Ideal S100000x128 .f32) (p : Fin 100000) (u : Fin 1) :
    RefStages.rowSum t (ix2 p u) = ∑ k : Fin 128, t (ix2 p k) := by
  have hR : S100000x128.Reduces [1] S100000 := by decide
  refine (vecCol_apply _ bcast_S100000_S100000x1_0 p u).trans ?_
  refine (hostReduceAdd_apply t _ reducesTo_S100000x128_S100000_d1 h_S_ (ix1 p)).trans ?_
  refine (Ideal.hostReduceAdd_single reducesTo_S100000x128_S100000_d1 hR t _ (ix1 p)).trans ?_
  show (Ideal.ofBits .f32 0x00000000#32 : EReal) + ∑ k : Fin 128, t (hR.lift (ix1 p) k) = _
  rw [Ideal.ofBits_zero_f32, zero_add]
  refine Finset.sum_congr rfl fun k _ => congrArg t ?_
  exact funext fun a => Fin.ext (by match a with | ⟨0, _⟩ => rfl | ⟨1, _⟩ => rfl)

/-- The mean of each row reads, at p, the sum of row p divided by the word of 128. -/
theorem meanT_apply (t : FVec Ideal S100000x128 .f32) (p : Fin 100000) (u : Fin 1) :
    RefStages.meanT t (ix2 p u) = Ideal.div (∑ k : Fin 128, t (ix2 p k)) Cert.Spec.w128 := by
  show Ideal.div (RefStages.rowSum t (ix2 p u)) (RefStages.colOf 0x43000000#32 (ix2 p u)) = _
  rw [rowSum_apply, colOf_apply]

/-- The word of 128 is the number 128. -/
theorem w128_eq : Cert.Spec.w128 = ((128 : ℝ) : EReal) := by
  simp [Ideal.ofBits, Ideal.ieee, -EReal.coe_mul]; norm_num

/-- The variance's divisor, 128 minus the integer zero read as a float, is the word of 128. -/
theorem varDen_eq : RefStages.varDen ix0 = Cert.Spec.w128 := by
  show Cert.Spec.w128 - (((0#32 : BitVec 32).toInt : ℝ) : EReal) = _
  simp

/-- The variance's guard holds: its divisor is greater than zero. -/
theorem guard_eq (p : Fin 100000) (u : Fin 1) :
    broadcastInDim S100000x1 ![] bcast_S_S100000x1
      (cmpf .ogt RefStages.varDen (constant (F := Ideal) S_ .f32 0x00000000#32)) (ix2 p u) = 1#1 := by
  refine (broadcastInDim_scalar_apply bcast_S_S100000x1 _ _).trans ?_
  show Ideal.cmp .ogt (RefStages.varDen ix0) (Ideal.ofBits .f32 0x00000000#32) = 1#1
  rw [varDen_eq, Ideal.ofBits_zero_f32, w128_eq]
  show BitVec.ofBool (decide ((0 : EReal) < ((128 : ℝ) : EReal))) = 1#1
  rw [decide_eq_true (by exact_mod_cast (by norm_num : (0 : ℝ) < 128))]
  rfl

/-- The variance of each row reads, at p, the sum of row p's squared deviations from its mean, divided by 128. -/
theorem varT_apply (t : FVec Ideal S100000x128 .f32) (p : Fin 100000) (u : Fin 1) :
    RefStages.varT t (ix2 p u)
      = Ideal.div (∑ k : Fin 128, Cert.Spec.centered (fun k' => t (ix2 p k')) k
          * Cert.Spec.centered (fun k' => t (ix2 p k')) k) Cert.Spec.w128 := by
  show Scalar.select
      (broadcastInDim S100000x1 ![] bcast_S_S100000x1
        (cmpf .ogt RefStages.varDen (constant (F := Ideal) S_ .f32 0x00000000#32)) (ix2 p u))
      (Ideal.div
        (RefStages.rowSum (mulf (subf t (RefStages.alongRow (RefStages.meanT t)))
          (subf t (RefStages.alongRow (RefStages.meanT t)))) (ix2 p u))
        (broadcastInDim S100000x1 ![] bcast_S_S100000x1 RefStages.varDen (ix2 p u))) _ = _
  rw [guard_eq, select_one, rowSum_apply, broadcastInDim_scalar_apply, varDen_eq]
  refine congrArg (fun s => Ideal.div s Cert.Spec.w128) (Finset.sum_congr rfl fun k _ => ?_)
  show (t (ix2 p k) - RefStages.alongRow (RefStages.meanT t) (ix2 p k))
      * (t (ix2 p k) - RefStages.alongRow (RefStages.meanT t) (ix2 p k)) = _
  rw [alongRow_apply, meanT_apply]
  rfl

/-- The normalised, scaled, shifted and clamped array reads, at (p, k), the specification's row function of row p. -/
theorem lnReluT_apply (h : FVec Ideal S100000x128 .f32) (bias g bb : FVec Ideal S128 .f32) (p : Fin 100000)
    (k : Fin 128) :
    RefStages.lnReluT h bias g bb (ix2 p k)
      = Cert.Spec.lnRelu (fun k' => h (ix2 p k')) (fun k' => bias (ix1 k')) (fun k' => g (ix1 k'))
          (fun k' => bb (ix1 k')) k := by
  have hT : ∀ k' : Fin 128, addf h (RefStages.rowsOf bias) (ix2 p k') = h (ix2 p k') + bias (ix1 k') := fun k' => by
    show h (ix2 p k') + RefStages.rowsOf bias (ix2 p k') = _
    rw [rowsOf_apply]
  show max
      (((addf h (RefStages.rowsOf bias) (ix2 p k)
            - RefStages.alongRow (RefStages.meanT (addf h (RefStages.rowsOf bias))) (ix2 p k))
          * RefStages.alongRow
              (Host.rsqrt (addf (RefStages.varT (addf h (RefStages.rowsOf bias))) (RefStages.colOf 0x3727C5AC#32)))
              (ix2 p k))
        * RefStages.rowsOf g (ix2 p k) + RefStages.rowsOf bb (ix2 p k))
      (broadcastInDim S100000x128 ![] bcast_S_S100000x128 (constant (F := Ideal) S_ .f32 0x00000000#32) (ix2 p k)) = _
  rw [alongRow_apply, alongRow_apply, rowsOf_apply, rowsOf_apply, meanT_apply, broadcastInDim_scalar_apply]
  show max
      (((_ - _) * Ideal.rsqrt (RefStages.varT (addf h (RefStages.rowsOf bias)) (ix2 p (0 : Fin 1))
            + RefStages.colOf 0x3727C5AC#32 (ix2 p (0 : Fin 1)))) * _ + _) _ = _
  rw [varT_apply, colOf_apply]
  simp only [hT]
  rfl

/-- The dense product is the specification's matrix product. -/
theorem mmT_eq (x : FVec Ideal S100000x602 .f32) (w : FVec Ideal S602x128 .f32) :
    RefStages.mmT x w = Cert.Spec.mm x w := by
  funext i
  obtain ⟨p, q, rfl⟩ : ∃ (p : Fin 100000) (q : Fin 128), i = ix2 p q := ⟨i 0, i 1, eq_ix2 i⟩
  exact Cert.Lib.PlainDot.dotGeneral_apply dot_S100000x602_S602x128_S100000x128_1_0_0_1_n_n_wf none x w p q

/-- A hidden layer of the reference is the specification's hidden layer. -/
theorem layerT_eq (h : FVec Ideal S100000x128 .f32) (bias g bb : FVec Ideal S128 .f32) (W : FVec Ideal S128x128 .f32) :
    RefStages.layerT h bias g bb W = Cert.Spec.layer h bias g bb W := by
  funext i
  obtain ⟨p, q, rfl⟩ : ∃ (p : Fin 100000) (q : Fin 128), i = ix2 p q := ⟨i 0, i 1, eq_ix2 i⟩
  refine (Cert.Lib.PlainDot.dotGeneral_apply dot_S100000x128_S128x128_S100000x128_1_0_0_1_n_n_wf none
    (RefStages.lnReluT h bias g bb) W p q).trans ?_
  show _ = ∑ k : Fin 128, Cert.Spec.lnRelu (fun k' => h (ix2 p k')) (fun k' => bias (ix1 k')) (fun k' => g (ix1 k'))
      (fun k' => bb (ix1 k')) k * W (ix2 k q)
  exact Finset.sum_congr rfl fun k _ => congrArg (· * W (ix2 k q)) (lnReluT_apply h bias g bb p k)

end Cert.ReferenceIdeal.RefRead

end
-- ==== Proof.RefRead3.lean ====
/-
  The reference's output head and whole network, read row by row.

  The log-softmax routine takes each row's largest score as a fold of the maximum starting from minus infinity, takes
  the maximum of that with minus infinity once more (which changes nothing, the fold being at least its starting
  value), subtracts it from the scores, and subtracts the logarithm of the row's sum of exponentials of the shifted
  scores. Read at (p, q) this is the specification's log-softmax of row p; the scores themselves are the last
  normalised and clamped row times the output matrix plus the output bias. The whole reference is then the
  specification's network with the reference's three sparse products in the places the specification leaves open.
-/
import proofs.«118564_j3066606649549_2_alg».proof.Proof.RefStages
import proofs.«118564_j3066606649549_2_alg».proof.Proof.Spec
import proofs.«118564_j3066606649549_2_alg».proof.Proof.LibPlainDot
import proofs.«118564_j3066606649549_2_alg».proof.Proof.LibRowBroadcasts
import proofs.«118564_j3066606649549_2_alg».proof.Proof.RefRead1
import Idealize.ShloMosaic.Lib.IdealHost
import Idealize.ShloMosaic.Lib.Pipeline.Value
import Idealize.ShloMosaic.PureOps.Ideal.Laws

noncomputable section

namespace Cert.ReferenceIdeal.RefRead

open Idealize.ShloMosaic Idealize.ShloMosaic.ValueIdx Cert.ReferenceIdeal Cert.ReferenceIdeal.Facts₀
open scoped BigOperators

variable [Facts₀]

/-- The exponential of an array, read at an index. -/
theorem hostExp_apply {s : Shape} {φ : FTy} (a : FVec Ideal s φ) (i : s.Idx) : Host.exp a i = Ideal.exp (a i) := rfl

/-- The logarithm of an array, read at an index. -/
theorem hostLog_apply {s : Shape} {φ : FTy} (a : FVec Ideal s φ) (i : s.Idx) : Host.log a i = Ideal.log (a i) := rfl

/-- A column repeated along rows of 41 scores reads, at (p, q), the column at p. -/
theorem alongRow41_apply (c : FVec Ideal S100000x1 .f32) (p : Fin 100000) (q : Fin 41) :
    RefStages.alongRow41 c (ix2 p q) = c (ix2 p (0 : Fin 1)) :=
  Cert.Lib.Rows.dimCol_apply c bcast_S100000x1_S100000x41_0_1 p q

/-- The largest score of each row, folded from the minus-infinity word, reads at p the fold of the maximum over
    row p's 41 scores. -/
theorem rowMax41_apply (z : FVec Ideal S100000x41 .f32) (p : Fin 100000) :
    Host.reduce FloatOps.maximumf z (constant (F := Ideal) S_ .f32 0xFF800000#32)
        reducesTo_S100000x41_S100000_d1 h_S_ (ix1 p)
      = (Finset.univ : Finset (Fin 41)).fold max Cert.Spec.wninf (fun k => z (ix2 p k)) := by
  have hR : S100000x41.Reduces [1] S100000 := by decide
  refine (Host.reduce_eq_fold_single FloatOps.maximumf z _ reducesTo_S100000x41_S100000_d1 hR h_S_ (ix1 p)).trans ?_
  have e : z ∘ hR.lift (ix1 p) = fun k : Fin 41 => z (ix2 p k) :=
    funext fun k => congrArg z (funext fun a => Fin.ext (by match a with | ⟨0, _⟩ => rfl | ⟨1, _⟩ => rfl))
  show (Finset.univ : Finset (Fin 41)).fold max Cert.Spec.wninf (z ∘ hR.lift (ix1 p)) = _
  exact congrArg (fun f => (Finset.univ : Finset (Fin 41)).fold max Cert.Spec.wninf f) e

/-- The scores minus the row's largest read, at (p, q), the score minus the fold of the maximum over row p: the extra
    maximum with minus infinity changes nothing, the fold starting from minus infinity being at least that. -/
theorem shiftedT_apply (z : FVec Ideal S100000x41 .f32) (p : Fin 100000) (q : Fin 41) :
    RefStages.shiftedT z (ix2 p q)
      = z (ix2 p q) - (Finset.univ : Finset (Fin 41)).fold max Cert.Spec.wninf (fun k => z (ix2 p k)) := by
  unfold RefStages.shiftedT
  rw [subf_apply, alongRow41_apply, vecCol_apply, maximumf_apply, broadcastInDim_scalar_apply, rowMax41_apply,
    constant_apply, max_eq_right ((Finset.le_fold_max _).mpr (Or.inl le_rfl))]

/-- The sum of each row of 41 entries kept as a column reads, at p, the sum of row p's entries. -/
theorem rowSum41_apply (y : FVec Ideal S100000x41 .f32) (p : Fin 100000) (u : Fin 1) :
    broadcastInDim S100000x1 ![0] bcast_S100000_S100000x1_0
        (Host.reduceAdd (F := Ideal) y (constant (F := Ideal) S_ .f32 0x00000000#32)
          reducesTo_S100000x41_S100000_d1 h_S_) (ix2 p u)
      = ∑ k : Fin 41, y (ix2 p k) := by
  have hR : S100000x41.Reduces [1] S100000 := by decide
  refine (vecCol_apply _ bcast_S100000_S100000x1_0 p u).trans ?_
  refine (hostReduceAdd_apply y _ reducesTo_S100000x41_S100000_d1 h_S_ (ix1 p)).trans ?_
  refine (Ideal.hostReduceAdd_single reducesTo_S100000x41_S100000_d1 hR y _ (ix1 p)).trans ?_
  show (Ideal.ofBits .f32 0x00000000#32 : EReal) + ∑ k : Fin 41, y (hR.lift (ix1 p) k) = _
  rw [Ideal.ofBits_zero_f32, zero_add]
  refine Finset.sum_congr rfl fun k _ => congrArg y ?_
  exact funext fun a => Fin.ext (by match a with | ⟨0, _⟩ => rfl | ⟨1, _⟩ => rfl)

/-- The log-softmax of the array reads, at (p, q), the specification's log-softmax of row p at q. -/
theorem logSoftmaxT_apply (z : FVec Ideal S100000x41 .f32) (p : Fin 100000) (q : Fin 41) :
    RefStages.logSoftmaxT z (ix2 p q) = Cert.Spec.logSoftmaxRow (fun j => z (ix2 p j)) q := by
  unfold RefStages.logSoftmaxT
  rw [subf_apply, alongRow41_apply, hostLog_apply, rowSum41_apply, shiftedT_apply]
  simp only [hostExp_apply, shiftedT_apply]
  rfl

/-- The output head of the reference is the specification's output head. -/
theorem headT_eq (h : FVec Ideal S100000x128 .f32) (bias g bb : FVec Ideal S128 .f32) (W : FVec Ideal S128x41 .f32)
    (bout : FVec Ideal S41 .f32) :
    RefStages.headT h bias g bb W bout = Cert.Spec.head h bias g bb W bout := by
  funext i
  obtain ⟨p, q, rfl⟩ : ∃ (p : Fin 100000) (q : Fin 41), i = ix2 p q := ⟨i 0, i 1, eq_ix2 i⟩
  refine (logSoftmaxT_apply _ p q).trans ?_
  show _ = Cert.Spec.logSoftmaxRow (fun j => Cert.Spec.layerRow (fun k => h (ix2 p k)) (fun k => bias (ix1 k))
      (fun k => g (ix1 k)) (fun k => bb (ix1 k)) (fun k q => W (ix2 k q)) j + bout (ix1 j)) q
  refine congrArg (fun z => Cert.Spec.logSoftmaxRow z q) (funext fun j => ?_)
  show Host.dotGeneral dot_S100000x128_S128x41_S100000x41_1_0_0_1_n_n none (RefStages.lnReluT h bias g bb) W (ix2 p j)
      + broadcastInDim S100000x41 ![0, 1] bcast_S1x41_S100000x41_0_1
          (broadcastInDim S1x41 ![1] bcast_S41_S1x41_1 bout) (ix2 p j) = _
  rw [Cert.Lib.Rows.dimRow_apply, vecRow_apply]
  refine congrArg (· + bout (ix1 j)) ?_
  refine (Cert.Lib.PlainDot.dotGeneral_apply dot_S100000x128_S128x41_S100000x41_1_0_0_1_n_n_wf none
    (RefStages.lnReluT h bias g bb) W p j).trans ?_
  exact Finset.sum_congr rfl fun k _ => congrArg (· * W (ix2 k j)) (lnReluT_apply h bias g bb p k)

/-- The whole reference is the specification's network with the reference's sparse products. -/
theorem netT_eq (arg0 : FVec Ideal S100000x602 .f32) (arg1 arg2 : IVec S3x1600000 32) (arg3 : FVec Ideal S3x1600000 .f32)
    (arg4 : FVec Ideal S602x128 .f32) (arg5 : FVec Ideal S128 .f32) (arg6 : FVec Ideal S128x128 .f32)
    (arg7 : FVec Ideal S128 .f32) (arg8 : FVec Ideal S128x128 .f32) (arg9 arg10 arg11 : FVec Ideal S128 .f32)
    (arg12 : FVec Ideal S128x41 .f32) (arg13 : FVec Ideal S41 .f32) :
    RefStages.netT arg0 arg1 arg2 arg3 arg4 arg5 arg6 arg7 arg8 arg9 arg10 arg11 arg12 arg13
      = Cert.Spec.net (RefStages.spmm0 arg1 arg2 arg3) (RefStages.spmm1 arg1 arg2 arg3) (RefStages.spmm2 arg1 arg2 arg3)
          arg0 arg4 arg5 arg6 arg7 arg8 arg9 arg10 arg11 arg12 arg13 := by
  unfold RefStages.netT Cert.Spec.net
  rw [headT_eq, layerT_eq, layerT_eq, mmT_eq]

end Cert.ReferenceIdeal.RefRead

end
-- ==== Proof.lean ====
/-
  A three-layer graph convolution network with layer normalisation, as four pipelined kernels among host sparse
  products, against the plain array program: the two compute one function of the fourteen argument arrays.

  The kernel program multiplies the node features by the first weight matrix in row blocks; a host stretch takes
  the sparse product of the result with the first adjacency (gather the rows at the edges' columns, scale by the
  edges' weights, add into the edges' rows); a second kernel adds the bias, normalises each row (mean and mean square
  over its 128 entries, reciprocal square root, gain and offset), clamps at zero and multiplies by the next weight
  matrix; the same again for the second layer; the last kernel does the same with the output matrix, adds the output
  bias and takes each row's log-softmax. The reference does the same steps on whole arrays. On the extended reals
  every step is the same function on both sides: a matrix product is the same sum over the contracted axis whatever the
  tiling, a row's mean and mean square are the same sums, the two programs spell the same four constants, and the
  sparse products are the same host operations applied to equal arrays. The reference's variance divides by
  128 minus a converted integer zero under a guard that 128 is positive, which is division by 128; its maximum with
  minus infinity before the log-softmax's shift is the row maximum itself. No law needing finiteness is used, so the
  precondition is never opened. The idealization rewrote nothing, so it is preserved trivially.

  The three frames: the kernel's and its idealization's are their region-by-region runs; the reference's is its run
  with the result dropped.
-/
import proofs.«118564_j3066606649549_2_alg».proof.Defs
import proofs.«118564_j3066606649549_2_alg».proof.Proof.Gen.Kernel
import proofs.«118564_j3066606649549_2_alg».proof.Proof.Gen.Kernel.Skeleton
import proofs.«118564_j3066606649549_2_alg».proof.Proof.Gen.Kernel.Launch
import proofs.«118564_j3066606649549_2_alg».proof.Proof.Gen.Kernel.Points
import proofs.«118564_j3066606649549_2_alg».proof.Proof.Gen.Kernel.Frame
import proofs.«118564_j3066606649549_2_alg».proof.Proof.Gen.KernelIdeal
import proofs.«118564_j3066606649549_2_alg».proof.Proof.Gen.KernelIdeal.Skeleton
import proofs.«118564_j3066606649549_2_alg».proof.Proof.Gen.KernelIdeal.Launch
import proofs.«118564_j3066606649549_2_alg».proof.Proof.Gen.KernelIdeal.Points
import proofs.«118564_j3066606649549_2_alg».proof.Proof.Gen.KernelIdeal.Frame
import proofs.«118564_j3066606649549_2_alg».proof.Proof.Gen.ReferenceIdeal
import proofs.«118564_j3066606649549_2_alg».proof.Proof.Gen.Pre_finite_inputs
import proofs.«118564_j3066606649549_2_alg».proof.Proof.KChain
import proofs.«118564_j3066606649549_2_alg».proof.Proof.RefValue
import proofs.«118564_j3066606649549_2_alg».proof.Proof.RefRead3
import Idealize.ShloMosaic.Adequacy
import Idealize.ShloMosaic.Init

set_option maxRecDepth 16384

noncomputable section

namespace Cert.Proof

open Idealize.ShloMosaic Idealize.SL.Sem

/-- The sparse products are the same host operations in both programs. -/
theorem spmm0_eq : Cert.ReferenceIdeal.RefStages.spmm0 = Cert.KernelIdeal.KValue.spmm0 := rfl
theorem spmm1_eq : Cert.ReferenceIdeal.RefStages.spmm1 = Cert.KernelIdeal.KValue.spmm1 := rfl
theorem spmm2_eq : Cert.ReferenceIdeal.RefStages.spmm2 = Cert.KernelIdeal.KValue.spmm2 := rfl

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- Both programs end at the network's value of the arguments. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefValue.run m' ρ')
  obtain ⟨h0, h1, h2, h3, h4, h5, h6, h7, h8, h9, h10, h11, h12, h13⟩ := hagree c
  rw [Cert.ReferenceIdeal.RefRead.netT_eq, h0, h1, h2, h3, h4, h5, h6, h7, h8, h9, h10, h11, h12, h13,
    spmm0_eq, spmm1_eq, spmm2_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
